-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x9x9x200 : Shape := ⟨4, ![32, 9, 9, 200]⟩
abbrev S200x3 : Shape := ⟨2, ![200, 3]⟩
abbrev S200 : Shape := ⟨1, ![200]⟩
abbrev S16200 : Shape := ⟨1, ![16200]⟩
abbrev S1024x16200 : Shape := ⟨2, ![1024, 16200]⟩
abbrev S1024 : Shape := ⟨1, ![1024]⟩
abbrev S1024x1024x3 : Shape := ⟨3, ![1024, 1024, 3]⟩
abbrev S1024x1024 : Shape := ⟨2, ![1024, 1024]⟩
abbrev S512x1024 : Shape := ⟨2, ![512, 1024]⟩
abbrev S512 : Shape := ⟨1, ![512]⟩
abbrev S_ : Shape := ⟨0, ![]⟩

class Facts : Prop where
  bcast_S_S32x9x9x200 : S_.BroadcastsInDim S32x9x9x200 (![] : Fin 0 → Fin S32x9x9x200.rank)
  reducesTo_S32x9x9x200_S_d0_1_2_3 : S32x9x9x200.ReducesTo [0, 1, 2, 3] S_
  h_S_ : 0 < S_.numel
  bcast_S_S200x3 : S_.BroadcastsInDim S200x3 (![] : Fin 0 → Fin S200x3.rank)
  reducesTo_S200x3_S_d0_1 : S200x3.ReducesTo [0, 1] S_
  bcast_S_S200 : S_.BroadcastsInDim S200 (![] : Fin 0 → Fin S200.rank)
  reducesTo_S200_S_d0 : S200.ReducesTo [0] S_
  bcast_S_S16200 : S_.BroadcastsInDim S16200 (![] : Fin 0 → Fin S16200.rank)
  reducesTo_S16200_S_d0 : S16200.ReducesTo [0] S_
  bcast_S_S1024x16200 : S_.BroadcastsInDim S1024x16200 (![] : Fin 0 → Fin S1024x16200.rank)
  reducesTo_S1024x16200_S_d0_1 : S1024x16200.ReducesTo [0, 1] S_
  bcast_S_S1024 : S_.BroadcastsInDim S1024 (![] : Fin 0 → Fin S1024.rank)
  reducesTo_S1024_S_d0 : S1024.ReducesTo [0] S_
  bcast_S_S1024x1024x3 : S_.BroadcastsInDim S1024x1024x3 (![] : Fin 0 → Fin S1024x1024x3.rank)
  reducesTo_S1024x1024x3_S_d0_1_2 : S1024x1024x3.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn_part5 {F : FTy → Type} [FloatOps F] (main_arg18 : FVec F S512x1024 .f32) (main_arg19 : FVec F S512 .f32) (main_v83 : IVec S_ 1) (main_v84 : FVec F S512 .f32) (main_cst_32 : FVec F S_ .f32) : IVec S_ 1 :=
  let main_v85 : FVec F S512 .f32 := broadcastInDim S512 ![] bcast_S_S512 main_cst_32
  let main_v86 : IVec S512 1 := cmpf .olt main_v84 main_v85
  let main_c_33 : IVec S_ 1 := constantI S_ 1 1#1
  let main_v87 : IVec S_ 1 := (fun x v => Host.reduce IntOp.andi x v reducesTo_S512_S_d0 h_S_) main_v86 main_c_33
  let main_v88 : IVec S_ 1 := andi main_v83 main_v87
  let main_v89 : FVec F S512x1024 .f32 := Host.absf main_arg18
  let main_cst_34 : FVec F S_ .f32 := constant S_ .f32 0x7F800000#32
  let main_v90 : FVec F S512x1024 .f32 := broadcastInDim S512x1024 ![] bcast_S_S512x1024 main_cst_34
  let main_v91 : IVec S512x1024 1 := cmpf .olt main_v89 main_v90
  let main_c_35 : IVec S_ 1 := constantI S_ 1 1#1
  let main_v92 : IVec S_ 1 := (fun x v => Host.reduce IntOp.andi x v reducesTo_S512x1024_S_d0_1 h_S_) main_v91 main_c_35
  let main_v93 : IVec S_ 1 := andi main_v88 main_v92
  let main_v94 : FVec F S512 .f32 := Host.absf main_arg19
  let main_cst_36 : FVec F S_ .f32 := constant S_ .f32 0x7F800000#32
  let main_v95 : FVec F S512 .f32 := broadcastInDim S512 ![] bcast_S_S512 main_cst_36
  let main_v96 : IVec S512 1 := cmpf .olt main_v94 main_v95
  let main_c_37 : IVec S_ 1 := constantI S_ 1 1#1
  let main_v97 : IVec S_ 1 := (fun x v => Host.reduce IntOp.andi x v reducesTo_S512_S_d0 h_S_) main_v96 main_c_37
  let main_v98 : IVec S_ 1 := andi main_v93 main_v97
  main_v98

def fn_part4 {F : FTy → Type} [FloatOps F] (main_arg14 : FVec F S1024x1024 .f32) (main_arg15 : FVec F S1024 .f32) (main_arg16 : FVec F S512x1024 .f32) (main_arg17 : FVec F S512 .f32) (main_arg18 : FVec F S512x1024 .f32) (main_arg19 : FVec F S512 .f32) (main_v63 : IVec S_ 1) (main_v67 : IVec S_ 1) : IVec S_ 1 :=
  let main_v68 : IVec S_ 1 := andi main_v63 main_v67
  let main_v69 : FVec F S1024x1024 .f32 := Host.absf main_arg14
  let main_cst_26 : FVec F S_ .f32 := constant S_ .f32 0x7F800000#32
  let main_v70 : FVec F S1024x1024 .f32 := broadcastInDim S1024x1024 ![] bcast_S_S1024x1024 main_cst_26
  let main_v71 : IVec S1024x1024 1 := cmpf .olt main_v69 main_v70
  let main_c_27 : IVec S_ 1 := constantI S_ 1 1#1
  let main_v72 : IVec S_ 1 := (fun x v => Host.reduce IntOp.andi x v reducesTo_S1024x1024_S_d0_1 h_S_) main_v71 main_c_27
  let main_v73 : IVec S_ 1 := andi main_v68 main_v72
  let main_v74 : FVec F S1024 .f32 := Host.absf main_arg15
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  let main_v79 : FVec F S512x1024 .f32 := Host.absf main_arg16
  let main_cst_30 : FVec F S_ .f32 := constant S_ .f32 0x7F800000#32
  let main_v80 : FVec F S512x1024 .f32 := broadcastInDim S512x1024 ![] bcast_S_S512x1024 main_cst_30
  let main_v81 : IVec S512x1024 1 := cmpf .olt main_v79 main_v80
  let main_c_31 : IVec S_ 1 := constantI S_ 1 1#1
  let main_v82 : IVec S_ 1 := (fun x v => Host.reduce IntOp.andi x v reducesTo_S512x1024_S_d0_1 h_S_) main_v81 main_c_31
  let main_v83 : IVec S_ 1 := andi main_v78 main_v82
  let main_v84 : FVec F S512 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S1024x1024x3 .f32) (main_arg12 : FVec F S1024 .f32) (main_arg13 : FVec F S1024x1024 .f32) (main_arg14 : FVec F S1024x1024 .f32) (main_arg15 : FVec F S1024 .f32) (main_arg16 : FVec F S512x1024 .f32) (main_arg17 : FVec F S512 .f32) (main_arg18 : FVec F S512x1024 .f32) (main_arg19 : FVec F S512 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024x3 .f32 := Host.absf main_arg11
  let main_cst_20 : FVec F S_ .f32 := constant S_ .f32 0x7F800000#32
  let main_v55 : FVec F S1024x1024x3 .f32 := broadcastInDim S1024x1024x3 ![] bcast_S_S1024x1024x3 main_cst_20
  let main_v56 : IVec S1024x1024x3 1 := cmpf .olt main_v54 main_v55
  let main_c_21 : IVec S_ 1 := constantI S_ 1 1#1
  let main_v57 : IVec S_ 1 := (fun x v => Host.reduce IntOp.andi x v reducesTo_S1024x1024x3_S_d0_1_2 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_arg17 main_arg18 main_arg19 main_v63 main_v67

def fn_part2 {F : FTy → Type} [FloatOps F] (main_arg7 : FVec F S1024x16200 .f32) (main_arg8 : FVec F S1024 .f32) (main_arg9 : FVec F S1024x1024x3 .f32) (main_arg10 : FVec F S1024 .f32) (main_arg11 : FVec F S1024x1024x3 .f32) (main_arg12 : FVec F S1024 .f32) (main_arg13 : FVec F S1024x1024 .f32) (main_arg14 : FVec F S1024x1024 .f32) (main_arg15 : FVec F S1024 .f32) (main_arg16 : FVec F S512x1024 .f32) (main_arg17 : FVec F S512 .f32) (main_arg18 : FVec F S512x1024 .f32) (main_arg19 : FVec F S512 .f32) (main_v33 : IVec S_ 1) : IVec S_ 1 :=
  let main_v34 : FVec F S1024x16200 .f32 := Host.absf main_arg7
  let main_cst_12 : FVec F S_ .f32 := constant S_ .f32 0x7F800000#32
  let main_v35 : FVec F S1024x16200 .f32 := broadcastInDim S1024x16200 ![] bcast_S_S1024x16200 main_cst_12
  let main_v36 : IVec S1024x16200 1 := cmpf .olt main_v34 main_v35
  let main_c_13 : IVec S_ 1 := constantI S_ 1 1#1
  let main_v37 : IVec S_ 1 := (fun x v => Host.reduce IntOp.andi x v reducesTo_S1024x16200_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024x3 .f32 := Host.absf main_arg9
  let main_cst_16 : FVec F S_ .f32 := constant S_ .f32 0x7F800000#32
  let main_v45 : FVec F S1024x1024x3 .f32 := broadcastInDim S1024x1024x3 ![] bcast_S_S1024x1024x3 main_cst_16
  let main_v46 : IVec S1024x1024x3 1 := cmpf .olt main_v44 main_v45
  let main_c_17 : IVec S_ 1 := constantI S_ 1 1#1
  let main_v47 : IVec S_ 1 := (fun x v => Host.reduce IntOp.andi x v reducesTo_S1024x1024x3_S_d0_1_2 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S16200 .f32) (main_arg5 : FVec F S1024x16200 .f32) (main_arg6 : FVec F S1024 .f32) (main_arg7 : FVec F S1024x16200 .f32) (main_arg8 : FVec F S1024 .f32) (main_arg9 : FVec F S1024x1024x3 .f32) (main_arg10 : FVec F S1024 .f32) (main_arg11 : FVec F S1024x1024x3 .f32) (main_arg12 : FVec F S1024 .f32) (main_arg13 : FVec F S1024x1024 .f32) (main_arg14 : FVec F S1024x1024 .f32) (main_arg15 : FVec F S1024 .f32) (main_arg16 : FVec F S512x1024 .f32) (main_arg17 : FVec F S512 .f32) (main_arg18 : FVec F S512x1024 .f32) (main_arg19 : FVec F S512 .f32) (main_v13 : IVec S_ 1) (main_v16 : IVec S16200 1) : IVec S_ 1 :=
  let main_c_5 : IVec S_ 1 := constantI S_ 1 1#1
  let main_v17 : IVec S_ 1 := (fun x v => Host.reduce IntOp.andi x v reducesTo_S16200_S_d0 h_S_) main_v16 main_c_5
  let main_v18 : IVec S_ 1 := andi main_v13 main_v17
  let main_v19 : FVec F S16200 .f32 := Host.absf main_arg4
  let main_cst_6 : FVec F S_ .f32 := constant S_ .f32 0x7F800000#32
  let main_v20 : FVec F S16200 .f32 := broadcastInDim S16200 ![] bcast_S_S16200 main_cst_6
  let main_v21 : IVec S16200 1 := cmpf .olt main_v19 main_v20
  let main_c_7 : IVec S_ 1 := constantI S_ 1 1#1
  let main_v22 : IVec S_ 1 := (fun x v => Host.reduce IntOp.andi x v reducesTo_S16200_S_d0 h_S_) main_v21 main_c_7
  let main_v23 : IVec S_ 1 := andi main_v18 main_v22
  let main_v24 : FVec F S1024x16200 .f32 := Host.absf main_arg5
  let main_cst_8 : FVec F S_ .f32 := constant S_ .f32 0x7F800000#32
  let main_v25 : FVec F S1024x16200 .f32 := broadcastInDim S1024x16200 ![] bcast_S_S1024x16200 main_cst_8
  let main_v26 : IVec S1024x16200 1 := cmpf .olt main_v24 main_v25
  let main_c_9 : IVec S_ 1 := constantI S_ 1 1#1
  let main_v27 : IVec S_ 1 := (fun x v => Host.reduce IntOp.andi x v reducesTo_S1024x16200_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S32x9x9x200 .f32) (main_arg1 : FVec F S200x3 .f32) (main_arg2 : FVec F S200 .f32) (main_arg3 : FVec F S16200 .f32) (main_arg4 : FVec F S16200 .f32) (main_arg5 : FVec F S1024x16200 .f32) (main_arg6 : FVec F S1024 .f32) (main_arg7 : FVec F S1024x16200 .f32) (main_arg8 : FVec F S1024 .f32) (main_arg9 : FVec F S1024x1024x3 .f32) (main_arg10 : FVec F S1024 .f32) (main_arg11 : FVec F S1024x1024x3 .f32) (main_arg12 : FVec F S1024 .f32) (main_arg13 : FVec F S1024x1024 .f32) (main_arg14 : FVec F S1024x1024 .f32) (main_arg15 : FVec F S1024 .f32) (main_arg16 : FVec F S512x1024 .f32) (main_arg17 : FVec F S512 .f32) (main_arg18 : FVec F S512x1024 .f32) (main_arg19 : FVec F S512 .f32) : IVec S_ 1 :=
  let main_v0 : FVec F S32x9x9x200 .f32 := Host.absf main_arg0
  let main_cst : FVec F S_ .f32 := constant S_ .f32 0x7F800000#32
  let main_v1 : FVec F S32x9x9x200 .f32 := broadcastInDim S32x9x9x200 ![] bcast_S_S32x9x9x200 main_cst
  let main_v2 : IVec S32x9x9x200 1 := cmpf .olt main_v0 main_v1
  let main_c : IVec S_ 1 := constantI S_ 1 1#1
  let main_v3 : IVec S_ 1 := (fun x v => Host.reduce IntOp.andi x v reducesTo_S32x9x9x200_S_d0_1_2_3 h_S_) main_v2 main_c
  let main_v4 : FVec F S200x3 .f32 := Host.absf main_arg1
  let main_cst_0 : FVec F S_ .f32 := constant S_ .f32 0x7F800000#32
  let main_v5 : FVec F S200x3 .f32 := broadcastInDim S200x3 ![] bcast_S_S200x3 main_cst_0
  let main_v6 : IVec S200x3 1 := cmpf .olt main_v4 main_v5
  let main_c_1 : IVec S_ 1 := constantI S_ 1 1#1
  let main_v7 : IVec S_ 1 := (fun x v => Host.reduce IntOp.andi x v reducesTo_S200x3_S_d0_1 h_S_) main_v6 main_c_1
  let main_v8 : IVec S_ 1 := andi main_v3 main_v7
  let main_v9 : FVec F S200 .f32 := Host.absf main_arg2
  let main_cst_2 : FVec F S_ .f32 := constant S_ .f32 0x7F800000#32
  let main_v10 : FVec F S200 .f32 := broadcastInDim S200 ![] bcast_S_S200 main_cst_2
  let main_v11 : IVec S200 1 := cmpf .olt main_v9 main_v10
  let main_c_3 : IVec S_ 1 := constantI S_ 1 1#1
  let main_v12 : IVec S_ 1 := (fun x v => Host.reduce IntOp.andi x v reducesTo_S200_S_d0 h_S_) main_v11 main_c_3
  let main_v13 : IVec S_ 1 := andi main_v8 main_v12
  let main_v14 : FVec F S16200 .f32 := Host.absf main_arg3
  let main_cst_4 : FVec F S_ .f32 := constant S_ .f32 0x7F800000#32
  let main_v15 : FVec F S16200 .f32 := broadcastInDim S16200 ![] bcast_S_S16200 main_cst_4
  let main_v16 : IVec S16200 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S32x9x9x200 : Shape := ⟨4, ![32, 9, 9, 200]⟩
abbrev S200x3 : Shape := ⟨2, ![200, 3]⟩
abbrev S200 : Shape := ⟨1, ![200]⟩
abbrev S16200 : Shape := ⟨1, ![16200]⟩
abbrev S1024x16200 : Shape := ⟨2, ![1024, 16200]⟩
abbrev S1024 : Shape := ⟨1, ![1024]⟩
abbrev S1024x1024x3 : Shape := ⟨3, ![1024, 1024, 3]⟩
abbrev S1024x1024 : Shape := ⟨2, ![1024, 1024]⟩
abbrev S512x1024 : Shape := ⟨2, ![512, 1024]⟩
abbrev S512 : Shape := ⟨1, ![512]⟩
abbrev S32x200x9x9 : Shape := ⟨4, ![32, 200, 9, 9]⟩
abbrev S_ : Shape := ⟨0, ![]⟩
abbrev S32x200x9x11 : Shape := ⟨4, ![32, 200, 9, 11]⟩
abbrev S200x1 : Shape := ⟨2, ![200, 1]⟩
abbrev S1x200x1x1 : Shape := ⟨4, ![1, 200, 1, 1]⟩
abbrev S32x16200 : Shape := ⟨2, ![32, 16200]⟩
abbrev S32 : Shape := ⟨1, ![32]⟩
abbrev S32x1 : Shape := ⟨2, ![32, 1]⟩
abbrev S1x16200 : Shape := ⟨2, ![1, 16200]⟩
abbrev S16200x1024 : Shape := ⟨2, ![16200, 1024]⟩
abbrev S32x1024 : Shape := ⟨2, ![32, 1024]⟩
abbrev S1x1024 : Shape := ⟨2, ![1, 1024]⟩
abbrev S1024x1024x1 : Shape := ⟨3, ![1024, 1024, 1]⟩
abbrev S1024x1 : Shape := ⟨2, ![1024, 1]⟩
abbrev S32x256 : Shape := ⟨2, ![32, 256]⟩
abbrev S256x256 : Shape := ⟨2, ![256, 256]⟩
abbrev S32x256x1 : Shape := ⟨3, ![32, 256, 1]⟩
abbrev S1x256x256 : Shape := ⟨3, ![1, 256, 256]⟩
abbrev S32x256x256 : Shape := ⟨3, ![32, 256, 256]⟩
abbrev S1024x512 : Shape := ⟨2, ![1024, 512]⟩
abbrev S32x512 : Shape := ⟨2, ![32, 512]⟩
abbrev S1x512 : Shape := ⟨2, ![1, 512]⟩

abbrev nBuf : Space → Nat
  | .hbm => 121
  | .vmem => 14
  | .smem => 0
  | _ => 0

abbrev bufTy : (tb : Table) → Fin (tcTables nBuf tb) → BufTy
  | .hbm, ⟨0, _⟩ => ⟨S32x9x9x200, .f32⟩
  | .hbm, ⟨1, _⟩ => ⟨S200x3, .f32⟩
  | .hbm, ⟨2, _⟩ => ⟨S200, .f32⟩
  | .hbm, ⟨3, _⟩ => ⟨S16200, .f32⟩
  | .hbm, ⟨4, _⟩ => ⟨S16200, .f32⟩
  | .hbm, ⟨5, _⟩ => ⟨S1024x16200, .f32⟩
  | .hbm, ⟨6, _⟩ => ⟨S1024, .f32⟩
  | .hbm, ⟨7, _⟩ => ⟨S1024x16200, .f32⟩
  | .hbm, ⟨8, _⟩ => ⟨S1024, .f32⟩
  | .hbm, ⟨9, _⟩ => ⟨S1024x1024x3, .f32⟩
  | .hbm, ⟨10, _⟩ => ⟨S1024, .f32⟩
  | .hbm, ⟨11, _⟩ => ⟨S1024x1024x3, .f32⟩
  | .hbm, ⟨12, _⟩ => ⟨S1024, .f32⟩
  | .hbm, ⟨13, _⟩ => ⟨S1024x1024, .f32⟩
  | .hbm, ⟨14, _⟩ => ⟨S1024x1024, .f32⟩
  | .hbm, ⟨15, _⟩ => ⟨S1024, .f32⟩
  | .hbm, ⟨16, _⟩ => ⟨S512x1024, .f32⟩
  | .hbm, ⟨17, _⟩ => ⟨S512, .f32⟩
  | .hbm, ⟨18, _⟩ => ⟨S512x1024, .f32⟩
  | .hbm, ⟨19, _⟩ => ⟨S512, .f32⟩
  | .hbm, ⟨20, _⟩ => ⟨S32x200x9x9, .f32⟩
  | .hbm, ⟨21, _⟩ => ⟨S_, .i32⟩
  | .hbm, ⟨22, _⟩ => ⟨S_, .f32⟩
  | .hbm, ⟨23, _⟩ => ⟨S32x200x9x11, .f32⟩
  | .hbm, ⟨24, _⟩ => ⟨S32x200x9x9, .f32⟩
  | .hbm, ⟨25, _⟩ => ⟨S200x1, .f32⟩
  | .hbm, ⟨26, _⟩ => ⟨S200, .f32⟩
  | .hbm, ⟨27, _⟩ => ⟨S1x200x1x1, .f32⟩
  | .hbm, ⟨28, _⟩ => ⟨S32x200x9x9, .f32⟩
  | .hbm, ⟨29, _⟩ => ⟨S32x200x9x9, .f32⟩
  | .hbm, ⟨30, _⟩ => ⟨S32x200x9x9, .f32⟩
  | .hbm, ⟨31, _⟩ => ⟨S200x1, .f32⟩
  | .hbm, ⟨32, _⟩ => ⟨S200, .f32⟩
  | .hbm, ⟨33, _⟩ => ⟨S1x200x1x1, .f32⟩
  | .hbm, ⟨34, _⟩ => ⟨S32x200x9x9, .f32⟩
  | .hbm, ⟨35, _⟩ => ⟨S32x200x9x9, .f32⟩
  | .hbm, ⟨36, _⟩ => ⟨S32x200x9x9, .f32⟩
  | .hbm, ⟨37, _⟩ => ⟨S32x200x9x9, .f32⟩
  | .hbm, ⟨38, _⟩ => ⟨S200x1, .f32⟩
  | .hbm, ⟨39, _⟩ => ⟨S200, .f32⟩
  | .hbm, ⟨40, _⟩ => ⟨S1x200x1x1, .f32⟩
  | .hbm, ⟨41, _⟩ => ⟨S32x200x9x9, .f32⟩
  | .hbm, ⟨42, _⟩ => ⟨S32x200x9x9, .f32⟩
  | .hbm, ⟨43, _⟩ => ⟨S32x200x9x9, .f32⟩
  | .hbm, ⟨44, _⟩ => ⟨S1x200x1x1, .f32⟩
  | .hbm, ⟨45, _⟩ => ⟨S32x200x9x9, .f32⟩
  | .hbm, ⟨46, _⟩ => ⟨S32x200x9x9, .f32⟩
  | .hbm, ⟨47, _⟩ => ⟨S32x9x9x200, .f32⟩
  | .hbm, ⟨48, _⟩ => ⟨S32x16200, .f32⟩
  | .hbm, ⟨49, _⟩ => ⟨S_, .f32⟩
  | .hbm, ⟨50, _⟩ => ⟨S32, .f32⟩
  | .hbm, ⟨51, _⟩ => ⟨S32x1, .f32⟩
  | .hbm, ⟨52, _⟩ => ⟨S_, .f32⟩
  | .hbm, ⟨53, _⟩ => ⟨S32x1, .f32⟩
  | .hbm, ⟨54, _⟩ => ⟨S32x1, .f32⟩
  | .hbm, ⟨55, _⟩ => ⟨S32x16200, .f32⟩
  | .hbm, ⟨56, _⟩ => ⟨S32x16200, .f32⟩
  | .hbm, ⟨57, _⟩ => ⟨S32x16200, .f32⟩
  | .hbm, ⟨58, _⟩ => ⟨S_, .f32⟩
  | .hbm, ⟨59, _⟩ => ⟨S32, .f32⟩
  | .hbm, ⟨60, _⟩ => ⟨S32x1, .f32⟩
  | .hbm, ⟨61, _⟩ => ⟨S_, .f32⟩
  | .hbm, ⟨62, _⟩ => ⟨S32x1, .f32⟩
  | .hbm, ⟨63, _⟩ => ⟨S32x1, .f32⟩
  | .hbm, ⟨64, _⟩ => ⟨S32x16200, .f32⟩
  | .hbm, ⟨65, _⟩ => ⟨S32x16200, .f32⟩
  | .hbm, ⟨66, _⟩ => ⟨S_, .f32⟩
  | .hbm, ⟨67, _⟩ => ⟨S32x1, .f32⟩
  | .hbm, ⟨68, _⟩ => ⟨S32x1, .f32⟩
  | .hbm, ⟨69, _⟩ => ⟨S32x1, .f32⟩
  | .hbm, ⟨70, _⟩ => ⟨S32x16200, .f32⟩
  | .hbm, ⟨71, _⟩ => ⟨S32x16200, .f32⟩
  | .hbm, ⟨72, _⟩ => ⟨S1x16200, .f32⟩
  | .hbm, ⟨73, _⟩ => ⟨S32x16200, .f32⟩
  | .hbm, ⟨74, _⟩ => ⟨S32x16200, .f32⟩
  | .hbm, ⟨75, _⟩ => ⟨S1x16200, .f32⟩
  | .hbm, ⟨76, _⟩ => ⟨S32x16200, .f32⟩
  | .hbm, ⟨77, _⟩ => ⟨S32x16200, .f32⟩
  | .hbm, ⟨78, _⟩ => ⟨S16200x1024, .f32⟩
  | .hbm, ⟨79, _⟩ => ⟨S32x1024, .f32⟩
  | .hbm, ⟨80, _⟩ => ⟨S1x1024, .f32⟩
  | .hbm, ⟨81, _⟩ => ⟨S32x1024, .f32⟩
  | .hbm, ⟨82, _⟩ => ⟨S32x1024, .f32⟩
  | .hbm, ⟨83, _⟩ => ⟨S16200x1024, .f32⟩
  | .hbm, ⟨84, _⟩ => ⟨S32x1024, .f32⟩
  | .hbm, ⟨85, _⟩ => ⟨S1x1024, .f32⟩
  | .hbm, ⟨86, _⟩ => ⟨S32x1024, .f32⟩
  | .hbm, ⟨87, _⟩ => ⟨S32x1024, .f32⟩
  | .hbm, ⟨88, _⟩ => ⟨S1024x1024x1, .f32⟩
  | .hbm, ⟨89, _⟩ => ⟨S1024x1024, .f32⟩
  | .hbm, ⟨90, _⟩ => ⟨S1024x1024, .f32⟩
  | .hbm, ⟨91, _⟩ => ⟨S32x1024, .f32⟩
  | .hbm, ⟨92, _⟩ => ⟨S1x1024, .f32⟩
  | .hbm, ⟨93, _⟩ => ⟨S32x1024, .f32⟩
  | .hbm, ⟨94, _⟩ => ⟨S32x1024, .f32⟩
  | .hbm, ⟨95, _⟩ => ⟨S1024x1024x1, .f32⟩
  | .hbm, ⟨96, _⟩ => ⟨S1024x1024, .f32⟩
  | .hbm, ⟨97, _⟩ => ⟨S1024x1024, .f32⟩
  | .hbm, ⟨98, _⟩ => ⟨S32x1024, .f32⟩
  | .hbm, ⟨99, _⟩ => ⟨S1x1024, .f32⟩
  | .hbm, ⟨100, _⟩ => ⟨S32x1024, .f32⟩
  | .hbm, ⟨101, _⟩ => ⟨S32x1024, .f32⟩
  | .hbm, ⟨102, _⟩ => ⟨S1024x1, .f32⟩
  | .hbm, ⟨103, _⟩ => ⟨S1024x1024, .f32⟩
  | .hbm, ⟨104, _⟩ => ⟨S1024x1024, .f32⟩
  | .hbm, ⟨105, _⟩ => ⟨S1024x1, .f32⟩
  | .hbm, ⟨106, _⟩ => ⟨S1024x1024, .f32⟩
  | .hbm, ⟨107, _⟩ => ⟨S1024x1024, .f32⟩
  | .hbm, ⟨108, _⟩ => ⟨S32x1024, .f32⟩
  | .hbm, ⟨109, _⟩ => ⟨S32x1024, .f32⟩
  | .hbm, ⟨110, _⟩ => ⟨S1024x512, .f32⟩
  | .hbm, ⟨111, _⟩ => ⟨S32x512, .f32⟩
  | .hbm, ⟨112, _⟩ => ⟨S1x512, .f32⟩
  | .hbm, ⟨113, _⟩ => ⟨S32x512, .f32⟩
  | .hbm, ⟨114, _⟩ => ⟨S32x512, .f32⟩
  | .hbm, ⟨115, _⟩ => ⟨S1024x512, .f32⟩
  | .hbm, ⟨116, _⟩ => ⟨S32x512, .f32⟩
  | .hbm, ⟨117, _⟩ => ⟨S1x512, .f32⟩
  | .hbm, ⟨118, _⟩ => ⟨S32x512, .f32⟩
  | .hbm, ⟨119, _⟩ => ⟨S32x512, .f32⟩
  | .hbm, ⟨120, _⟩ => ⟨S32x512, .f32⟩
  | .local _ .vmem, ⟨0, _⟩ => ⟨S32x256, .f32⟩
  | .local _ .vmem, ⟨1, _⟩ => ⟨S32x256, .f32⟩
  | .local _ .vmem, ⟨2, _⟩ => ⟨S256x256, .f32⟩
  | .local _ .vmem, ⟨3, _⟩ => ⟨S256x256, .f32⟩
  | .local _ .vmem, ⟨4, _⟩ => ⟨S32x256, .f32⟩
  | .local _ .vmem, ⟨5, _⟩ => ⟨S32x256, .f32⟩
  | .local _ .vmem, ⟨6, _⟩ => ⟨S32x256, .f32⟩
  | .local _ .vmem, ⟨7, _⟩ => ⟨S32x256, .f32⟩
  | .local _ .vmem, ⟨8, _⟩ => ⟨S32x256, .f32⟩
  | .local _ .vmem, ⟨9, _⟩ => ⟨S256x256, .f32⟩
  | .local _ .vmem, ⟨10, _⟩ => ⟨S256x256, .f32⟩
  | .local _ .vmem, ⟨11, _⟩ => ⟨S32x256, .f32⟩
  | .local _ .vmem, ⟨12, _⟩ => ⟨S32x256, .f32⟩
  | .local _ .vmem, ⟨13, _⟩ => ⟨S32x256, .f32⟩
  | _, _ => ⟨S32x9x9x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_c : Ref sig .tc := ⟨.hbm, 21, rfl⟩
abbrev main_call0_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst : Ref sig .tc := ⟨.hbm, 49, rfl⟩
abbrev main_v27 : Ref sig .tc := ⟨.hbm, 50, rfl⟩
abbrev main_v28 : Ref sig .tc := ⟨.hbm, 51, rfl⟩
abbrev main_cst_0 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_1 : Ref sig .tc := ⟨.hbm, 58, rfl⟩
abbrev main_v34 : Ref sig .tc := ⟨.hbm, 59, rfl⟩
abbrev main_v35 : Ref sig .tc := ⟨.hbm, 60, rfl⟩
abbrev main_cst_2 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_3 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_8 : BitVec 32 := 0#32
  let v21 : BitVec 1 := Scalar.cmpi .ne v20 c0_i32_8
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_8 : BitVec 32 := 0#32
  let v21 : BitVec 1 := Scalar.cmpi .ne v20 c0_i32_8
  v21

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S32x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S32x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  transposes_S32x9x9x200_S32x200x9x9_0_3_1_2 : S32x9x9x200.Transposes [0, 3, 1, 2] S32x200x9x9
  pads_S32x200x9x9_S32x200x9x11_000_000_000_110 : S32x200x9x9.Pads (![0, 0, 0, 1] : Fin 4 → Nat) ![0, 0, 0, 1] ![0, 0, 0, 0] S32x200x9x11
  h_S_ : 0 < S_.numel
  slices_S32x200x9x11_S32x200x9x9_0_0_0_0 : S32x200x9x11.Slices ![0, 0, 0, 0] S32x200x9x9
  slices_S200x3_S200x1_0_0 : S200x3.Slices ![0, 0] S200x1
  shapeCasts_S200x1_S200 : S200x1.ShapeCasts S200
  bcast_S200_S1x200x1x1_1 : S200.BroadcastsInDim S1x200x1x1 (![1] : Fin 1 → Fin S1x200x1x1.rank)
  bcast_S1x200x1x1_S32x200x9x9_0_1_2_3 : S1x200x1x1.BroadcastsInDim S32x200x9x9 (![0, 1, 2, 3] : Fin 4 → Fin S32x200x9x9.rank)
  slices_S32x200x9x11_S32x200x9x9_0_0_0_1 : S32x200x9x11.Slices ![0, 0, 0, 1] S32x200x9x9
  slices_S200x3_S200x1_0_1 : S200x3.Slices ![0, 1] S200x1
  slices_S32x200x9x11_S32x200x9x9_0_0_0_2 : S32x200x9x11.Slices ![0, 0, 0, 2] S32x200x9x9
  slices_S200x3_S200x1_0_2 : S200x3.Slices ![0, 2] S200x1
  transposes_S32x200x9x9_S32x9x9x200_0_2_3_1 : S32x200x9x9.Transposes [0, 2, 3, 1] S32x9x9x200
  shapeCasts_S32x9x9x200_S32x16200 : S32x9x9x200.ShapeCasts S32x16200
  reducesTo_S32x16200_S32_d1 : S32x16200.ReducesTo [1] S32
  bcast_S32_S32x1_0 : S32.BroadcastsInDim S32x1 (![0] : Fin 1 → Fin S32x1.rank)
  bcast_S_S32x1 : S_.BroadcastsInDim S32x1 (![] : Fin 0 → Fin S32x1.rank)
  bcast_S32x1_S32x16200_0_1 : S32x1.BroadcastsInDim S32x16200 (![0, 1] : Fin 2 → Fin S32x16200.rank)
  bcast_S16200_S1x16200_1 : S16200.BroadcastsInDim S1x16200 (![1] : Fin 1 → Fin S1x16200.rank)
  bcast_S1x16200_S32x16200_0_1 : S1x16200.BroadcastsInDim S32x16200 (![0, 1] : Fin 2 → Fin S32x16200.rank)
  transposes_S1024x16200_S16200x1024_1_0 : S1024x16200.Transposes [1, 0] S16200x1024
  bcast_S1024_S1x1024_1 : S1024.BroadcastsInDim S1x1024 (![1] : Fin 1 → Fin S1x1024.rank)
  bcast_S1x1024_S32x1024_0_1 : S1x1024.BroadcastsInDim S32x1024 (![0, 1] : Fin 2 → Fin S32x1024.rank)
  slices_S1024x1024x3_S1024x1024x1_0_0_1 : S1024x1024x3.Slices ![0, 0, 1] S1024x1024x1
  shapeCasts_S1024x1024x1_S1024x1024 : S1024x1024x1.ShapeCasts S1024x1024
  transposes_S1024x1024_S1024x1024_1_0 : S1024x1024.Transposes [1, 0] S1024x1024
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S32x256_S32x256x1 : S32x256.ShapeCasts S32x256x1
  shapeCasts_S256x256_S1x256x256 : S256x256.ShapeCasts S1x256x256
  broadcasts_S32x256x1_S32x256x256 : S32x256x1.Broadcasts S32x256x256
  broadcasts_S1x256x256_S32x256x256 : S1x256x256.Broadcasts S32x256x256
  reduces_S32x256x256_S32x256 : S32x256x256.Reduces [2] S32x256
  transposes_S512x1024_S1024x512_1_0 : S512x1024.Transposes [1, 0] S1024x512
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  dot_S32x16200_S16200x1024_S32x1024_1_0_0_1_n_n_wf : DotDims.WF S32x16200 S16200x1024 S32x1024 [1] [0] [0] [1] [] []
  dot_S32x1024_S1024x1024_S32x1024_1_0_0_1_n_n_wf : DotDims.WF S32x1024 S1024x1024 S32x1024 [1] [0] [0] [1] [] []
  dot_S32x1024_S1024x512_S32x512_1_0_0_1_n_n_wf : DotDims.WF S32x1024 S1024x512 S32x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256.size a ≤ S32x1024.size a
  hwx0_0 : ∀ i : grid0.Coords, EltTy.bits .f32 = 32 ∨ (Rect.block (s := S32x1024) S32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S1024x1024.size a
  hwx0_1 : ∀ i : grid0.Coords, EltTy.bits .f32 = 32 ∨ (Rect.block (s := S1024x1024) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x256.size a ≤ S32x1024.size a
  hwx0_2 : ∀ i : grid0.Coords, EltTy.bits .f32 = 32 ∨ (Rect.block (s := S32x1024) S32x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x256.size a ≤ S32x1024.size a
  hwx1_0 : ∀ i : grid1.Coords, EltTy.bits .f32 = 32 ∨ (Rect.block (s := S32x1024) S32x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S1024x1024.size a
  hwx1_1 : ∀ i : grid1.Coords, EltTy.bits .f32 = 32 ∨ (Rect.block (s := S1024x1024) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x256.size a ≤ S32x1024.size a
  hwx1_2 : ∀ i : grid1.Coords, EltTy.bits .f32 = 32 ∨ (Rect.block (s := S32x1024) S32x256.size (cc1_transform_2 i) (hinb1_2 i)).WholeWords (EltTy.packing .f32)

variable [Facts₀]

def dot_S32x16200_S16200x1024_S32x1024_1_0_0_1_n_n : DotDims S32x16200 S16200x1024 S32x1024 where
  lhsContracting := [1]
  rhsContracting := [0]
  lhsNonContracting := [0]
  rhsNonContracting := [1]
  lhsBatch := []
  rhsBatch := []
  wf := dot_S32x16200_S16200x1024_S32x1024_1_0_0_1_n_n_wf
def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf
def dot_S32x1024_S1024x512_S32x512_1_0_0_1_n_n : DotDims S32x1024 S1024x512 S32x512 where
  lhsContracting := [1]
  rhsContracting := [0]
  lhsNonContracting := [0]
  rhsNonContracting := [1]
  lhsBatch := []
  rhsBatch := []
  wf := dot_S32x1024_S1024x512_S32x512_1_0_0_1_n_n_wf

abbrev win0_0 : Pipeline.Window sig grid0 :=
  Pipeline.Window.ofSpec (Memref.whole main_v67) S32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v77) S256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v81) S32x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v74) S32x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v80) S256x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v82) S32x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S32x9x9x200 : Shape := ⟨4, ![32, 9, 9, 200]⟩
abbrev S200x3 : Shape := ⟨2, ![200, 3]⟩
abbrev S200 : Shape := ⟨1, ![200]⟩
abbrev S16200 : Shape := ⟨1, ![16200]⟩
abbrev S1024x16200 : Shape := ⟨2, ![1024, 16200]⟩
abbrev S1024 : Shape := ⟨1, ![1024]⟩
abbrev S1024x1024x3 : Shape := ⟨3, ![1024, 1024, 3]⟩
abbrev S1024x1024 : Shape := ⟨2, ![1024, 1024]⟩
abbrev S512x1024 : Shape := ⟨2, ![512, 1024]⟩
abbrev S512 : Shape := ⟨1, ![512]⟩
abbrev S32x200x9x9 : Shape := ⟨4, ![32, 200, 9, 9]⟩
abbrev S_ : Shape := ⟨0, ![]⟩
abbrev S32x200x9x11 : Shape := ⟨4, ![32, 200, 9, 11]⟩
abbrev S200x1 : Shape := ⟨2, ![200, 1]⟩
abbrev S1x200x1x1 : Shape := ⟨4, ![1, 200, 1, 1]⟩
abbrev S32x16200 : Shape := ⟨2, ![32, 16200]⟩
abbrev S32 : Shape := ⟨1, ![32]⟩
abbrev S32x1 : Shape := ⟨2, ![32, 1]⟩
abbrev S1x16200 : Shape := ⟨2, ![1, 16200]⟩
abbrev S16200x1024 : Shape := ⟨2, ![16200, 1024]⟩
abbrev S32x1024 : Shape := ⟨2, ![32, 1024]⟩
abbrev S1x1024 : Shape := ⟨2, ![1, 1024]⟩
abbrev S1024x1024x1 : Shape := ⟨3, ![1024, 1024, 1]⟩
abbrev S32x1024x1 : Shape := ⟨3, ![32, 1024, 1]⟩
abbrev S1024x1 : Shape := ⟨2, ![1024, 1]⟩
abbrev S1x1024x1024 : Shape := ⟨3, ![1, 1024, 1024]⟩
abbrev S32x1024x1024 : Shape := ⟨3, ![32, 1024, 1024]⟩
abbrev S1024x512 : Shape := ⟨2, ![1024, 512]⟩
abbrev S32x512 : Shape := ⟨2, ![32, 512]⟩
abbrev S1x512 : Shape := ⟨2, ![1, 512]⟩

abbrev nBuf : Space → Nat
  | .hbm => 141
  | .vmem => 0
  | .smem => 0
  | _ => 0

abbrev hbmTy0_0 (i : Nat) : BufTy := match i % 128 with
  | 0 => ⟨S32x9x9x200, .f32⟩
  | 1 => ⟨S200x3, .f32⟩
  | 2 => ⟨S200, .f32⟩
  | 3 => ⟨S16200, .f32⟩
  | 4 => ⟨S16200, .f32⟩
  | 5 => ⟨S1024x16200, .f32⟩
  | 6 => ⟨S1024, .f32⟩
  | 7 => ⟨S1024x16200, .f32⟩
  | 8 => ⟨S1024, .f32⟩
  | 9 => ⟨S1024x1024x3, .f32⟩
  | 10 => ⟨S1024, .f32⟩
  | 11 => ⟨S1024x1024x3, .f32⟩
  | 12 => ⟨S1024, .f32⟩
  | 13 => ⟨S1024x1024, .f32⟩
  | 14 => ⟨S1024x1024, .f32⟩
  | 15 => ⟨S1024, .f32⟩
  | 16 => ⟨S512x1024, .f32⟩
  | 17 => ⟨S512, .f32⟩
  | 18 => ⟨S512x1024, .f32⟩
  | 19 => ⟨S512, .f32⟩
  | 20 => ⟨S32x200x9x9, .f32⟩
  | 21 => ⟨S_, .i32⟩
  | 22 => ⟨S_, .f32⟩
  | 23 => ⟨S32x200x9x11, .f32⟩
  | 24 => ⟨S32x200x9x9, .f32⟩
  | 25 => ⟨S200x1, .f32⟩
  | 26 => ⟨S200, .f32⟩
  | 27 => ⟨S1x200x1x1, .f32⟩
  | 28 => ⟨S32x200x9x9, .f32⟩
  | 29 => ⟨S32x200x9x9, .f32⟩
  | 30 => ⟨S32x200x9x9, .f32⟩
  | 31 => ⟨S200x1, .f32⟩
  | 32 => ⟨S200, .f32⟩
  | 33 => ⟨S1x200x1x1, .f32⟩
  | 34 => ⟨S32x200x9x9, .f32⟩
  | 35 => ⟨S32x200x9x9, .f32⟩
  | 36 => ⟨S32x200x9x9, .f32⟩
  | 37 => ⟨S32x200x9x9, .f32⟩
  | 38 => ⟨S200x1, .f32⟩
  | 39 => ⟨S200, .f32⟩
  | 40 => ⟨S1x200x1x1, .f32⟩
  | 41 => ⟨S32x200x9x9, .f32⟩
  | 42 => ⟨S32x200x9x9, .f32⟩
  | 43 => ⟨S32x200x9x9, .f32⟩
  | 44 => ⟨S1x200x1x1, .f32⟩
  | 45 => ⟨S32x200x9x9, .f32⟩
  | 46 => ⟨S32x200x9x9, .f32⟩
  | 47 => ⟨S32x9x9x200, .f32⟩
  | 48 => ⟨S32x16200, .f32⟩
  | 49 => ⟨S_, .f32⟩
  | 50 => ⟨S32, .f32⟩
  | 51 => ⟨S32x1, .f32⟩
  | 52 => ⟨S_, .f32⟩
  | 53 => ⟨S32x1, .f32⟩
  | 54 => ⟨S32x1, .f32⟩
  | 55 => ⟨S32x16200, .f32⟩
  | 56 => ⟨S32x16200, .f32⟩
  | 57 => ⟨S32x16200, .f32⟩
  | 58 => ⟨S_, .f32⟩
  | 59 => ⟨S32, .f32⟩
  | 60 => ⟨S32x1, .f32⟩
  | 61 => ⟨S_, .f32⟩
  | 62 => ⟨S32x1, .f32⟩
  | 63 => ⟨S32x1, .f32⟩
  | 64 => ⟨S32x16200, .f32⟩
  | 65 => ⟨S32x16200, .f32⟩
  | 66 => ⟨S_, .f32⟩
  | 67 => ⟨S32x1, .f32⟩
  | 68 => ⟨S32x1, .f32⟩
  | 69 => ⟨S32x1, .f32⟩
  | 70 => ⟨S32x16200, .f32⟩
  | 71 => ⟨S32x16200, .f32⟩
  | 72 => ⟨S1x16200, .f32⟩
  | 73 => ⟨S32x16200, .f32⟩
  | 74 => ⟨S32x16200, .f32⟩
  | 75 => ⟨S1x16200, .f32⟩
  | 76 => ⟨S32x16200, .f32⟩
  | 77 => ⟨S32x16200, .f32⟩
  | 78 => ⟨S16200x1024, .f32⟩
  | 79 => ⟨S32x1024, .f32⟩
  | 80 => ⟨S1x1024, .f32⟩
  | 81 => ⟨S32x1024, .f32⟩
  | 82 => ⟨S32x1024, .f32⟩
  | 83 => ⟨S16200x1024, .f32⟩
  | 84 => ⟨S32x1024, .f32⟩
  | 85 => ⟨S1x1024, .f32⟩
  | 86 => ⟨S32x1024, .f32⟩
  | 87 => ⟨S32x1024, .f32⟩
  | 88 => ⟨S1024x1024x1, .f32⟩
  | 89 => ⟨S1024x1024, .f32⟩
  | 90 => ⟨S1024x1024, .f32⟩
  | 91 => ⟨S32x1024, .f32⟩
  | 92 => ⟨S1x1024, .f32⟩
  | 93 => ⟨S32x1024, .f32⟩
  | 94 => ⟨S32x1024, .f32⟩
  | 95 => ⟨S1024x1024x1, .f32⟩
  | 96 => ⟨S1024x1024, .f32⟩
  | 97 => ⟨S1024x1024, .f32⟩
  | 98 => ⟨S32x1024, .f32⟩
  | 99 => ⟨S1x1024, .f32⟩
  | 100 => ⟨S32x1024, .f32⟩
  | 101 => ⟨S32x1024, .f32⟩
  | 102 => ⟨S32x1024x1, .f32⟩
  | 103 => ⟨S1024x1, .f32⟩
  | 104 => ⟨S1024x1024, .f32⟩
  | 105 => ⟨S1024x1024, .f32⟩
  | 106 => ⟨S1x1024x1024, .f32⟩
  | 107 => ⟨S32x1024x1024, .f32⟩
  | 108 => ⟨S32x1024x1024, .f32⟩
  | 109 => ⟨S32x1024x1024, .f32⟩
  | 110 => ⟨S32x1024x1024, .f32⟩
  | 111 => ⟨S_, .f32⟩
  | 112 => ⟨S32x1024, .f32⟩
  | 113 => ⟨S_, .f32⟩
  | 114 => ⟨S32x1024, .f32⟩
  | 115 => ⟨S32x1024, .f32⟩
  | 116 => ⟨S32x1024x1, .f32⟩
  | 117 => ⟨S1024x1, .f32⟩
  | 118 => ⟨S1024x1024, .f32⟩
  | 119 => ⟨S1024x1024, .f32⟩
  | 120 => ⟨S1x1024x1024, .f32⟩
  | 121 => ⟨S32x1024x1024, .f32⟩
  | 122 => ⟨S32x1024x1024, .f32⟩
  | 123 => ⟨S32x1024x1024, .f32⟩
  | 124 => ⟨S32x1024x1024, .f32⟩
  | 125 => ⟨S_, .f32⟩
  | 126 => ⟨S32x1024, .f32⟩
  | 127 => ⟨S_, .f32⟩
  | _ => ⟨S32x9x9x200, .f32⟩

abbrev hbmTy0_1 (i : Nat) : BufTy := match i % 128 with
  | 0 => ⟨S32x1024, .f32⟩
  | 1 => ⟨S32x1024, .f32⟩
  | 2 => ⟨S1024x512, .f32⟩
  | 3 => ⟨S32x512, .f32⟩
  | 4 => ⟨S1x512, .f32⟩
  | 5 => ⟨S32x512, .f32⟩
  | 6 => ⟨S32x512, .f32⟩
  | 7 => ⟨S1024x512, .f32⟩
  | 8 => ⟨S32x512, .f32⟩
  | 9 => ⟨S1x512, .f32⟩
  | 10 => ⟨S32x512, .f32⟩
  | 11 => ⟨S32x512, .f32⟩
  | 12 => ⟨S32x512, .f32⟩
  | _ => ⟨S32x9x9x200, .f32⟩

abbrev hbmTy (i : Nat) : BufTy := match i / 128 with
  | 0 => hbmTy0_0 i
  | 1 => hbmTy0_1 i
  | _ => ⟨S32x9x9x200, .f32⟩

abbrev bufTy : (tb : Table) → Fin (tcTables nBuf tb) → BufTy
  | .hbm, ⟨i, _⟩ => hbmTy i
  | _, _ => ⟨S32x9x9x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_c : Ref sig .tc := ⟨.hbm, 21, rfl⟩
abbrev main_call0_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst : Ref sig .tc := ⟨.hbm, 49, rfl⟩
abbrev main_v27 : Ref sig .tc := ⟨.hbm, 50, rfl⟩
abbrev main_v28 : Ref sig .tc := ⟨.hbm, 51, rfl⟩
abbrev main_cst_0 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_1 : Ref sig .tc := ⟨.hbm, 58, rfl⟩
abbrev main_v34 : Ref sig .tc := ⟨.hbm, 59, rfl⟩
abbrev main_v35 : Ref sig .tc := ⟨.hbm, 60, rfl⟩
abbrev main_cst_2 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_3 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_4 : Ref sig .tc := ⟨.hbm, 111, rfl⟩
abbrev main_v84 : Ref sig .tc := ⟨.hbm, 112, rfl⟩
abbrev main_cst_5 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_cst_6 : Ref sig .tc := ⟨.hbm, 125, rfl⟩
abbrev main_v96 : Ref sig .tc := ⟨.hbm, 126, rfl⟩
abbrev main_cst_7 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩

abbrev nD : Nat := 1
abbrev τ : Topo := Topo.v7x

variable {F : FTy → Type} [FloatOps F]

class Facts₀ : Prop where
  transposes_S32x9x9x200_S32x200x9x9_0_3_1_2 : S32x9x9x200.Transposes [0, 3, 1, 2] S32x200x9x9
  pads_S32x200x9x9_S32x200x9x11_000_000_000_110 : S32x200x9x9.Pads (![0, 0, 0, 1] : Fin 4 → Nat) ![0, 0, 0, 1] ![0, 0, 0, 0] S32x200x9x11
  h_S_ : 0 < S_.numel
  slices_S32x200x9x11_S32x200x9x9_0_0_0_0 : S32x200x9x11.Slices ![0, 0, 0, 0] S32x200x9x9
  slices_S200x3_S200x1_0_0 : S200x3.Slices ![0, 0] S200x1
  shapeCasts_S200x1_S200 : S200x1.ShapeCasts S200
  bcast_S200_S1x200x1x1_1 : S200.BroadcastsInDim S1x200x1x1 (![1] : Fin 1 → Fin S1x200x1x1.rank)
  bcast_S1x200x1x1_S32x200x9x9_0_1_2_3 : S1x200x1x1.BroadcastsInDim S32x200x9x9 (![0, 1, 2, 3] : Fin 4 → Fin S32x200x9x9.rank)
  slices_S32x200x9x11_S32x200x9x9_0_0_0_1 : S32x200x9x11.Slices ![0, 0, 0, 1] S32x200x9x9
  slices_S200x3_S200x1_0_1 : S200x3.Slices ![0, 1] S200x1
  slices_S32x200x9x11_S32x200x9x9_0_0_0_2 : S32x200x9x11.Slices ![0, 0, 0, 2] S32x200x9x9
  slices_S200x3_S200x1_0_2 : S200x3.Slices ![0, 2] S200x1
  transposes_S32x200x9x9_S32x9x9x200_0_2_3_1 : S32x200x9x9.Transposes [0, 2, 3, 1] S32x9x9x200
  shapeCasts_S32x9x9x200_S32x16200 : S32x9x9x200.ShapeCasts S32x16200
  reducesTo_S32x16200_S32_d1 : S32x16200.ReducesTo [1] S32
  bcast_S32_S32x1_0 : S32.BroadcastsInDim S32x1 (![0] : Fin 1 → Fin S32x1.rank)
  bcast_S_S32x1 : S_.BroadcastsInDim S32x1 (![] : Fin 0 → Fin S32x1.rank)
  bcast_S32x1_S32x16200_0_1 : S32x1.BroadcastsInDim S32x16200 (![0, 1] : Fin 2 → Fin S32x16200.rank)
  bcast_S16200_S1x16200_1 : S16200.BroadcastsInDim S1x16200 (![1] : Fin 1 → Fin S1x16200.rank)
  bcast_S1x16200_S32x16200_0_1 : S1x16200.BroadcastsInDim S32x16200 (![0, 1] : Fin 2 → Fin S32x16200.rank)
  transposes_S1024x16200_S16200x1024_1_0 : S1024x16200.Transposes [1, 0] S16200x1024
  bcast_S1024_S1x1024_1 : S1024.BroadcastsInDim S1x1024 (![1] : Fin 1 → Fin S1x1024.rank)
  bcast_S1x1024_S32x1024_0_1 : S1x1024.BroadcastsInDim S32x1024 (![0, 1] : Fin 2 → Fin S32x1024.rank)
  slices_S1024x1024x3_S1024x1024x1_0_0_1 : S1024x1024x3.Slices ![0, 0, 1] S1024x1024x1
  shapeCasts_S1024x1024x1_S1024x1024 : S1024x1024x1.ShapeCasts S1024x1024
  transposes_S1024x1024_S1024x1024_1_0 : S1024x1024.Transposes [1, 0] S1024x1024
  bcast_S32x1024_S32x1024x1_0_1 : S32x1024.BroadcastsInDim S32x1024x1 (![0, 1] : Fin 2 → Fin S32x1024x1.rank)
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  bcast_S1024x1024_S1x1024x1024_1_2 : S1024x1024.BroadcastsInDim S1x1024x1024 (![1, 2] : Fin 2 → Fin S1x1024x1024.rank)
  bcast_S32x1024x1_S32x1024x1024_0_1_2 : S32x1024x1.BroadcastsInDim S32x1024x1024 (![0, 1, 2] : Fin 3 → Fin S32x1024x1024.rank)
  bcast_S1x1024x1024_S32x1024x1024_0_1_2 : S1x1024x1024.BroadcastsInDim S32x1024x1024 (![0, 1, 2] : Fin 3 → Fin S32x1024x1024.rank)
  reducesTo_S32x1024x1024_S32x1024_d2 : S32x1024x1024.ReducesTo [2] S32x1024
  bcast_S_S32x1024 : S_.BroadcastsInDim S32x1024 (![] : Fin 0 → Fin S32x1024.rank)
  transposes_S512x1024_S1024x512_1_0 : S512x1024.Transposes [1, 0] S1024x512
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  dot_S32x16200_S16200x1024_S32x1024_1_0_0_1_n_n_wf : DotDims.WF S32x16200 S16200x1024 S32x1024 [1] [0] [0] [1] [] []
  dot_S32x1024_S1024x1024_S32x1024_1_0_0_1_n_n_wf : DotDims.WF S32x1024 S1024x1024 S32x1024 [1] [0] [0] [1] [] []
  dot_S32x1024_S1024x512_S32x512_1_0_0_1_n_n_wf : DotDims.WF S32x1024 S1024x512 S32x512 [1] [0] [0] [1] [] []

variable [Facts₀]

def dot_S32x16200_S16200x1024_S32x1024_1_0_0_1_n_n : DotDims S32x16200 S16200x1024 S32x1024 where
  lhsContracting := [1]
  rhsContracting := [0]
  lhsNonContracting := [0]
  rhsNonContracting := [1]
  lhsBatch := []
  rhsBatch := []
  wf := dot_S32x16200_S16200x1024_S32x1024_1_0_0_1_n_n_wf
def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf
def dot_S32x1024_S1024x512_S32x512_1_0_0_1_n_n : DotDims S32x1024 S1024x512 S32x512 where
  lhsContracting := [1]
  rhsContracting := [0]
  lhsNonContracting := [0]
  rhsNonContracting := [1]
  lhsBatch := []
  rhsBatch := []
  wf := dot_S32x1024_S1024x512_S32x512_1_0_0_1_n_n_wf

class Facts : Prop extends Facts₀ where

variable [Facts]
-- ==== Proof.KB.Body0.lean ====
import proofs.«146436_j3985729651483_1_alg».proof.Proof.Gen.Kernel.Launch
import proofs.«146436_j3985729651483_1_alg».proof.Proof.Gen.Kernel.Skeleton
import proofs.«146436_j3985729651483_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The kernel body of pallas_call 0 on whole staging memrefs, one triple per control case: at the first column of a
    row of tiles the accumulator is zeroed and then receives the tile's lane sums; at an inner column it is added to;
    at the last column it is added to and the output block receives it scaled. -/

theorem hz2_0 : (![0, 0] : Fin 2 → Nat) = fun _ => 0 := funext fun a => by fin_cases a <;> rfl

theorem mem_unit_zero_0 {S : Shape} {off : Fin S.rank → Nat} (h : off = fun _ => 0) (inb : ∀ a, off a + S.size a ≤ S.size a) (y : S.Idx) :
    y ∈ (Rect.unit off S.size inb).set := by
  subst h; show y ∈ (Rect.whole S).set; rw [Rect.set_whole]; exact Finset.mem_univ y

set_option maxHeartbeats 4000000 in
theorem sound_kernel0_A (c : Dev nD) (E : Set ℕ) (i : grid0.Coords)
    (h1 : Scalar.cmpi .ne (Scalar.extui (Scalar.cmpi .eq (BitVec.ofNat 32 (i 1).val) 0#32)) 0#32 = 1#1) (h2 : ¬ k0_cond2 i = 1#1)
    (arg2 : Memref sig .tc .vmem S32x256 .f32) (harg2 : arg2.IsWhole) (arg3 : Memref sig .tc .vmem S256x256 .f32) (harg3 : arg3.IsWhole)
    (arg4 : Memref sig .tc .vmem S32x256 .f32) (harg4 : arg4.IsWhole) (arg5 : Memref sig .tc .vmem S32x256 .f32) (harg5 : arg5.IsWhole)
    (x0 : Vec F S32x256 .f32) (x1 : Vec F S256x256 .f32) (y : Vec F S32x256 .f32) (s : Vec F S32x256 .f32) (K : PUnit → sProp 𝕄) :
    iprop(owns (c : Thread nD τ) arg2 fullShare x0 ∗ owns (c : Thread nD τ) arg3 fullShare x1
        ∗ owns (c : Thread nD τ) arg4 fullShare y ∗ (∃ s', owns (c : Thread nD τ) arg5 fullShare s')
        ∗ (iprop(owns (c : Thread nD τ) arg2 fullShare x0 ∗ owns (c : Thread nD τ) arg3 fullShare x1
            ∗ owns (c : Thread nD τ) arg4 fullShare y ∗ owns (c : Thread nD τ) arg5 fullShare (k0_pay2 x0 x1 (k0_pay1 (F := F)))) -∗ K ⟨⟩))
      ⊢ wp frame (wpE (defs₀ (F := F)) Variants.none c none) E (cc0__btm_kernel i arg2 harg2 arg3 harg3 arg4 harg4 arg5 harg5) K := by
  simp only [cc0__btm_kernel_eq_skeleton]; unfold cc0__btm_kernel_skel
  unfold owns
  iintro ⟨⟨%f0, %hf0, H0⟩, ⟨%f1, %hf1, H1⟩, ⟨%f2, %hf2, H2⟩, ⟨%s', %f3, -, H3⟩, Hk⟩
  subst hf0; subst hf1; subst hf2
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_cons_self, mem_unit_zero_0 hz2_0 inb_S32x256_S32x256_0_0 y⟩)]
  rw [View.canon_cons_unit_zero hz2_0]
  simp only [View.readAt_eq_ld, View.ld_unit_zero (S := S32x256) hz2_0, View.ld_unit_zero (S := S256x256) hz2_0]
  sl_unfold_run_names
  rw [View.readCov_unit_zero _ hz2_0]

set_option maxHeartbeats 4000000 in
theorem sound_kernel0_B (c : Dev nD) (E : Set ℕ) (i : grid0.Coords)
    (h1 : ¬ Scalar.cmpi .ne (Scalar.extui (Scalar.cmpi .eq (BitVec.ofNat 32 (i 1).val) 0#32)) 0#32 = 1#1) (h2 : ¬ k0_cond2 i = 1#1)
    (arg2 : Memref sig .tc .vmem S32x256 .f32) (harg2 : arg2.IsWhole) (arg3 : Memref sig .tc .vmem S256x256 .f32) (harg3 : arg3.IsWhole)
    (arg4 : Memref sig .tc .vmem S32x256 .f32) (harg4 : arg4.IsWhole) (arg5 : Memref sig .tc .vmem S32x256 .f32) (harg5 : arg5.IsWhole)
    (x0 : Vec F S32x256 .f32) (x1 : Vec F S256x256 .f32) (y : Vec F S32x256 .f32) (s : Vec F S32x256 .f32) (K : PUnit → sProp 𝕄) :
    iprop(owns (c : Thread nD τ) arg2 fullShare x0 ∗ owns (c : Thread nD τ) arg3 fullShare x1
        ∗ owns (c : Thread nD τ) arg4 fullShare y ∗ owns (c : Thread nD τ) arg5 fullShare s
        ∗ (iprop(owns (c : Thread nD τ) arg2 fullShare x0 ∗ owns (c : Thread nD τ) arg3 fullShare x1
            ∗ owns (c : Thread nD τ) arg4 fullShare y ∗ owns (c : Thread nD τ) arg5 fullShare (k0_pay2 x0 x1 s)) -∗ K ⟨⟩))
      ⊢ wp frame (wpE (defs₀ (F := F)) Variants.none c none) E (cc0__btm_kernel i arg2 harg2 arg3 harg3 arg4 harg4 arg5 harg5) K := by
  simp only [cc0__btm_kernel_eq_skeleton]; unfold cc0__btm_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_cons_self, mem_unit_zero_0 hz2_0 inb_S32x256_S32x256_0_0 y⟩)]
  rw [View.canon_cons_unit_zero hz2_0]
  simp only [View.readAt_eq_ld, View.ld_unit_zero (S := S32x256) hz2_0, View.ld_unit_zero (S := S256x256) hz2_0]
  try sl_unfold_run_names
  try simp only [View.readAt_eq_ld, View.ld_unit_zero (S := S32x256) hz2_0]

set_option maxHeartbeats 4000000 in
theorem sound_kernel0_C (c : Dev nD) (E : Set ℕ) (i : grid0.Coords)
    (h1 : ¬ Scalar.cmpi .ne (Scalar.extui (Scalar.cmpi .eq (BitVec.ofNat 32 (i 1).val) 0#32)) 0#32 = 1#1) (h2 : k0_cond2 i = 1#1)
    (arg2 : Memref sig .tc .vmem S32x256 .f32) (harg2 : arg2.IsWhole) (arg3 : Memref sig .tc .vmem S256x256 .f32) (harg3 : arg3.IsWhole)
    (arg4 : Memref sig .tc .vmem S32x256 .f32) (harg4 : arg4.IsWhole) (arg5 : Memref sig .tc .vmem S32x256 .f32) (harg5 : arg5.IsWhole)
    (x0 : Vec F S32x256 .f32) (x1 : Vec F S256x256 .f32) (y : Vec F S32x256 .f32) (s : Vec F S32x256 .f32) (K : PUnit → sProp 𝕄) :
    iprop(owns (c : Thread nD τ) arg2 fullShare x0 ∗ owns (c : Thread nD τ) arg3 fullShare x1
        ∗ owns (c : Thread nD τ) arg4 fullShare y ∗ owns (c : Thread nD τ) arg5 fullShare s
        ∗ (iprop(owns (c : Thread nD τ) arg2 fullShare x0 ∗ owns (c : Thread nD τ) arg3 fullShare x1
            ∗ owns (c : Thread nD τ) arg4 fullShare (k0_pay3 (k0_pay2 x0 x1 s)) ∗ owns (c : Thread nD τ) arg5 fullShare (k0_pay2 x0 x1 s)) -∗ K ⟨⟩))
      ⊢ wp frame (wpE (defs₀ (F := F)) Variants.none c none) E (cc0__btm_kernel i arg2 harg2 arg3 harg3 arg4 harg4 arg5 harg5) K := by
  simp only [cc0__btm_kernel_eq_skeleton]; unfold cc0__btm_kernel_skel
  unfold owns
  iintro ⟨⟨%f0, %hf0, H0⟩, ⟨%f1, %hf1, H1⟩, ⟨%f2, %hf2, H2⟩, ⟨%f3, %hf3, H3⟩, Hk⟩
  subst hf0; subst hf1; subst hf3
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    try sl_unfold_run_names
    rw [View.read_writes_eq_canon _ _ _ (fun y => ⟨_, List.mem_cons_self, mem_unit_zero_0 hz2_0 inb_S32x256_S32x256_0_0 y⟩)]
    rw [View.canon_cons_unit_zero hz2_0]
    simp only [View.readAt_eq_ld, View.ld_unit_zero (S := S32x256) hz2_0, View.ld_unit_zero (S := S256x256) hz2_0]
    rw [View.readCov_unit_zero _ hz2_0]
  iexists _; isplitr
  swap; · iexact H3
  ipureintro
  try sl_unfold_run_names
  rw [View.read_writes_eq_canon _ _ _ (fun y => ⟨_, List.mem_cons_self, mem_unit_zero_0 hz2_0 inb_S32x256_S32x256_0_0 y⟩)]
  rw [View.canon_cons_unit_zero hz2_0]
  simp only [View.readAt_eq_ld, View.ld_unit_zero (S := S32x256) hz2_0, View.ld_unit_zero (S := S256x256) hz2_0]

end Cert.Kernel.Hand
end
-- ==== Proof.KB.Dat0.lean ====
import proofs.«146436_j3985729651483_1_alg».proof.Proof.Gen.Kernel.Launch
import proofs.«146436_j3985729651483_1_alg».proof.Proof.Gen.Kernel.Skeleton
import proofs.«146436_j3985729651483_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«146436_j3985729651483_1_alg».proof.Proof.KB.Body0
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The proof data of pallas_call 0 at the buffer contents `V` the region is entered from: the accumulator after each
    grid point (zeroed at the first column of a row of tiles, then the running sum of the tiles' lane sums), the output
    block's staging buffer after the last column, the invariant that carries the accumulator from point to point, and the
    body obligation at every point. -/

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The conditions over the grid, in closed form -/

abbrev cond0_1 (i : grid0.Coords) : Prop := Scalar.cmpi .ne (Scalar.extui (Scalar.cmpi .eq (BitVec.ofNat 32 (i 1).val) 0#32)) 0#32 = 1#1
theorem hcond0_1 : ∀ t : Fin cfg0.N, cond0_1 (grid0.coords t) ↔ t.val % 4 = 0 :=
  (by decide +kernel : ∀ t : Fin grid0.N, cond0_1 (grid0.coords t) ↔ t.val % 4 = 0)
theorem hcond0_2 : ∀ t : Fin cfg0.N, k0_cond2 (grid0.coords t) = 1#1 ↔ t.val % 4 = 3 :=
  (by decide +kernel : ∀ t : Fin grid0.N, k0_cond2 (grid0.coords t) = 1#1 ↔ t.val % 4 = 3)
theorem idle0_2 : ∀ t : Fin cfg0.N, ¬ t.val % 4 = 3 → cfg0.idle 2 (grid0.coords t) = true :=
  (by decide +kernel : ∀ t : Fin grid0.N, ¬ t.val % 4 = 3 → cfg0.idle 2 (grid0.coords t) = true)
theorem live0_2 : ∀ t : Fin cfg0.N, t.val % 4 = 3 → cfg0.idle 2 (grid0.coords t) = false :=
  (by decide +kernel : ∀ t : Fin grid0.N, t.val % 4 = 3 → cfg0.idle 2 (grid0.coords t) = false)

/-! ## The accumulator after each point -/

/-- The scratch accumulator after the body at position `n`: at the first column of a row of tiles the tile's lane sums
    added to zero, at a later column added to what the point before left. -/
def acc0 (c : Dev nD) : (n : ℕ) → n < cfg0.N → Vec F S32x256 .f32
  | 0, hn => k0_pay2 (iblk0 V c 0 ⟨0, hn⟩) (iblk0 V c 1 ⟨0, hn⟩) (k0_pay1 (F := F))
  | n + 1, hn =>
    if (n + 1) % 4 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (acc0 c n (Nat.lt_of_succ_lt hn))

theorem acc0_first (c : Dev nD) (t : Fin cfg0.N) (h : t.val % 4 = 0) :
    acc0 V c t.val t.isLt = k0_pay2 (iblk0 V c 0 t) (iblk0 V c 1 t) (k0_pay1 (F := F)) := by
  obtain ⟨n, hn⟩ := t
  cases n with
  | zero => rfl
  | succ n => exact if_pos h

theorem acc0_later (c : Dev nD) (t : Fin cfg0.N) (h : ¬ t.val % 4 = 0) :
    acc0 V c t.val t.isLt = k0_pay2 (iblk0 V c 0 t) (iblk0 V c 1 t)
      (acc0 V c (t.val - 1) (Nat.lt_of_le_of_lt (Nat.sub_le _ _) t.isLt)) := by
  obtain ⟨n, hn⟩ := t
  cases n with
  | zero => exact absurd (Nat.zero_mod 4) h
  | succ n => exact if_neg h

/-! ## The invariant -/

abbrev scM0 : Memref sig .tc .vmem S32x256 .f32 := Memref.whole cc0_scratch0

/-- The scoped buffers of the core that are neither a staging buffer of this call nor its accumulator, each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

theorem PhiA0_elim (c : Dev nD) :
    (Pipeline.ΦA spec0 c : sProp 𝕄) ⊢ iprop((∃ d, owns (c : Thread nD τ) scM0 fullShare d) ∗ rest0 (F := F) c ∗ (∃ r, prngReg c r)) := by
  unfold Pipeline.ΦA rest0; rw [scopedRest0_eq]; simp only [scM0, owns_whole]
  iintro ⟨⟨HS, HR⟩, Hg⟩
  isplitl [HS]; · iexact HS
  isplitl [HR]; · iexact HR
  iexact Hg

theorem PhiA0_intro (c : Dev nD) :
    iprop((∃ d, owns (c : Thread nD τ) scM0 fullShare d) ∗ rest0 (F := F) c ∗ (∃ r, prngReg c r)) ⊢ (Pipeline.ΦA spec0 c : sProp 𝕄) := by
  unfold Pipeline.ΦA rest0; rw [scopedRest0_eq]; simp only [scM0, owns_whole]
  iintro ⟨HS, HR, Hg⟩
  isplitl [HS HR]
  · isplitl [HS]; · iexact HS
    iexact HR
  iexact Hg

/-- The region invariant before position `n`: before the first point the scoped rest and the generator register; afterwards
    the accumulator at what the point before left, the other scoped buffers at anything, the generator register at some state. -/
def PhiS0 (c : Dev nD) : (n : ℕ) → n ≤ cfg0.N → sProp 𝕄
  | 0, _ => Pipeline.ΦA spec0 c
  | n + 1, hn => iprop(owns (c : Thread nD τ) scM0 fullShare (acc0 V c n hn) ∗ rest0 (F := F) c ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0 fullShare (acc0 V c n hn) ∗ rest0 (F := F) c ∗ (∃ r, prngReg c r)) := rfl

theorem PhiS0_pos (c : Dev nD) (n : ℕ) (h : n ≤ cfg0.N) (hz : n ≠ 0) :
    PhiS0 V c n h = iprop(owns (c : Thread nD τ) scM0 fullShare (acc0 V c (n - 1) (by omega)) ∗ rest0 (F := F) c ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (acc0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end Region0

end Cert.Kernel.Hand
end
-- ==== Proof.KB.Body1.lean ====
import proofs.«146436_j3985729651483_1_alg».proof.Proof.Gen.Kernel.Launch
import proofs.«146436_j3985729651483_1_alg».proof.Proof.Gen.Kernel.Skeleton
import proofs.«146436_j3985729651483_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The kernel body of pallas_call 1 on whole staging memrefs, one triple per control case: at the first column of a
    row of tiles the accumulator is zeroed and then receives the tile's lane sums; at an inner column it is added to;
    at the last column it is added to and the output block receives it scaled. -/

theorem hz2_1 : (![0, 0] : Fin 2 → Nat) = fun _ => 0 := funext fun a => by fin_cases a <;> rfl

theorem mem_unit_zero_1 {S : Shape} {off : Fin S.rank → Nat} (h : off = fun _ => 0) (inb : ∀ a, off a + S.size a ≤ S.size a) (y : S.Idx) :
    y ∈ (Rect.unit off S.size inb).set := by
  subst h; show y ∈ (Rect.whole S).set; rw [Rect.set_whole]; exact Finset.mem_univ y

set_option maxHeartbeats 4000000 in
theorem sound_kernel1_A (c : Dev nD) (E : Set ℕ) (i : grid1.Coords)
    (h1 : Scalar.cmpi .ne (Scalar.extui (Scalar.cmpi .eq (BitVec.ofNat 32 (i 1).val) 0#32)) 0#32 = 1#1) (h2 : ¬ k1_cond2 i = 1#1)
    (arg2 : Memref sig .tc .vmem S32x256 .f32) (harg2 : arg2.IsWhole) (arg3 : Memref sig .tc .vmem S256x256 .f32) (harg3 : arg3.IsWhole)
    (arg4 : Memref sig .tc .vmem S32x256 .f32) (harg4 : arg4.IsWhole) (arg5 : Memref sig .tc .vmem S32x256 .f32) (harg5 : arg5.IsWhole)
    (x0 : Vec F S32x256 .f32) (x1 : Vec F S256x256 .f32) (y : Vec F S32x256 .f32) (s : Vec F S32x256 .f32) (K : PUnit → sProp 𝕄) :
    iprop(owns (c : Thread nD τ) arg2 fullShare x0 ∗ owns (c : Thread nD τ) arg3 fullShare x1
        ∗ owns (c : Thread nD τ) arg4 fullShare y ∗ (∃ s', owns (c : Thread nD τ) arg5 fullShare s')
        ∗ (iprop(owns (c : Thread nD τ) arg2 fullShare x0 ∗ owns (c : Thread nD τ) arg3 fullShare x1
            ∗ owns (c : Thread nD τ) arg4 fullShare y ∗ owns (c : Thread nD τ) arg5 fullShare (k1_pay2 x0 x1 (k1_pay1 (F := F)))) -∗ K ⟨⟩))
      ⊢ wp frame (wpE (defs₀ (F := F)) Variants.none c none) E (cc1__btm_kernel i arg2 harg2 arg3 harg3 arg4 harg4 arg5 harg5) K := by
  simp only [cc1__btm_kernel_eq_skeleton]; unfold cc1__btm_kernel_skel
  unfold owns
  iintro ⟨⟨%f0, %hf0, H0⟩, ⟨%f1, %hf1, H1⟩, ⟨%f2, %hf2, H2⟩, ⟨%s', %f3, -, H3⟩, Hk⟩
  subst hf0; subst hf1; subst hf2
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_cons_self, mem_unit_zero_1 hz2_1 inb_S32x256_S32x256_0_0 y⟩)]
  rw [View.canon_cons_unit_zero hz2_1]
  simp only [View.readAt_eq_ld, View.ld_unit_zero (S := S32x256) hz2_1, View.ld_unit_zero (S := S256x256) hz2_1]
  sl_unfold_run_names
  rw [View.readCov_unit_zero _ hz2_1]

set_option maxHeartbeats 4000000 in
theorem sound_kernel1_B (c : Dev nD) (E : Set ℕ) (i : grid1.Coords)
    (h1 : ¬ Scalar.cmpi .ne (Scalar.extui (Scalar.cmpi .eq (BitVec.ofNat 32 (i 1).val) 0#32)) 0#32 = 1#1) (h2 : ¬ k1_cond2 i = 1#1)
    (arg2 : Memref sig .tc .vmem S32x256 .f32) (harg2 : arg2.IsWhole) (arg3 : Memref sig .tc .vmem S256x256 .f32) (harg3 : arg3.IsWhole)
    (arg4 : Memref sig .tc .vmem S32x256 .f32) (harg4 : arg4.IsWhole) (arg5 : Memref sig .tc .vmem S32x256 .f32) (harg5 : arg5.IsWhole)
    (x0 : Vec F S32x256 .f32) (x1 : Vec F S256x256 .f32) (y : Vec F S32x256 .f32) (s : Vec F S32x256 .f32) (K : PUnit → sProp 𝕄) :
    iprop(owns (c : Thread nD τ) arg2 fullShare x0 ∗ owns (c : Thread nD τ) arg3 fullShare x1
        ∗ owns (c : Thread nD τ) arg4 fullShare y ∗ owns (c : Thread nD τ) arg5 fullShare s
        ∗ (iprop(owns (c : Thread nD τ) arg2 fullShare x0 ∗ owns (c : Thread nD τ) arg3 fullShare x1
            ∗ owns (c : Thread nD τ) arg4 fullShare y ∗ owns (c : Thread nD τ) arg5 fullShare (k1_pay2 x0 x1 s)) -∗ K ⟨⟩))
      ⊢ wp frame (wpE (defs₀ (F := F)) Variants.none c none) E (cc1__btm_kernel i arg2 harg2 arg3 harg3 arg4 harg4 arg5 harg5) K := by
  simp only [cc1__btm_kernel_eq_skeleton]; unfold cc1__btm_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_cons_self, mem_unit_zero_1 hz2_1 inb_S32x256_S32x256_0_0 y⟩)]
  rw [View.canon_cons_unit_zero hz2_1]
  simp only [View.readAt_eq_ld, View.ld_unit_zero (S := S32x256) hz2_1, View.ld_unit_zero (S := S256x256) hz2_1]
  try sl_unfold_run_names
  try simp only [View.readAt_eq_ld, View.ld_unit_zero (S := S32x256) hz2_1]

set_option maxHeartbeats 4000000 in
theorem sound_kernel1_C (c : Dev nD) (E : Set ℕ) (i : grid1.Coords)
    (h1 : ¬ Scalar.cmpi .ne (Scalar.extui (Scalar.cmpi .eq (BitVec.ofNat 32 (i 1).val) 0#32)) 0#32 = 1#1) (h2 : k1_cond2 i = 1#1)
    (arg2 : Memref sig .tc .vmem S32x256 .f32) (harg2 : arg2.IsWhole) (arg3 : Memref sig .tc .vmem S256x256 .f32) (harg3 : arg3.IsWhole)
    (arg4 : Memref sig .tc .vmem S32x256 .f32) (harg4 : arg4.IsWhole) (arg5 : Memref sig .tc .vmem S32x256 .f32) (harg5 : arg5.IsWhole)
    (x0 : Vec F S32x256 .f32) (x1 : Vec F S256x256 .f32) (y : Vec F S32x256 .f32) (s : Vec F S32x256 .f32) (K : PUnit → sProp 𝕄) :
    iprop(owns (c : Thread nD τ) arg2 fullShare x0 ∗ owns (c : Thread nD τ) arg3 fullShare x1
        ∗ owns (c : Thread nD τ) arg4 fullShare y ∗ owns (c : Thread nD τ) arg5 fullShare s
        ∗ (iprop(owns (c : Thread nD τ) arg2 fullShare x0 ∗ owns (c : Thread nD τ) arg3 fullShare x1
            ∗ owns (c : Thread nD τ) arg4 fullShare (k1_pay3 (k1_pay2 x0 x1 s)) ∗ owns (c : Thread nD τ) arg5 fullShare (k1_pay2 x0 x1 s)) -∗ K ⟨⟩))
      ⊢ wp frame (wpE (defs₀ (F := F)) Variants.none c none) E (cc1__btm_kernel i arg2 harg2 arg3 harg3 arg4 harg4 arg5 harg5) K := by
  simp only [cc1__btm_kernel_eq_skeleton]; unfold cc1__btm_kernel_skel
  unfold owns
  iintro ⟨⟨%f0, %hf0, H0⟩, ⟨%f1, %hf1, H1⟩, ⟨%f2, %hf2, H2⟩, ⟨%f3, %hf3, H3⟩, Hk⟩
  subst hf0; subst hf1; subst hf3
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    try sl_unfold_run_names
    rw [View.read_writes_eq_canon _ _ _ (fun y => ⟨_, List.mem_cons_self, mem_unit_zero_1 hz2_1 inb_S32x256_S32x256_0_0 y⟩)]
    rw [View.canon_cons_unit_zero hz2_1]
    simp only [View.readAt_eq_ld, View.ld_unit_zero (S := S32x256) hz2_1, View.ld_unit_zero (S := S256x256) hz2_1]
    rw [View.readCov_unit_zero _ hz2_1]
  iexists _; isplitr
  swap; · iexact H3
  ipureintro
  try sl_unfold_run_names
  rw [View.read_writes_eq_canon _ _ _ (fun y => ⟨_, List.mem_cons_self, mem_unit_zero_1 hz2_1 inb_S32x256_S32x256_0_0 y⟩)]
  rw [View.canon_cons_unit_zero hz2_1]
  simp only [View.readAt_eq_ld, View.ld_unit_zero (S := S32x256) hz2_1, View.ld_unit_zero (S := S256x256) hz2_1]

end Cert.Kernel.Hand
end
-- ==== Proof.KB.Dat1.lean ====
import proofs.«146436_j3985729651483_1_alg».proof.Proof.Gen.Kernel.Launch
import proofs.«146436_j3985729651483_1_alg».proof.Proof.Gen.Kernel.Skeleton
import proofs.«146436_j3985729651483_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«146436_j3985729651483_1_alg».proof.Proof.KB.Body1
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The proof data of pallas_call 1 at the buffer contents `V` the region is entered from: the accumulator after each
    grid point (zeroed at the first column of a row of tiles, then the running sum of the tiles' lane sums), the output
    block's staging buffer after the last column, the invariant that carries the accumulator from point to point, and the
    body obligation at every point. -/

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The conditions over the grid, in closed form -/

abbrev cond1_1 (i : grid1.Coords) : Prop := Scalar.cmpi .ne (Scalar.extui (Scalar.cmpi .eq (BitVec.ofNat 32 (i 1).val) 0#32)) 0#32 = 1#1
theorem hcond1_1 : ∀ t : Fin cfg1.N, cond1_1 (grid1.coords t) ↔ t.val % 4 = 0 :=
  (by decide +kernel : ∀ t : Fin grid1.N, cond1_1 (grid1.coords t) ↔ t.val % 4 = 0)
theorem hcond1_2 : ∀ t : Fin cfg1.N, k1_cond2 (grid1.coords t) = 1#1 ↔ t.val % 4 = 3 :=
  (by decide +kernel : ∀ t : Fin grid1.N, k1_cond2 (grid1.coords t) = 1#1 ↔ t.val % 4 = 3)
theorem idle1_2 : ∀ t : Fin cfg1.N, ¬ t.val % 4 = 3 → cfg1.idle 2 (grid1.coords t) = true :=
  (by decide +kernel : ∀ t : Fin grid1.N, ¬ t.val % 4 = 3 → cfg1.idle 2 (grid1.coords t) = true)
theorem live1_2 : ∀ t : Fin cfg1.N, t.val % 4 = 3 → cfg1.idle 2 (grid1.coords t) = false :=
  (by decide +kernel : ∀ t : Fin grid1.N, t.val % 4 = 3 → cfg1.idle 2 (grid1.coords t) = false)

/-! ## The accumulator after each point -/

/-- The scratch accumulator after the body at position `n`: at the first column of a row of tiles the tile's lane sums
    added to zero, at a later column added to what the point before left. -/
def acc1 (c : Dev nD) : (n : ℕ) → n < cfg1.N → Vec F S32x256 .f32
  | 0, hn => k1_pay2 (iblk1 V c 0 ⟨0, hn⟩) (iblk1 V c 1 ⟨0, hn⟩) (k1_pay1 (F := F))
  | n + 1, hn =>
    if (n + 1) % 4 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (acc1 c n (Nat.lt_of_succ_lt hn))

theorem acc1_first (c : Dev nD) (t : Fin cfg1.N) (h : t.val % 4 = 0) :
    acc1 V c t.val t.isLt = k1_pay2 (iblk1 V c 0 t) (iblk1 V c 1 t) (k1_pay1 (F := F)) := by
  obtain ⟨n, hn⟩ := t
  cases n with
  | zero => rfl
  | succ n => exact if_pos h

theorem acc1_later (c : Dev nD) (t : Fin cfg1.N) (h : ¬ t.val % 4 = 0) :
    acc1 V c t.val t.isLt = k1_pay2 (iblk1 V c 0 t) (iblk1 V c 1 t)
      (acc1 V c (t.val - 1) (Nat.lt_of_le_of_lt (Nat.sub_le _ _) t.isLt)) := by
  obtain ⟨n, hn⟩ := t
  cases n with
  | zero => exact absurd (Nat.zero_mod 4) h
  | succ n => exact if_neg h

/-! ## The invariant -/

abbrev scM1 : Memref sig .tc .vmem S32x256 .f32 := Memref.whole cc1_scratch0

/-- The scoped buffers of the core that are neither a staging buffer of this call nor its accumulator, each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

theorem PhiA1_elim (c : Dev nD) :
    (Pipeline.ΦA spec1 c : sProp 𝕄) ⊢ iprop((∃ d, owns (c : Thread nD τ) scM1 fullShare d) ∗ rest1 (F := F) c ∗ (∃ r, prngReg c r)) := by
  unfold Pipeline.ΦA rest1; rw [scopedRest1_eq]; simp only [scM1, owns_whole]
  iintro ⟨⟨HA, HB, HC, HD, HE, HF, HG, HS⟩, Hg⟩
  isplitl [HS]; · iexact HS
  isplitl [HA HB HC HD HE HF HG]
  · isplitl [HA]; · iexact HA
    isplitl [HB]; · iexact HB
    isplitl [HC]; · iexact HC
    isplitl [HD]; · iexact HD
    isplitl [HE]; · iexact HE
    isplitl [HF]; · iexact HF
    iexact HG
  iexact Hg

theorem PhiA1_intro (c : Dev nD) :
    iprop((∃ d, owns (c : Thread nD τ) scM1 fullShare d) ∗ rest1 (F := F) c ∗ (∃ r, prngReg c r)) ⊢ (Pipeline.ΦA spec1 c : sProp 𝕄) := by
  unfold Pipeline.ΦA rest1; rw [scopedRest1_eq]; simp only [scM1, owns_whole]
  iintro ⟨HS, ⟨HA, HB, HC, HD, HE, HF, HG⟩, Hg⟩
  isplitl [HS HA HB HC HD HE HF HG]
  · isplitl [HA]; · iexact HA
    isplitl [HB]; · iexact HB
    isplitl [HC]; · iexact HC
    isplitl [HD]; · iexact HD
    isplitl [HE]; · iexact HE
    isplitl [HF]; · iexact HF
    isplitl [HG]; · iexact HG
    iexact HS
  iexact Hg

/-- The region invariant before position `n`: before the first point the scoped rest and the generator register; afterwards
    the accumulator at what the point before left, the other scoped buffers at anything, the generator register at some state. -/
def PhiS1 (c : Dev nD) : (n : ℕ) → n ≤ cfg1.N → sProp 𝕄
  | 0, _ => Pipeline.ΦA spec1 c
  | n + 1, hn => iprop(owns (c : Thread nD τ) scM1 fullShare (acc1 V c n hn) ∗ rest1 (F := F) c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1 fullShare (acc1 V c n hn) ∗ rest1 (F := F) c ∗ (∃ r, prngReg c r)) := rfl

theorem PhiS1_pos (c : Dev nD) (n : ℕ) (h : n ≤ cfg1.N) (hz : n ≠ 0) :
    PhiS1 V c n h = iprop(owns (c : Thread nD τ) scM1 fullShare (acc1 V c (n - 1) (by omega)) ∗ rest1 (F := F) c ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (acc1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (acc1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

end Region1

end Cert.Kernel.Hand
end
-- ==== Proof.KB.Fold.lean ====
import proofs.«146436_j3985729651483_1_alg».proof.Proof.Gen.Kernel.Launch
import proofs.«146436_j3985729651483_1_alg».proof.Proof.Gen.Kernel.Skeleton
import proofs.«146436_j3985729651483_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«146436_j3985729651483_1_alg».proof.Proof.KB.Dat0
import proofs.«146436_j3985729651483_1_alg».proof.Proof.KB.Dat1
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The buffer contents of a core at every boundary between the pieces of the program: the host operations folded over
    the launch memory, and across each pallas_call its arrays at what the write-backs leave, every other buffer as entered. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
abbrev W1 : Dev nD → Valuation τ sig (Elt F) := fun c => StableHlo.after main_part0_ops0 (W0 m ρ c)
abbrev W2 : Dev nD → Valuation τ sig (Elt F) := fun c => StableHlo.after main_part0_ops1 (W1 m ρ c)
abbrev W3 : Dev nD → Valuation τ sig (Elt F) := fun c => StableHlo.after main_part0_ops2 (W2 m ρ c)
/-- The first pallas_call's entry. -/
abbrev W4 : Dev nD → Valuation τ sig (Elt F) := fun c => StableHlo.after main_part1_ops0 (W3 m ρ c)
abbrev V4 : (c : Dev nD) → (b : Ref sig .tc) → Buf (Elt F) ((c : Thread nD τ).loc b) := fun c b => W4 m ρ c b
/-- The first pallas_call's exit, the second's entry. -/
def W5 (c : Dev nD) : Valuation τ sig (Elt F) :=
  Pipeline.withArrays spec0 c (W4 m ρ c) fun w => (dat0 (V4 m ρ) c).arrAt w cfg0.N
theorem W5_arr (c : Dev nD) (w : Fin cfg0.W) :
    W5 m ρ c (Proc.devRef .tc (Pipeline.arrRef spec0 w)) = (dat0 (V4 m ρ) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m ρ c (Proc.devRef .tc b) = W4 m ρ c (Proc.devRef .tc b) := by
  unfold W5; exact Pipeline.withArrays_of_ne spec0 c _ _ b hb
abbrev V5 : (c : Dev nD) → (b : Ref sig .tc) → Buf (Elt F) ((c : Thread nD τ).loc b) := fun c b => W5 m ρ c b
theorem hF0 (c : Dev nD) (w : Fin cfg0.W) : (dat0 (V4 m ρ) c).arrAt w cfg0.N = V5 m ρ c (Pipeline.arrRef spec0 w) :=
  (W5_arr m ρ c w).symm
theorem hrest0 (c : Dev nD) : ∀ b, b ∉ Finset.univ.image (Pipeline.arrRef spec0) → V5 m ρ c b = V4 m ρ c b :=
  fun b hb => W5_of_ne m ρ c b fun w e => hb (Finset.mem_image.mpr ⟨w, Finset.mem_univ _, e⟩)
/-- The second pallas_call's exit. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- The return. -/
abbrev W7 : Dev nD → Valuation τ sig (Elt F) := fun c => StableHlo.after main_part1_ops1 (W6 m ρ c)

end Cert.Kernel.Hand
end
-- ==== Proof.KB.Oblig0.lean ====
import proofs.«146436_j3985729651483_1_alg».proof.Proof.Gen.Kernel.Launch
import proofs.«146436_j3985729651483_1_alg».proof.Proof.Gen.Kernel.Skeleton
import proofs.«146436_j3985729651483_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«146436_j3985729651483_1_alg».proof.Proof.KB.Dat0
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body obligation of pallas_call 0: at every grid point the body, handed the invariant and the windows' staging
    buffers, returns the invariant at the next point and the buffers at what the proof data state. -/

section Region0
variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [show cfg0.idle 0 (cfg0.grid.coords t) = false from rfl], after0_0]
  rw [show (dat0 V c).leavesExact 1 t = owns (c : Thread nD τ) (st0_1 t) fullShare ((dat0 V c).after 1 t) from by
    unfold Dat.leavesExact; rw [show cfg0.idle 1 (cfg0.grid.coords t) = false from rfl], after0_1]
  have hN : t.val < 16 := lt_of_lt_of_eq t.isLt N_0
  by_cases h0 : t.val % 4 = 0
  · have h3 : ¬ t.val % 4 = 3 := by omega
    rw [Dat.leavesExact_idle (dat0 V c) 2 t (idle0_2 t h3) (Bool.eq_false_iff.mpr fun hf => h3 ((flush0_2 t).mp hf))]
    rw [acc0_first V c t h0]
    by_cases hz : t.val = 0
    · rw [PhiS0_castSucc V c t, PhiS0_zero V c _ _ hz]
      iintro ⟨HΦ, Ho, ⟨%d0, H0⟩, ⟨%d1, H1⟩, ⟨%d2, H2⟩⟩
      ihave HΦ' := (PhiA0_elim (F := F) c) $$ HΦ
      icases HΦ' with ⟨HS, HR, Hg⟩
      iapply (sound_kernel0_A c Set.univ (grid0.coords t) ((hcond0_1 t).mpr h0) (fun h => h3 ((hcond0_2 t).mp h)) _ _ _ _ _ _ _ _ (iblk0 V c 0 t) (iblk0 V c 1 t) ((dat0 V c).before 2 t d2) (iblk0 V c 0 t) _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
    · rw [PhiS0_castSucc V c t, PhiS0_pos V c _ _ hz]
      iintro ⟨⟨HS, HR, Hg⟩, Ho, ⟨%d0, H0⟩, ⟨%d1, H1⟩, ⟨%d2, H2⟩⟩
      iapply (sound_kernel0_A c Set.univ (grid0.coords t) ((hcond0_1 t).mpr h0) (fun h => h3 ((hcond0_2 t).mp h)) _ _ _ _ _ _ _ _ (iblk0 V c 0 t) (iblk0 V c 1 t) ((dat0 V c).before 2 t d2) (iblk0 V c 0 t) _)
      isplitl [H0]; · iexact H0
      isplitl [H1]; · iexact H1
      isplitl [H2]; · iexact H2
      isplitl [HS]; · iexists _; iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
  · have hz : t.val ≠ 0 := fun e => h0 (by rw [e])
    rw [acc0_later V c t h0]
    rw [PhiS0_castSucc V c t, PhiS0_pos V c _ _ hz]
    by_cases h3 : t.val % 4 = 3
    · rw [show (dat0 V c).leavesExact 2 t = owns (c : Thread nD τ) (st0_2 t) fullShare ((dat0 V c).after 2 t) from by
        unfold Dat.leavesExact; rw [live0_2 t h3], after0_2]
      rw [acc0_later V c t h0]
      iintro ⟨⟨HS, HR, Hg⟩, Ho, ⟨%d0, H0⟩, ⟨%d1, H1⟩, ⟨%d2, H2⟩⟩
      iapply (sound_kernel0_C c Set.univ (grid0.coords t) (fun h => h0 ((hcond0_1 t).mp h)) ((hcond0_2 t).mpr h3) _ _ _ _ _ _ _ _ (iblk0 V c 0 t) (iblk0 V c 1 t) ((dat0 V c).before 2 t d2) _ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · rw [Dat.leavesExact_idle (dat0 V c) 2 t (idle0_2 t h3) (Bool.eq_false_iff.mpr fun hf => h3 ((flush0_2 t).mp hf))]
      iintro ⟨⟨HS, HR, Hg⟩, Ho, ⟨%d0, H0⟩, ⟨%d1, H1⟩, ⟨%d2, H2⟩⟩
      iapply (sound_kernel0_B c Set.univ (grid0.coords t) (fun h => h0 ((hcond0_1 t).mp h)) (fun h => h3 ((hcond0_2 t).mp h)) _ _ _ _ _ _ _ _ (iblk0 V c 0 t) (iblk0 V c 1 t) ((dat0 V c).before 2 t d2) _ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the scoped rest back: the accumulator's named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 16 := N_0; omega)]
  refine .trans ?_ (PhiA0_intro (F := F) c)
  iintro ⟨HS, HR, Hg⟩
  isplitl [HS]; · iexists _; iexact HS
  isplitl [HR]; · iexact HR
  iexact Hg

end Region0

end Cert.Kernel.Hand
end
-- ==== Proof.KB.Oblig1.lean ====
import proofs.«146436_j3985729651483_1_alg».proof.Proof.Gen.Kernel.Launch
import proofs.«146436_j3985729651483_1_alg».proof.Proof.Gen.Kernel.Skeleton
import proofs.«146436_j3985729651483_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«146436_j3985729651483_1_alg».proof.Proof.KB.Dat1
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body obligation of pallas_call 1: at every grid point the body, handed the invariant and the windows' staging
    buffers, returns the invariant at the next point and the buffers at what the proof data state. -/

section Region1
variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [show cfg1.idle 0 (cfg1.grid.coords t) = false from rfl], after1_0]
  rw [show (dat1 V c).leavesExact 1 t = owns (c : Thread nD τ) (st1_1 t) fullShare ((dat1 V c).after 1 t) from by
    unfold Dat.leavesExact; rw [show cfg1.idle 1 (cfg1.grid.coords t) = false from rfl], after1_1]
  have hN : t.val < 16 := lt_of_lt_of_eq t.isLt N_1
  by_cases h0 : t.val % 4 = 0
  · have h3 : ¬ t.val % 4 = 3 := by omega
    rw [Dat.leavesExact_idle (dat1 V c) 2 t (idle1_2 t h3) (Bool.eq_false_iff.mpr fun hf => h3 ((flush1_2 t).mp hf))]
    rw [acc1_first V c t h0]
    by_cases hz : t.val = 0
    · rw [PhiS1_castSucc V c t, PhiS1_zero V c _ _ hz]
      iintro ⟨HΦ, Ho, ⟨%d0, H0⟩, ⟨%d1, H1⟩, ⟨%d2, H2⟩⟩
      ihave HΦ' := (PhiA1_elim (F := F) c) $$ HΦ
      icases HΦ' with ⟨HS, HR, Hg⟩
      iapply (sound_kernel1_A c Set.univ (grid1.coords t) ((hcond1_1 t).mpr h0) (fun h => h3 ((hcond1_2 t).mp h)) _ _ _ _ _ _ _ _ (iblk1 V c 0 t) (iblk1 V c 1 t) ((dat1 V c).before 2 t d2) (iblk1 V c 0 t) _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
    · rw [PhiS1_castSucc V c t, PhiS1_pos V c _ _ hz]
      iintro ⟨⟨HS, HR, Hg⟩, Ho, ⟨%d0, H0⟩, ⟨%d1, H1⟩, ⟨%d2, H2⟩⟩
      iapply (sound_kernel1_A c Set.univ (grid1.coords t) ((hcond1_1 t).mpr h0) (fun h => h3 ((hcond1_2 t).mp h)) _ _ _ _ _ _ _ _ (iblk1 V c 0 t) (iblk1 V c 1 t) ((dat1 V c).before 2 t d2) (iblk1 V c 0 t) _)
      isplitl [H0]; · iexact H0
      isplitl [H1]; · iexact H1
      isplitl [H2]; · iexact H2
      isplitl [HS]; · iexists _; iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
  · have hz : t.val ≠ 0 := fun e => h0 (by rw [e])
    rw [acc1_later V c t h0]
    rw [PhiS1_castSucc V c t, PhiS1_pos V c _ _ hz]
    by_cases h3 : t.val % 4 = 3
    · rw [show (dat1 V c).leavesExact 2 t = owns (c : Thread nD τ) (st1_2 t) fullShare ((dat1 V c).after 2 t) from by
        unfold Dat.leavesExact; rw [live1_2 t h3], after1_2]
      rw [acc1_later V c t h0]
      iintro ⟨⟨HS, HR, Hg⟩, Ho, ⟨%d0, H0⟩, ⟨%d1, H1⟩, ⟨%d2, H2⟩⟩
      iapply (sound_kernel1_C c Set.univ (grid1.coords t) (fun h => h0 ((hcond1_1 t).mp h)) ((hcond1_2 t).mpr h3) _ _ _ _ _ _ _ _ (iblk1 V c 0 t) (iblk1 V c 1 t) ((dat1 V c).before 2 t d2) _ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · rw [Dat.leavesExact_idle (dat1 V c) 2 t (idle1_2 t h3) (Bool.eq_false_iff.mpr fun hf => h3 ((flush1_2 t).mp hf))]
      iintro ⟨⟨HS, HR, Hg⟩, Ho, ⟨%d0, H0⟩, ⟨%d1, H1⟩, ⟨%d2, H2⟩⟩
      iapply (sound_kernel1_B c Set.univ (grid1.coords t) (fun h => h0 ((hcond1_1 t).mp h)) (fun h => h3 ((hcond1_2 t).mp h)) _ _ _ _ _ _ _ _ (iblk1 V c 0 t) (iblk1 V c 1 t) ((dat1 V c).before 2 t d2) _ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the scoped rest back: the accumulator's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 16 := N_1; omega)]
  refine .trans ?_ (PhiA1_intro (F := F) c)
  iintro ⟨HS, HR, Hg⟩
  isplitl [HS]; · iexists _; iexact HS
  isplitl [HR]; · iexact HR
  iexact Hg

end Region1

end Cert.Kernel.Hand
end
-- ==== Proof.KB.Run.lean ====
import proofs.«146436_j3985729651483_1_alg».proof.Proof.Gen.Kernel.Launch
import proofs.«146436_j3985729651483_1_alg».proof.Proof.Gen.Kernel.Skeleton
import proofs.«146436_j3985729651483_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«146436_j3985729651483_1_alg».proof.Proof.KB.Fold
import proofs.«146436_j3985729651483_1_alg».proof.Proof.KB.Oblig0
import proofs.«146436_j3985729651483_1_alg».proof.Proof.KB.Oblig1
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The run of the whole program: its stretches of host operations and its two pallas_calls as segments over the thread
    state "every unscoped buffer at the boundary's contents, the generator register at some state, nothing owed", and
    the launch: every weakly fair execution terminates with every unscoped buffer at the last boundary's contents. -/

variable (m : (ℓ : Loc nD τ sig) → Buf (Elt F) ℓ) (ρ : Dev nD → PrngReg)

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V4 m ρ) c
  | ⟨1, _⟩ => fun c => dat1 (V5 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem main_part0_ops0_fresh : (main_part0_ops0 : List (HloOp τ sig (Elt F))).Forall fun op => op.fresh = ∅ := by
  simp only [List.Forall]; repeat' constructor
theorem main_part0_ops1_fresh : (main_part0_ops1 : List (HloOp τ sig (Elt F))).Forall fun op => op.fresh = ∅ := by
  simp only [List.Forall]; repeat' constructor
theorem main_part0_ops2_fresh : (main_part0_ops2 : List (HloOp τ sig (Elt F))).Forall fun op => op.fresh = ∅ := by
  simp only [List.Forall]; repeat' constructor
theorem main_part1_ops0_fresh : (main_part1_ops0 : List (HloOp τ sig (Elt F))).Forall fun op => op.fresh = ∅ := by
  simp only [List.Forall]; repeat' constructor
theorem main_part1_ops1_fresh : (main_part1_ops1 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

set_option backward.isDefEq.respectTransparency.types false in
/-- Pallas_call 0 over the thread state: entered from every unscoped buffer at the entry contents, left with its arrays
    at what the write-backs leave and every other buffer as entered; the generator register and the scoped buffers go
    into the invariant and come back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V4 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec0 c (V4 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V4 m ρ) c)
    unfold Pipeline.ΦA
    iintro ⟨Hp, -, Hr⟩
    isplitl [Hr]; · iexact Hr
    iexact Hp
  hout c := by
    rw [Pipeline.ownSems0_none]
    refine (hout0 (V4 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V4 m ρ c) (V5 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 1 over the thread state: entered from every unscoped buffer at the entry contents, left with its arrays
    at what the write-backs leave and every other buffer as entered; the generator register and the scoped buffers go
    into the invariant and come back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V5 m ρ) c)
    unfold Pipeline.ΦA
    iintro ⟨Hp, -, Hr⟩
    isplitl [Hr]; · iexact Hr
    iexact Hp
  hout c := by
    rw [Pipeline.ownSems0_none]
    refine (hout1 (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg main_part0_ops0 main_part0_ops0_sub main_part0_ops0_fresh (W0 m ρ)),
    .host (hseg main_part0_ops1 main_part0_ops1_sub main_part0_ops1_fresh (W1 m ρ)),
    .host (hseg main_part0_ops2 main_part0_ops2_sub main_part0_ops2_fresh (W2 m ρ)),
    .host (hseg main_part1_ops0 main_part1_ops0_sub main_part1_ops0_fresh (W3 m ρ)),
    .region (reg0 m ρ),
    .region (reg1 m ρ),
    .host (hseg main_part1_ops1 main_part1_ops1_sub main_part1_ops1_fresh (W6 m ρ)) ]

theorem main_run (c : Dev nD) : main (F := F) c = Pipeline.Seg.run (segs m ρ) := (main_chain_windows c).trans (by chain_rfl)

set_option backward.isDefEq.respectTransparency.types false in
/-- From any memory with zero counters every weakly fair execution of the program on the TensorCores terminates, nothing
    faulting, and in every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.Kernel.Hand
end
-- ==== Proof.KB.Keep_main_part0_ops0.lean ====
import proofs.«146436_j3985729651483_1_alg».proof.Proof.Gen.Kernel.Launch
import proofs.«146436_j3985729651483_1_alg».proof.Proof.Gen.Kernel.Skeleton
import proofs.«146436_j3985729651483_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! No operation of this stretch of host operations writes an argument array. -/
theorem keep_main_part0_ops0_main_arg0 (W : Valuation τ sig (Elt F)) :
    StableHlo.after main_part0_ops0 W (Proc.devRef .tc main_arg0) = W (Proc.devRef .tc main_arg0) :=
  StableHlo.after_of_forall_not_mem (b := Proc.devRef .tc main_arg0) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops0_main_arg1 (W : Valuation τ sig (Elt F)) :
    StableHlo.after main_part0_ops0 W (Proc.devRef .tc main_arg1) = W (Proc.devRef .tc main_arg1) :=
  StableHlo.after_of_forall_not_mem (b := Proc.devRef .tc main_arg1) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops0_main_arg2 (W : Valuation τ sig (Elt F)) :
    StableHlo.after main_part0_ops0 W (Proc.devRef .tc main_arg2) = W (Proc.devRef .tc main_arg2) :=
  StableHlo.after_of_forall_not_mem (b := Proc.devRef .tc main_arg2) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops0_main_arg3 (W : Valuation τ sig (Elt F)) :
    StableHlo.after main_part0_ops0 W (Proc.devRef .tc main_arg3) = W (Proc.devRef .tc main_arg3) :=
  StableHlo.after_of_forall_not_mem (b := Proc.devRef .tc main_arg3) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops0_main_arg4 (W : Valuation τ sig (Elt F)) :
    StableHlo.after main_part0_ops0 W (Proc.devRef .tc main_arg4) = W (Proc.devRef .tc main_arg4) :=
  StableHlo.after_of_forall_not_mem (b := Proc.devRef .tc main_arg4) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops0_main_arg5 (W : Valuation τ sig (Elt F)) :
    StableHlo.after main_part0_ops0 W (Proc.devRef .tc main_arg5) = W (Proc.devRef .tc main_arg5) :=
  StableHlo.after_of_forall_not_mem (b := Proc.devRef .tc main_arg5) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops0_main_arg6 (W : Valuation τ sig (Elt F)) :
    StableHlo.after main_part0_ops0 W (Proc.devRef .tc main_arg6) = W (Proc.devRef .tc main_arg6) :=
  StableHlo.after_of_forall_not_mem (b := Proc.devRef .tc main_arg6) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops0_main_arg7 (W : Valuation τ sig (Elt F)) :
    StableHlo.after main_part0_ops0 W (Proc.devRef .tc main_arg7) = W (Proc.devRef .tc main_arg7) :=
  StableHlo.after_of_forall_not_mem (b := Proc.devRef .tc main_arg7) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops0_main_arg8 (W : Valuation τ sig (Elt F)) :
    StableHlo.after main_part0_ops0 W (Proc.devRef .tc main_arg8) = W (Proc.devRef .tc main_arg8) :=
  StableHlo.after_of_forall_not_mem (b := Proc.devRef .tc main_arg8) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops0_main_arg9 (W : Valuation τ sig (Elt F)) :
    StableHlo.after main_part0_ops0 W (Proc.devRef .tc main_arg9) = W (Proc.devRef .tc main_arg9) :=
  StableHlo.after_of_forall_not_mem (b := Proc.devRef .tc main_arg9) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops0_main_arg10 (W : Valuation τ sig (Elt F)) :
    StableHlo.after main_part0_ops0 W (Proc.devRef .tc main_arg10) = W (Proc.devRef .tc main_arg10) :=
  StableHlo.after_of_forall_not_mem (b := Proc.devRef .tc main_arg10) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops0_main_arg11 (W : Valuation τ sig (Elt F)) :
    StableHlo.after main_part0_ops0 W (Proc.devRef .tc main_arg11) = W (Proc.devRef .tc main_arg11) :=
  StableHlo.after_of_forall_not_mem (b := Proc.devRef .tc main_arg11) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops0_main_arg12 (W : Valuation τ sig (Elt F)) :
    StableHlo.after main_part0_ops0 W (Proc.devRef .tc main_arg12) = W (Proc.devRef .tc main_arg12) :=
  StableHlo.after_of_forall_not_mem (b := Proc.devRef .tc main_arg12) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops0_main_arg13 (W : Valuation τ sig (Elt F)) :
    StableHlo.after main_part0_ops0 W (Proc.devRef .tc main_arg13) = W (Proc.devRef .tc main_arg13) :=
  StableHlo.after_of_forall_not_mem (b := Proc.devRef .tc main_arg13) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops0_main_arg14 (W : Valuation τ sig (Elt F)) :
    StableHlo.after main_part0_ops0 W (Proc.devRef .tc main_arg14) = W (Proc.devRef .tc main_arg14) :=
  StableHlo.after_of_forall_not_mem (b := Proc.devRef .tc main_arg14) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops0_main_arg15 (W : Valuation τ sig (Elt F)) :
    StableHlo.after main_part0_ops0 W (Proc.devRef .tc main_arg15) = W (Proc.devRef .tc main_arg15) :=
  StableHlo.after_of_forall_not_mem (b := Proc.devRef .tc main_arg15) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops0_main_arg16 (W : Valuation τ sig (Elt F)) :
    StableHlo.after main_part0_ops0 W (Proc.devRef .tc main_arg16) = W (Proc.devRef .tc main_arg16) :=
  StableHlo.after_of_forall_not_mem (b := Proc.devRef .tc main_arg16) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops0_main_arg17 (W : Valuation τ sig (Elt F)) :
    StableHlo.after main_part0_ops0 W (Proc.devRef .tc main_arg17) = W (Proc.devRef .tc main_arg17) :=
  StableHlo.after_of_forall_not_mem (b := Proc.devRef .tc main_arg17) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops0_main_arg18 (W : Valuation τ sig (Elt F)) :
    StableHlo.after main_part0_ops0 W (Proc.devRef .tc main_arg18) = W (Proc.devRef .tc main_arg18) :=
  StableHlo.after_of_forall_not_mem (b := Proc.devRef .tc main_arg18) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops0_main_arg19 (W : Valuation τ sig (Elt F)) :
    StableHlo.after main_part0_ops0 W (Proc.devRef .tc main_arg19) = W (Proc.devRef .tc main_arg19) :=
  StableHlo.after_of_forall_not_mem (b := Proc.devRef .tc main_arg19) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

end Cert.Kernel.Hand
end
-- ==== Proof.KB.Keep_main_part0_ops1.lean ====
import proofs.«146436_j3985729651483_1_alg».proof.Proof.Gen.Kernel.Launch
import proofs.«146436_j3985729651483_1_alg».proof.Proof.Gen.Kernel.Skeleton
import proofs.«146436_j3985729651483_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! No operation of this stretch of host operations writes an argument array. -/
theorem keep_main_part0_ops1_main_arg0 (W : Valuation τ sig (Elt F)) :
    StableHlo.after main_part0_ops1 W (Proc.devRef .tc main_arg0) = W (Proc.devRef .tc main_arg0) :=
  StableHlo.after_of_forall_not_mem (b := Proc.devRef .tc main_arg0) _ _ (List.forall_iff_forall_mem.mp (by
    simp only [main_part0_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops1_main_arg1 (W : Valuation τ sig (Elt F)) :
    StableHlo.after main_part0_ops1 W (Proc.devRef .tc main_arg1) = W (Proc.devRef .tc main_arg1) :=
  StableHlo.after_of_forall_not_mem (b := Proc.devRef .tc main_arg1) _ _ (List.forall_iff_forall_mem.mp (by
    simp only [main_part0_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops1_main_arg2 (W : Valuation τ sig (Elt F)) :
    StableHlo.after main_part0_ops1 W (Proc.devRef .tc main_arg2) = W (Proc.devRef .tc main_arg2) :=
  StableHlo.after_of_forall_not_mem (b := Proc.devRef .tc main_arg2) _ _ (List.forall_iff_forall_mem.mp (by
    simp only [main_part0_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops1_main_arg3 (W : Valuation τ sig (Elt F)) :
    StableHlo.after main_part0_ops1 W (Proc.devRef .tc main_arg3) = W (Proc.devRef .tc main_arg3) :=
  StableHlo.after_of_forall_not_mem (b := Proc.devRef .tc main_arg3) _ _ (List.forall_iff_forall_mem.mp (by
    simp only [main_part0_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops1_main_arg4 (W : Valuation τ sig (Elt F)) :
    StableHlo.after main_part0_ops1 W (Proc.devRef .tc main_arg4) = W (Proc.devRef .tc main_arg4) :=
  StableHlo.after_of_forall_not_mem (b := Proc.devRef .tc main_arg4) _ _ (List.forall_iff_forall_mem.mp (by
    simp only [main_part0_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops1_main_arg5 (W : Valuation τ sig (Elt F)) :
    StableHlo.after main_part0_ops1 W (Proc.devRef .tc main_arg5) = W (Proc.devRef .tc main_arg5) :=
  StableHlo.after_of_forall_not_mem (b := Proc.devRef .tc main_arg5) _ _ (List.forall_iff_forall_mem.mp (by
    simp only [main_part0_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops1_main_arg6 (W : Valuation τ sig (Elt F)) :
    StableHlo.after main_part0_ops1 W (Proc.devRef .tc main_arg6) = W (Proc.devRef .tc main_arg6) :=
  StableHlo.after_of_forall_not_mem (b := Proc.devRef .tc main_arg6) _ _ (List.forall_iff_forall_mem.mp (by
    simp only [main_part0_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops1_main_arg7 (W : Valuation τ sig (Elt F)) :
    StableHlo.after main_part0_ops1 W (Proc.devRef .tc main_arg7) = W (Proc.devRef .tc main_arg7) :=
  StableHlo.after_of_forall_not_mem (b := Proc.devRef .tc main_arg7) _ _ (List.forall_iff_forall_mem.mp (by
    simp only [main_part0_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops1_main_arg8 (W : Valuation τ sig (Elt F)) :
    StableHlo.after main_part0_ops1 W (Proc.devRef .tc main_arg8) = W (Proc.devRef .tc main_arg8) :=
  StableHlo.after_of_forall_not_mem (b := Proc.devRef .tc main_arg8) _ _ (List.forall_iff_forall_mem.mp (by
    simp only [main_part0_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops1_main_arg9 (W : Valuation τ sig (Elt F)) :
    StableHlo.after main_part0_ops1 W (Proc.devRef .tc main_arg9) = W (Proc.devRef .tc main_arg9) :=
  StableHlo.after_of_forall_not_mem (b := Proc.devRef .tc main_arg9) _ _ (List.forall_iff_forall_mem.mp (by
    simp only [main_part0_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops1_main_arg10 (W : Valuation τ sig (Elt F)) :
    StableHlo.after main_part0_ops1 W (Proc.devRef .tc main_arg10) = W (Proc.devRef .tc main_arg10) :=
  StableHlo.after_of_forall_not_mem (b := Proc.devRef .tc main_arg10) _ _ (List.forall_iff_forall_mem.mp (by
    simp only [main_part0_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops1_main_arg11 (W : Valuation τ sig (Elt F)) :
    StableHlo.after main_part0_ops1 W (Proc.devRef .tc main_arg11) = W (Proc.devRef .tc main_arg11) :=
  StableHlo.after_of_forall_not_mem (b := Proc.devRef .tc main_arg11) _ _ (List.forall_iff_forall_mem.mp (by
    simp only [main_part0_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops1_main_arg12 (W : Valuation τ sig (Elt F)) :
    StableHlo.after main_part0_ops1 W (Proc.devRef .tc main_arg12) = W (Proc.devRef .tc main_arg12) :=
  StableHlo.after_of_forall_not_mem (b := Proc.devRef .tc main_arg12) _ _ (List.forall_iff_forall_mem.mp (by
    simp only [main_part0_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops1_main_arg13 (W : Valuation τ sig (Elt F)) :
    StableHlo.after main_part0_ops1 W (Proc.devRef .tc main_arg13) = W (Proc.devRef .tc main_arg13) :=
  StableHlo.after_of_forall_not_mem (b := Proc.devRef .tc main_arg13) _ _ (List.forall_iff_forall_mem.mp (by
    simp only [main_part0_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops1_main_arg14 (W : Valuation τ sig (Elt F)) :
    StableHlo.after main_part0_ops1 W (Proc.devRef .tc main_arg14) = W (Proc.devRef .tc main_arg14) :=
  StableHlo.after_of_forall_not_mem (b := Proc.devRef .tc main_arg14) _ _ (List.forall_iff_forall_mem.mp (by
    simp only [main_part0_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops1_main_arg15 (W : Valuation τ sig (Elt F)) :
    StableHlo.after main_part0_ops1 W (Proc.devRef .tc main_arg15) = W (Proc.devRef .tc main_arg15) :=
  StableHlo.after_of_forall_not_mem (b := Proc.devRef .tc main_arg15) _ _ (List.forall_iff_forall_mem.mp (by
    simp only [main_part0_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops1_main_arg16 (W : Valuation τ sig (Elt F)) :
    StableHlo.after main_part0_ops1 W (Proc.devRef .tc main_arg16) = W (Proc.devRef .tc main_arg16) :=
  StableHlo.after_of_forall_not_mem (b := Proc.devRef .tc main_arg16) _ _ (List.forall_iff_forall_mem.mp (by
    simp only [main_part0_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops1_main_arg17 (W : Valuation τ sig (Elt F)) :
    StableHlo.after main_part0_ops1 W (Proc.devRef .tc main_arg17) = W (Proc.devRef .tc main_arg17) :=
  StableHlo.after_of_forall_not_mem (b := Proc.devRef .tc main_arg17) _ _ (List.forall_iff_forall_mem.mp (by
    simp only [main_part0_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops1_main_arg18 (W : Valuation τ sig (Elt F)) :
    StableHlo.after main_part0_ops1 W (Proc.devRef .tc main_arg18) = W (Proc.devRef .tc main_arg18) :=
  StableHlo.after_of_forall_not_mem (b := Proc.devRef .tc main_arg18) _ _ (List.forall_iff_forall_mem.mp (by
    simp only [main_part0_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops1_main_arg19 (W : Valuation τ sig (Elt F)) :
    StableHlo.after main_part0_ops1 W (Proc.devRef .tc main_arg19) = W (Proc.devRef .tc main_arg19) :=
  StableHlo.after_of_forall_not_mem (b := Proc.devRef .tc main_arg19) _ _ (List.forall_iff_forall_mem.mp (by
    simp only [main_part0_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

end Cert.Kernel.Hand
end
-- ==== Proof.KB.Keep_main_part0_ops2.lean ====
import proofs.«146436_j3985729651483_1_alg».proof.Proof.Gen.Kernel.Launch
import proofs.«146436_j3985729651483_1_alg».proof.Proof.Gen.Kernel.Skeleton
import proofs.«146436_j3985729651483_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! No operation of this stretch of host operations writes an argument array. -/
theorem keep_main_part0_ops2_main_arg0 (W : Valuation τ sig (Elt F)) :
    StableHlo.after main_part0_ops2 W (Proc.devRef .tc main_arg0) = W (Proc.devRef .tc main_arg0) :=
  StableHlo.after_of_forall_not_mem (b := Proc.devRef .tc main_arg0) _ _ (List.forall_iff_forall_mem.mp (by
    simp only [main_part0_ops2, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops2_main_arg1 (W : Valuation τ sig (Elt F)) :
    StableHlo.after main_part0_ops2 W (Proc.devRef .tc main_arg1) = W (Proc.devRef .tc main_arg1) :=
  StableHlo.after_of_forall_not_mem (b := Proc.devRef .tc main_arg1) _ _ (List.forall_iff_forall_mem.mp (by
    simp only [main_part0_ops2, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops2_main_arg2 (W : Valuation τ sig (Elt F)) :
    StableHlo.after main_part0_ops2 W (Proc.devRef .tc main_arg2) = W (Proc.devRef .tc main_arg2) :=
  StableHlo.after_of_forall_not_mem (b := Proc.devRef .tc main_arg2) _ _ (List.forall_iff_forall_mem.mp (by
    simp only [main_part0_ops2, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops2_main_arg3 (W : Valuation τ sig (Elt F)) :
    StableHlo.after main_part0_ops2 W (Proc.devRef .tc main_arg3) = W (Proc.devRef .tc main_arg3) :=
  StableHlo.after_of_forall_not_mem (b := Proc.devRef .tc main_arg3) _ _ (List.forall_iff_forall_mem.mp (by
    simp only [main_part0_ops2, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops2_main_arg4 (W : Valuation τ sig (Elt F)) :
    StableHlo.after main_part0_ops2 W (Proc.devRef .tc main_arg4) = W (Proc.devRef .tc main_arg4) :=
  StableHlo.after_of_forall_not_mem (b := Proc.devRef .tc main_arg4) _ _ (List.forall_iff_forall_mem.mp (by
    simp only [main_part0_ops2, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops2_main_arg5 (W : Valuation τ sig (Elt F)) :
    StableHlo.after main_part0_ops2 W (Proc.devRef .tc main_arg5) = W (Proc.devRef .tc main_arg5) :=
  StableHlo.after_of_forall_not_mem (b := Proc.devRef .tc main_arg5) _ _ (List.forall_iff_forall_mem.mp (by
    simp only [main_part0_ops2, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops2_main_arg6 (W : Valuation τ sig (Elt F)) :
    StableHlo.after main_part0_ops2 W (Proc.devRef .tc main_arg6) = W (Proc.devRef .tc main_arg6) :=
  StableHlo.after_of_forall_not_mem (b := Proc.devRef .tc main_arg6) _ _ (List.forall_iff_forall_mem.mp (by
    simp only [main_part0_ops2, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops2_main_arg7 (W : Valuation τ sig (Elt F)) :
    StableHlo.after main_part0_ops2 W (Proc.devRef .tc main_arg7) = W (Proc.devRef .tc main_arg7) :=
  StableHlo.after_of_forall_not_mem (b := Proc.devRef .tc main_arg7) _ _ (List.forall_iff_forall_mem.mp (by
    simp only [main_part0_ops2, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops2_main_arg8 (W : Valuation τ sig (Elt F)) :
    StableHlo.after main_part0_ops2 W (Proc.devRef .tc main_arg8) = W (Proc.devRef .tc main_arg8) :=
  StableHlo.after_of_forall_not_mem (b := Proc.devRef .tc main_arg8) _ _ (List.forall_iff_forall_mem.mp (by
    simp only [main_part0_ops2, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops2_main_arg9 (W : Valuation τ sig (Elt F)) :
    StableHlo.after main_part0_ops2 W (Proc.devRef .tc main_arg9) = W (Proc.devRef .tc main_arg9) :=
  StableHlo.after_of_forall_not_mem (b := Proc.devRef .tc main_arg9) _ _ (List.forall_iff_forall_mem.mp (by
    simp only [main_part0_ops2, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops2_main_arg10 (W : Valuation τ sig (Elt F)) :
    StableHlo.after main_part0_ops2 W (Proc.devRef .tc main_arg10) = W (Proc.devRef .tc main_arg10) :=
  StableHlo.after_of_forall_not_mem (b := Proc.devRef .tc main_arg10) _ _ (List.forall_iff_forall_mem.mp (by
    simp only [main_part0_ops2, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops2_main_arg11 (W : Valuation τ sig (Elt F)) :
    StableHlo.after main_part0_ops2 W (Proc.devRef .tc main_arg11) = W (Proc.devRef .tc main_arg11) :=
  StableHlo.after_of_forall_not_mem (b := Proc.devRef .tc main_arg11) _ _ (List.forall_iff_forall_mem.mp (by
    simp only [main_part0_ops2, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops2_main_arg12 (W : Valuation τ sig (Elt F)) :
    StableHlo.after main_part0_ops2 W (Proc.devRef .tc main_arg12) = W (Proc.devRef .tc main_arg12) :=
  StableHlo.after_of_forall_not_mem (b := Proc.devRef .tc main_arg12) _ _ (List.forall_iff_forall_mem.mp (by
    simp only [main_part0_ops2, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops2_main_arg13 (W : Valuation τ sig (Elt F)) :
    StableHlo.after main_part0_ops2 W (Proc.devRef .tc main_arg13) = W (Proc.devRef .tc main_arg13) :=
  StableHlo.after_of_forall_not_mem (b := Proc.devRef .tc main_arg13) _ _ (List.forall_iff_forall_mem.mp (by
    simp only [main_part0_ops2, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops2_main_arg14 (W : Valuation τ sig (Elt F)) :
    StableHlo.after main_part0_ops2 W (Proc.devRef .tc main_arg14) = W (Proc.devRef .tc main_arg14) :=
  StableHlo.after_of_forall_not_mem (b := Proc.devRef .tc main_arg14) _ _ (List.forall_iff_forall_mem.mp (by
    simp only [main_part0_ops2, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops2_main_arg15 (W : Valuation τ sig (Elt F)) :
    StableHlo.after main_part0_ops2 W (Proc.devRef .tc main_arg15) = W (Proc.devRef .tc main_arg15) :=
  StableHlo.after_of_forall_not_mem (b := Proc.devRef .tc main_arg15) _ _ (List.forall_iff_forall_mem.mp (by
    simp only [main_part0_ops2, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops2_main_arg16 (W : Valuation τ sig (Elt F)) :
    StableHlo.after main_part0_ops2 W (Proc.devRef .tc main_arg16) = W (Proc.devRef .tc main_arg16) :=
  StableHlo.after_of_forall_not_mem (b := Proc.devRef .tc main_arg16) _ _ (List.forall_iff_forall_mem.mp (by
    simp only [main_part0_ops2, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops2_main_arg17 (W : Valuation τ sig (Elt F)) :
    StableHlo.after main_part0_ops2 W (Proc.devRef .tc main_arg17) = W (Proc.devRef .tc main_arg17) :=
  StableHlo.after_of_forall_not_mem (b := Proc.devRef .tc main_arg17) _ _ (List.forall_iff_forall_mem.mp (by
    simp only [main_part0_ops2, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops2_main_arg18 (W : Valuation τ sig (Elt F)) :
    StableHlo.after main_part0_ops2 W (Proc.devRef .tc main_arg18) = W (Proc.devRef .tc main_arg18) :=
  StableHlo.after_of_forall_not_mem (b := Proc.devRef .tc main_arg18) _ _ (List.forall_iff_forall_mem.mp (by
    simp only [main_part0_ops2, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops2_main_arg19 (W : Valuation τ sig (Elt F)) :
    StableHlo.after main_part0_ops2 W (Proc.devRef .tc main_arg19) = W (Proc.devRef .tc main_arg19) :=
  StableHlo.after_of_forall_not_mem (b := Proc.devRef .tc main_arg19) _ _ (List.forall_iff_forall_mem.mp (by
    simp only [main_part0_ops2, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

end Cert.Kernel.Hand
end
-- ==== Proof.KB.Keep_main_part1_ops0.lean ====
import proofs.«146436_j3985729651483_1_alg».proof.Proof.Gen.Kernel.Launch
import proofs.«146436_j3985729651483_1_alg».proof.Proof.Gen.Kernel.Skeleton
import proofs.«146436_j3985729651483_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! No operation of this stretch of host operations writes an argument array. -/
theorem keep_main_part1_ops0_main_arg0 (W : Valuation τ sig (Elt F)) :
    StableHlo.after main_part1_ops0 W (Proc.devRef .tc main_arg0) = W (Proc.devRef .tc main_arg0) :=
  StableHlo.after_of_forall_not_mem (b := Proc.devRef .tc main_arg0) _ _ (List.forall_iff_forall_mem.mp (by
    simp only [main_part1_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops0_main_arg1 (W : Valuation τ sig (Elt F)) :
    StableHlo.after main_part1_ops0 W (Proc.devRef .tc main_arg1) = W (Proc.devRef .tc main_arg1) :=
  StableHlo.after_of_forall_not_mem (b := Proc.devRef .tc main_arg1) _ _ (List.forall_iff_forall_mem.mp (by
    simp only [main_part1_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops0_main_arg2 (W : Valuation τ sig (Elt F)) :
    StableHlo.after main_part1_ops0 W (Proc.devRef .tc main_arg2) = W (Proc.devRef .tc main_arg2) :=
  StableHlo.after_of_forall_not_mem (b := Proc.devRef .tc main_arg2) _ _ (List.forall_iff_forall_mem.mp (by
    simp only [main_part1_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops0_main_arg3 (W : Valuation τ sig (Elt F)) :
    StableHlo.after main_part1_ops0 W (Proc.devRef .tc main_arg3) = W (Proc.devRef .tc main_arg3) :=
  StableHlo.after_of_forall_not_mem (b := Proc.devRef .tc main_arg3) _ _ (List.forall_iff_forall_mem.mp (by
    simp only [main_part1_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops0_main_arg4 (W : Valuation τ sig (Elt F)) :
    StableHlo.after main_part1_ops0 W (Proc.devRef .tc main_arg4) = W (Proc.devRef .tc main_arg4) :=
  StableHlo.after_of_forall_not_mem (b := Proc.devRef .tc main_arg4) _ _ (List.forall_iff_forall_mem.mp (by
    simp only [main_part1_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops0_main_arg5 (W : Valuation τ sig (Elt F)) :
    StableHlo.after main_part1_ops0 W (Proc.devRef .tc main_arg5) = W (Proc.devRef .tc main_arg5) :=
  StableHlo.after_of_forall_not_mem (b := Proc.devRef .tc main_arg5) _ _ (List.forall_iff_forall_mem.mp (by
    simp only [main_part1_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops0_main_arg6 (W : Valuation τ sig (Elt F)) :
    StableHlo.after main_part1_ops0 W (Proc.devRef .tc main_arg6) = W (Proc.devRef .tc main_arg6) :=
  StableHlo.after_of_forall_not_mem (b := Proc.devRef .tc main_arg6) _ _ (List.forall_iff_forall_mem.mp (by
    simp only [main_part1_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops0_main_arg7 (W : Valuation τ sig (Elt F)) :
    StableHlo.after main_part1_ops0 W (Proc.devRef .tc main_arg7) = W (Proc.devRef .tc main_arg7) :=
  StableHlo.after_of_forall_not_mem (b := Proc.devRef .tc main_arg7) _ _ (List.forall_iff_forall_mem.mp (by
    simp only [main_part1_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops0_main_arg8 (W : Valuation τ sig (Elt F)) :
    StableHlo.after main_part1_ops0 W (Proc.devRef .tc main_arg8) = W (Proc.devRef .tc main_arg8) :=
  StableHlo.after_of_forall_not_mem (b := Proc.devRef .tc main_arg8) _ _ (List.forall_iff_forall_mem.mp (by
    simp only [main_part1_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops0_main_arg9 (W : Valuation τ sig (Elt F)) :
    StableHlo.after main_part1_ops0 W (Proc.devRef .tc main_arg9) = W (Proc.devRef .tc main_arg9) :=
  StableHlo.after_of_forall_not_mem (b := Proc.devRef .tc main_arg9) _ _ (List.forall_iff_forall_mem.mp (by
    simp only [main_part1_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops0_main_arg10 (W : Valuation τ sig (Elt F)) :
    StableHlo.after main_part1_ops0 W (Proc.devRef .tc main_arg10) = W (Proc.devRef .tc main_arg10) :=
  StableHlo.after_of_forall_not_mem (b := Proc.devRef .tc main_arg10) _ _ (List.forall_iff_forall_mem.mp (by
    simp only [main_part1_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops0_main_arg11 (W : Valuation τ sig (Elt F)) :
    StableHlo.after main_part1_ops0 W (Proc.devRef .tc main_arg11) = W (Proc.devRef .tc main_arg11) :=
  StableHlo.after_of_forall_not_mem (b := Proc.devRef .tc main_arg11) _ _ (List.forall_iff_forall_mem.mp (by
    simp only [main_part1_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops0_main_arg12 (W : Valuation τ sig (Elt F)) :
    StableHlo.after main_part1_ops0 W (Proc.devRef .tc main_arg12) = W (Proc.devRef .tc main_arg12) :=
  StableHlo.after_of_forall_not_mem (b := Proc.devRef .tc main_arg12) _ _ (List.forall_iff_forall_mem.mp (by
    simp only [main_part1_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops0_main_arg13 (W : Valuation τ sig (Elt F)) :
    StableHlo.after main_part1_ops0 W (Proc.devRef .tc main_arg13) = W (Proc.devRef .tc main_arg13) :=
  StableHlo.after_of_forall_not_mem (b := Proc.devRef .tc main_arg13) _ _ (List.forall_iff_forall_mem.mp (by
    simp only [main_part1_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops0_main_arg14 (W : Valuation τ sig (Elt F)) :
    StableHlo.after main_part1_ops0 W (Proc.devRef .tc main_arg14) = W (Proc.devRef .tc main_arg14) :=
  StableHlo.after_of_forall_not_mem (b := Proc.devRef .tc main_arg14) _ _ (List.forall_iff_forall_mem.mp (by
    simp only [main_part1_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops0_main_arg15 (W : Valuation τ sig (Elt F)) :
    StableHlo.after main_part1_ops0 W (Proc.devRef .tc main_arg15) = W (Proc.devRef .tc main_arg15) :=
  StableHlo.after_of_forall_not_mem (b := Proc.devRef .tc main_arg15) _ _ (List.forall_iff_forall_mem.mp (by
    simp only [main_part1_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops0_main_arg16 (W : Valuation τ sig (Elt F)) :
    StableHlo.after main_part1_ops0 W (Proc.devRef .tc main_arg16) = W (Proc.devRef .tc main_arg16) :=
  StableHlo.after_of_forall_not_mem (b := Proc.devRef .tc main_arg16) _ _ (List.forall_iff_forall_mem.mp (by
    simp only [main_part1_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops0_main_arg17 (W : Valuation τ sig (Elt F)) :
    StableHlo.after main_part1_ops0 W (Proc.devRef .tc main_arg17) = W (Proc.devRef .tc main_arg17) :=
  StableHlo.after_of_forall_not_mem (b := Proc.devRef .tc main_arg17) _ _ (List.forall_iff_forall_mem.mp (by
    simp only [main_part1_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops0_main_arg18 (W : Valuation τ sig (Elt F)) :
    StableHlo.after main_part1_ops0 W (Proc.devRef .tc main_arg18) = W (Proc.devRef .tc main_arg18) :=
  StableHlo.after_of_forall_not_mem (b := Proc.devRef .tc main_arg18) _ _ (List.forall_iff_forall_mem.mp (by
    simp only [main_part1_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops0_main_arg19 (W : Valuation τ sig (Elt F)) :
    StableHlo.after main_part1_ops0 W (Proc.devRef .tc main_arg19) = W (Proc.devRef .tc main_arg19) :=
  StableHlo.after_of_forall_not_mem (b := Proc.devRef .tc main_arg19) _ _ (List.forall_iff_forall_mem.mp (by
    simp only [main_part1_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

end Cert.Kernel.Hand
end
-- ==== Proof.KB.Keep_main_part1_ops1.lean ====
import proofs.«146436_j3985729651483_1_alg».proof.Proof.Gen.Kernel.Launch
import proofs.«146436_j3985729651483_1_alg».proof.Proof.Gen.Kernel.Skeleton
import proofs.«146436_j3985729651483_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! No operation of this stretch of host operations writes an argument array. -/
theorem keep_main_part1_ops1_main_arg0 (W : Valuation τ sig (Elt F)) :
    StableHlo.after main_part1_ops1 W (Proc.devRef .tc main_arg0) = W (Proc.devRef .tc main_arg0) :=
  StableHlo.after_of_forall_not_mem (b := Proc.devRef .tc main_arg0) _ _ (List.forall_iff_forall_mem.mp (by
    simp only [main_part1_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops1_main_arg1 (W : Valuation τ sig (Elt F)) :
    StableHlo.after main_part1_ops1 W (Proc.devRef .tc main_arg1) = W (Proc.devRef .tc main_arg1) :=
  StableHlo.after_of_forall_not_mem (b := Proc.devRef .tc main_arg1) _ _ (List.forall_iff_forall_mem.mp (by
    simp only [main_part1_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops1_main_arg2 (W : Valuation τ sig (Elt F)) :
    StableHlo.after main_part1_ops1 W (Proc.devRef .tc main_arg2) = W (Proc.devRef .tc main_arg2) :=
  StableHlo.after_of_forall_not_mem (b := Proc.devRef .tc main_arg2) _ _ (List.forall_iff_forall_mem.mp (by
    simp only [main_part1_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops1_main_arg3 (W : Valuation τ sig (Elt F)) :
    StableHlo.after main_part1_ops1 W (Proc.devRef .tc main_arg3) = W (Proc.devRef .tc main_arg3) :=
  StableHlo.after_of_forall_not_mem (b := Proc.devRef .tc main_arg3) _ _ (List.forall_iff_forall_mem.mp (by
    simp only [main_part1_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops1_main_arg4 (W : Valuation τ sig (Elt F)) :
    StableHlo.after main_part1_ops1 W (Proc.devRef .tc main_arg4) = W (Proc.devRef .tc main_arg4) :=
  StableHlo.after_of_forall_not_mem (b := Proc.devRef .tc main_arg4) _ _ (List.forall_iff_forall_mem.mp (by
    simp only [main_part1_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops1_main_arg5 (W : Valuation τ sig (Elt F)) :
    StableHlo.after main_part1_ops1 W (Proc.devRef .tc main_arg5) = W (Proc.devRef .tc main_arg5) :=
  StableHlo.after_of_forall_not_mem (b := Proc.devRef .tc main_arg5) _ _ (List.forall_iff_forall_mem.mp (by
    simp only [main_part1_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops1_main_arg6 (W : Valuation τ sig (Elt F)) :
    StableHlo.after main_part1_ops1 W (Proc.devRef .tc main_arg6) = W (Proc.devRef .tc main_arg6) :=
  StableHlo.after_of_forall_not_mem (b := Proc.devRef .tc main_arg6) _ _ (List.forall_iff_forall_mem.mp (by
    simp only [main_part1_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops1_main_arg7 (W : Valuation τ sig (Elt F)) :
    StableHlo.after main_part1_ops1 W (Proc.devRef .tc main_arg7) = W (Proc.devRef .tc main_arg7) :=
  StableHlo.after_of_forall_not_mem (b := Proc.devRef .tc main_arg7) _ _ (List.forall_iff_forall_mem.mp (by
    simp only [main_part1_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops1_main_arg8 (W : Valuation τ sig (Elt F)) :
    StableHlo.after main_part1_ops1 W (Proc.devRef .tc main_arg8) = W (Proc.devRef .tc main_arg8) :=
  StableHlo.after_of_forall_not_mem (b := Proc.devRef .tc main_arg8) _ _ (List.forall_iff_forall_mem.mp (by
    simp only [main_part1_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops1_main_arg9 (W : Valuation τ sig (Elt F)) :
    StableHlo.after main_part1_ops1 W (Proc.devRef .tc main_arg9) = W (Proc.devRef .tc main_arg9) :=
  StableHlo.after_of_forall_not_mem (b := Proc.devRef .tc main_arg9) _ _ (List.forall_iff_forall_mem.mp (by
    simp only [main_part1_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops1_main_arg10 (W : Valuation τ sig (Elt F)) :
    StableHlo.after main_part1_ops1 W (Proc.devRef .tc main_arg10) = W (Proc.devRef .tc main_arg10) :=
  StableHlo.after_of_forall_not_mem (b := Proc.devRef .tc main_arg10) _ _ (List.forall_iff_forall_mem.mp (by
    simp only [main_part1_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops1_main_arg11 (W : Valuation τ sig (Elt F)) :
    StableHlo.after main_part1_ops1 W (Proc.devRef .tc main_arg11) = W (Proc.devRef .tc main_arg11) :=
  StableHlo.after_of_forall_not_mem (b := Proc.devRef .tc main_arg11) _ _ (List.forall_iff_forall_mem.mp (by
    simp only [main_part1_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops1_main_arg12 (W : Valuation τ sig (Elt F)) :
    StableHlo.after main_part1_ops1 W (Proc.devRef .tc main_arg12) = W (Proc.devRef .tc main_arg12) :=
  StableHlo.after_of_forall_not_mem (b := Proc.devRef .tc main_arg12) _ _ (List.forall_iff_forall_mem.mp (by
    simp only [main_part1_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops1_main_arg13 (W : Valuation τ sig (Elt F)) :
    StableHlo.after main_part1_ops1 W (Proc.devRef .tc main_arg13) = W (Proc.devRef .tc main_arg13) :=
  StableHlo.after_of_forall_not_mem (b := Proc.devRef .tc main_arg13) _ _ (List.forall_iff_forall_mem.mp (by
    simp only [main_part1_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops1_main_arg14 (W : Valuation τ sig (Elt F)) :
    StableHlo.after main_part1_ops1 W (Proc.devRef .tc main_arg14) = W (Proc.devRef .tc main_arg14) :=
  StableHlo.after_of_forall_not_mem (b := Proc.devRef .tc main_arg14) _ _ (List.forall_iff_forall_mem.mp (by
    simp only [main_part1_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops1_main_arg15 (W : Valuation τ sig (Elt F)) :
    StableHlo.after main_part1_ops1 W (Proc.devRef .tc main_arg15) = W (Proc.devRef .tc main_arg15) :=
  StableHlo.after_of_forall_not_mem (b := Proc.devRef .tc main_arg15) _ _ (List.forall_iff_forall_mem.mp (by
    simp only [main_part1_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops1_main_arg16 (W : Valuation τ sig (Elt F)) :
    StableHlo.after main_part1_ops1 W (Proc.devRef .tc main_arg16) = W (Proc.devRef .tc main_arg16) :=
  StableHlo.after_of_forall_not_mem (b := Proc.devRef .tc main_arg16) _ _ (List.forall_iff_forall_mem.mp (by
    simp only [main_part1_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops1_main_arg17 (W : Valuation τ sig (Elt F)) :
    StableHlo.after main_part1_ops1 W (Proc.devRef .tc main_arg17) = W (Proc.devRef .tc main_arg17) :=
  StableHlo.after_of_forall_not_mem (b := Proc.devRef .tc main_arg17) _ _ (List.forall_iff_forall_mem.mp (by
    simp only [main_part1_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops1_main_arg18 (W : Valuation τ sig (Elt F)) :
    StableHlo.after main_part1_ops1 W (Proc.devRef .tc main_arg18) = W (Proc.devRef .tc main_arg18) :=
  StableHlo.after_of_forall_not_mem (b := Proc.devRef .tc main_arg18) _ _ (List.forall_iff_forall_mem.mp (by
    simp only [main_part1_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops1_main_arg19 (W : Valuation τ sig (Elt F)) :
    StableHlo.after main_part1_ops1 W (Proc.devRef .tc main_arg19) = W (Proc.devRef .tc main_arg19) :=
  StableHlo.after_of_forall_not_mem (b := Proc.devRef .tc main_arg19) _ _ (List.forall_iff_forall_mem.mp (by
    simp only [main_part1_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

end Cert.Kernel.Hand
end
-- ==== Proof.KB.Frame.lean ====
import proofs.«146436_j3985729651483_1_alg».proof.Proof.Gen.Kernel.Launch
import proofs.«146436_j3985729651483_1_alg».proof.Proof.Gen.Kernel.Skeleton
import proofs.«146436_j3985729651483_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«146436_j3985729651483_1_alg».proof.Proof.KB.Run
import proofs.«146436_j3985729651483_1_alg».proof.Proof.KB.Keep_main_part0_ops0
import proofs.«146436_j3985729651483_1_alg».proof.Proof.KB.Keep_main_part0_ops1
import proofs.«146436_j3985729651483_1_alg».proof.Proof.KB.Keep_main_part0_ops2
import proofs.«146436_j3985729651483_1_alg».proof.Proof.KB.Keep_main_part1_ops0
import proofs.«146436_j3985729651483_1_alg».proof.Proof.KB.Keep_main_part1_ops1
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The argument arrays end as launched: no host operation writes one and each pallas_call only reads it (through an input
    window) or bypasses it, so the last boundary's contents at an argument walk back to the launch memory. -/

variable (m : (ℓ : Loc nD τ sig) → Buf (Elt F) ℓ) (ρ : Dev nD → PrngReg)

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := keep_main_part1_ops1_main_arg0 _
    _ = W5 m ρ c (Proc.devRef .tc main_arg0) := W6_of_ne m ρ c main_arg0 (by decide)
    _ = W4 m ρ c (Proc.devRef .tc main_arg0) := W5_of_ne m ρ c main_arg0 (by decide)
    _ = W3 m ρ c (Proc.devRef .tc main_arg0) := keep_main_part1_ops0_main_arg0 _
    _ = W2 m ρ c (Proc.devRef .tc main_arg0) := keep_main_part0_ops2_main_arg0 _
    _ = W1 m ρ c (Proc.devRef .tc main_arg0) := keep_main_part0_ops1_main_arg0 _
    _ = W0 m ρ c (Proc.devRef .tc main_arg0) := keep_main_part0_ops0_main_arg0 _
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := keep_main_part1_ops1_main_arg1 _
    _ = W5 m ρ c (Proc.devRef .tc main_arg1) := W6_of_ne m ρ c main_arg1 (by decide)
    _ = W4 m ρ c (Proc.devRef .tc main_arg1) := W5_of_ne m ρ c main_arg1 (by decide)
    _ = W3 m ρ c (Proc.devRef .tc main_arg1) := keep_main_part1_ops0_main_arg1 _
    _ = W2 m ρ c (Proc.devRef .tc main_arg1) := keep_main_part0_ops2_main_arg1 _
    _ = W1 m ρ c (Proc.devRef .tc main_arg1) := keep_main_part0_ops1_main_arg1 _
    _ = W0 m ρ c (Proc.devRef .tc main_arg1) := keep_main_part0_ops0_main_arg1 _
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := keep_main_part1_ops1_main_arg2 _
    _ = W5 m ρ c (Proc.devRef .tc main_arg2) := W6_of_ne m ρ c main_arg2 (by decide)
    _ = W4 m ρ c (Proc.devRef .tc main_arg2) := W5_of_ne m ρ c main_arg2 (by decide)
    _ = W3 m ρ c (Proc.devRef .tc main_arg2) := keep_main_part1_ops0_main_arg2 _
    _ = W2 m ρ c (Proc.devRef .tc main_arg2) := keep_main_part0_ops2_main_arg2 _
    _ = W1 m ρ c (Proc.devRef .tc main_arg2) := keep_main_part0_ops1_main_arg2 _
    _ = W0 m ρ c (Proc.devRef .tc main_arg2) := keep_main_part0_ops0_main_arg2 _
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := keep_main_part1_ops1_main_arg3 _
    _ = W5 m ρ c (Proc.devRef .tc main_arg3) := W6_of_ne m ρ c main_arg3 (by decide)
    _ = W4 m ρ c (Proc.devRef .tc main_arg3) := W5_of_ne m ρ c main_arg3 (by decide)
    _ = W3 m ρ c (Proc.devRef .tc main_arg3) := keep_main_part1_ops0_main_arg3 _
    _ = W2 m ρ c (Proc.devRef .tc main_arg3) := keep_main_part0_ops2_main_arg3 _
    _ = W1 m ρ c (Proc.devRef .tc main_arg3) := keep_main_part0_ops1_main_arg3 _
    _ = W0 m ρ c (Proc.devRef .tc main_arg3) := keep_main_part0_ops0_main_arg3 _
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := keep_main_part1_ops1_main_arg4 _
    _ = W5 m ρ c (Proc.devRef .tc main_arg4) := W6_of_ne m ρ c main_arg4 (by decide)
    _ = W4 m ρ c (Proc.devRef .tc main_arg4) := W5_of_ne m ρ c main_arg4 (by decide)
    _ = W3 m ρ c (Proc.devRef .tc main_arg4) := keep_main_part1_ops0_main_arg4 _
    _ = W2 m ρ c (Proc.devRef .tc main_arg4) := keep_main_part0_ops2_main_arg4 _
    _ = W1 m ρ c (Proc.devRef .tc main_arg4) := keep_main_part0_ops1_main_arg4 _
    _ = W0 m ρ c (Proc.devRef .tc main_arg4) := keep_main_part0_ops0_main_arg4 _
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := keep_main_part1_ops1_main_arg5 _
    _ = W5 m ρ c (Proc.devRef .tc main_arg5) := W6_of_ne m ρ c main_arg5 (by decide)
    _ = W4 m ρ c (Proc.devRef .tc main_arg5) := W5_of_ne m ρ c main_arg5 (by decide)
    _ = W3 m ρ c (Proc.devRef .tc main_arg5) := keep_main_part1_ops0_main_arg5 _
    _ = W2 m ρ c (Proc.devRef .tc main_arg5) := keep_main_part0_ops2_main_arg5 _
    _ = W1 m ρ c (Proc.devRef .tc main_arg5) := keep_main_part0_ops1_main_arg5 _
    _ = W0 m ρ c (Proc.devRef .tc main_arg5) := keep_main_part0_ops0_main_arg5 _
    _ = m ((c : Thread nD τ).loc main_arg5) := rfl

theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := keep_main_part1_ops1_main_arg6 _
    _ = W5 m ρ c (Proc.devRef .tc main_arg6) := W6_of_ne m ρ c main_arg6 (by decide)
    _ = W4 m ρ c (Proc.devRef .tc main_arg6) := W5_of_ne m ρ c main_arg6 (by decide)
    _ = W3 m ρ c (Proc.devRef .tc main_arg6) := keep_main_part1_ops0_main_arg6 _
    _ = W2 m ρ c (Proc.devRef .tc main_arg6) := keep_main_part0_ops2_main_arg6 _
    _ = W1 m ρ c (Proc.devRef .tc main_arg6) := keep_main_part0_ops1_main_arg6 _
    _ = W0 m ρ c (Proc.devRef .tc main_arg6) := keep_main_part0_ops0_main_arg6 _
    _ = m ((c : Thread nD τ).loc main_arg6) := rfl

theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := keep_main_part1_ops1_main_arg7 _
    _ = W5 m ρ c (Proc.devRef .tc main_arg7) := W6_of_ne m ρ c main_arg7 (by decide)
    _ = W4 m ρ c (Proc.devRef .tc main_arg7) := W5_of_ne m ρ c main_arg7 (by decide)
    _ = W3 m ρ c (Proc.devRef .tc main_arg7) := keep_main_part1_ops0_main_arg7 _
    _ = W2 m ρ c (Proc.devRef .tc main_arg7) := keep_main_part0_ops2_main_arg7 _
    _ = W1 m ρ c (Proc.devRef .tc main_arg7) := keep_main_part0_ops1_main_arg7 _
    _ = W0 m ρ c (Proc.devRef .tc main_arg7) := keep_main_part0_ops0_main_arg7 _
    _ = m ((c : Thread nD τ).loc main_arg7) := rfl

theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := keep_main_part1_ops1_main_arg8 _
    _ = W5 m ρ c (Proc.devRef .tc main_arg8) := W6_of_ne m ρ c main_arg8 (by decide)
    _ = W4 m ρ c (Proc.devRef .tc main_arg8) := W5_of_ne m ρ c main_arg8 (by decide)
    _ = W3 m ρ c (Proc.devRef .tc main_arg8) := keep_main_part1_ops0_main_arg8 _
    _ = W2 m ρ c (Proc.devRef .tc main_arg8) := keep_main_part0_ops2_main_arg8 _
    _ = W1 m ρ c (Proc.devRef .tc main_arg8) := keep_main_part0_ops1_main_arg8 _
    _ = W0 m ρ c (Proc.devRef .tc main_arg8) := keep_main_part0_ops0_main_arg8 _
    _ = m ((c : Thread nD τ).loc main_arg8) := rfl

theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := keep_main_part1_ops1_main_arg9 _
    _ = W5 m ρ c (Proc.devRef .tc main_arg9) := W6_of_ne m ρ c main_arg9 (by decide)
    _ = W4 m ρ c (Proc.devRef .tc main_arg9) := W5_of_ne m ρ c main_arg9 (by decide)
    _ = W3 m ρ c (Proc.devRef .tc main_arg9) := keep_main_part1_ops0_main_arg9 _
    _ = W2 m ρ c (Proc.devRef .tc main_arg9) := keep_main_part0_ops2_main_arg9 _
    _ = W1 m ρ c (Proc.devRef .tc main_arg9) := keep_main_part0_ops1_main_arg9 _
    _ = W0 m ρ c (Proc.devRef .tc main_arg9) := keep_main_part0_ops0_main_arg9 _
    _ = m ((c : Thread nD τ).loc main_arg9) := rfl

theorem W7_main_arg10 (c : Dev nD) : W7 m ρ c (Proc.devRef .tc main_arg10) = m ((c : Thread nD τ).loc main_arg10) :=
  calc W7 m ρ c (Proc.devRef .tc main_arg10)
    _ = W6 m ρ c (Proc.devRef .tc main_arg10) := keep_main_part1_ops1_main_arg10 _
    _ = W5 m ρ c (Proc.devRef .tc main_arg10) := W6_of_ne m ρ c main_arg10 (by decide)
    _ = W4 m ρ c (Proc.devRef .tc main_arg10) := W5_of_ne m ρ c main_arg10 (by decide)
    _ = W3 m ρ c (Proc.devRef .tc main_arg10) := keep_main_part1_ops0_main_arg10 _
    _ = W2 m ρ c (Proc.devRef .tc main_arg10) := keep_main_part0_ops2_main_arg10 _
    _ = W1 m ρ c (Proc.devRef .tc main_arg10) := keep_main_part0_ops1_main_arg10 _
    _ = W0 m ρ c (Proc.devRef .tc main_arg10) := keep_main_part0_ops0_main_arg10 _
    _ = m ((c : Thread nD τ).loc main_arg10) := rfl

theorem W7_main_arg11 (c : Dev nD) : W7 m ρ c (Proc.devRef .tc main_arg11) = m ((c : Thread nD τ).loc main_arg11) :=
  calc W7 m ρ c (Proc.devRef .tc main_arg11)
    _ = W6 m ρ c (Proc.devRef .tc main_arg11) := keep_main_part1_ops1_main_arg11 _
    _ = W5 m ρ c (Proc.devRef .tc main_arg11) := W6_of_ne m ρ c main_arg11 (by decide)
    _ = W4 m ρ c (Proc.devRef .tc main_arg11) := W5_of_ne m ρ c main_arg11 (by decide)
    _ = W3 m ρ c (Proc.devRef .tc main_arg11) := keep_main_part1_ops0_main_arg11 _
    _ = W2 m ρ c (Proc.devRef .tc main_arg11) := keep_main_part0_ops2_main_arg11 _
    _ = W1 m ρ c (Proc.devRef .tc main_arg11) := keep_main_part0_ops1_main_arg11 _
    _ = W0 m ρ c (Proc.devRef .tc main_arg11) := keep_main_part0_ops0_main_arg11 _
    _ = m ((c : Thread nD τ).loc main_arg11) := rfl

theorem W7_main_arg12 (c : Dev nD) : W7 m ρ c (Proc.devRef .tc main_arg12) = m ((c : Thread nD τ).loc main_arg12) :=
  calc W7 m ρ c (Proc.devRef .tc main_arg12)
    _ = W6 m ρ c (Proc.devRef .tc main_arg12) := keep_main_part1_ops1_main_arg12 _
    _ = W5 m ρ c (Proc.devRef .tc main_arg12) := W6_of_ne m ρ c main_arg12 (by decide)
    _ = W4 m ρ c (Proc.devRef .tc main_arg12) := W5_of_ne m ρ c main_arg12 (by decide)
    _ = W3 m ρ c (Proc.devRef .tc main_arg12) := keep_main_part1_ops0_main_arg12 _
    _ = W2 m ρ c (Proc.devRef .tc main_arg12) := keep_main_part0_ops2_main_arg12 _
    _ = W1 m ρ c (Proc.devRef .tc main_arg12) := keep_main_part0_ops1_main_arg12 _
    _ = W0 m ρ c (Proc.devRef .tc main_arg12) := keep_main_part0_ops0_main_arg12 _
    _ = m ((c : Thread nD τ).loc main_arg12) := rfl

theorem W7_main_arg13 (c : Dev nD) : W7 m ρ c (Proc.devRef .tc main_arg13) = m ((c : Thread nD τ).loc main_arg13) :=
  calc W7 m ρ c (Proc.devRef .tc main_arg13)
    _ = W6 m ρ c (Proc.devRef .tc main_arg13) := keep_main_part1_ops1_main_arg13 _
    _ = W5 m ρ c (Proc.devRef .tc main_arg13) := W6_of_ne m ρ c main_arg13 (by decide)
    _ = W4 m ρ c (Proc.devRef .tc main_arg13) := W5_of_ne m ρ c main_arg13 (by decide)
    _ = W3 m ρ c (Proc.devRef .tc main_arg13) := keep_main_part1_ops0_main_arg13 _
    _ = W2 m ρ c (Proc.devRef .tc main_arg13) := keep_main_part0_ops2_main_arg13 _
    _ = W1 m ρ c (Proc.devRef .tc main_arg13) := keep_main_part0_ops1_main_arg13 _
    _ = W0 m ρ c (Proc.devRef .tc main_arg13) := keep_main_part0_ops0_main_arg13 _
    _ = m ((c : Thread nD τ).loc main_arg13) := rfl

theorem W7_main_arg14 (c : Dev nD) : W7 m ρ c (Proc.devRef .tc main_arg14) = m ((c : Thread nD τ).loc main_arg14) :=
  calc W7 m ρ c (Proc.devRef .tc main_arg14)
    _ = W6 m ρ c (Proc.devRef .tc main_arg14) := keep_main_part1_ops1_main_arg14 _
    _ = W5 m ρ c (Proc.devRef .tc main_arg14) := W6_of_ne m ρ c main_arg14 (by decide)
    _ = W4 m ρ c (Proc.devRef .tc main_arg14) := W5_of_ne m ρ c main_arg14 (by decide)
    _ = W3 m ρ c (Proc.devRef .tc main_arg14) := keep_main_part1_ops0_main_arg14 _
    _ = W2 m ρ c (Proc.devRef .tc main_arg14) := keep_main_part0_ops2_main_arg14 _
    _ = W1 m ρ c (Proc.devRef .tc main_arg14) := keep_main_part0_ops1_main_arg14 _
    _ = W0 m ρ c (Proc.devRef .tc main_arg14) := keep_main_part0_ops0_main_arg14 _
    _ = m ((c : Thread nD τ).loc main_arg14) := rfl

theorem W7_main_arg15 (c : Dev nD) : W7 m ρ c (Proc.devRef .tc main_arg15) = m ((c : Thread nD τ).loc main_arg15) :=
  calc W7 m ρ c (Proc.devRef .tc main_arg15)
    _ = W6 m ρ c (Proc.devRef .tc main_arg15) := keep_main_part1_ops1_main_arg15 _
    _ = W5 m ρ c (Proc.devRef .tc main_arg15) := W6_of_ne m ρ c main_arg15 (by decide)
    _ = W4 m ρ c (Proc.devRef .tc main_arg15) := W5_of_ne m ρ c main_arg15 (by decide)
    _ = W3 m ρ c (Proc.devRef .tc main_arg15) := keep_main_part1_ops0_main_arg15 _
    _ = W2 m ρ c (Proc.devRef .tc main_arg15) := keep_main_part0_ops2_main_arg15 _
    _ = W1 m ρ c (Proc.devRef .tc main_arg15) := keep_main_part0_ops1_main_arg15 _
    _ = W0 m ρ c (Proc.devRef .tc main_arg15) := keep_main_part0_ops0_main_arg15 _
    _ = m ((c : Thread nD τ).loc main_arg15) := rfl

theorem W7_main_arg16 (c : Dev nD) : W7 m ρ c (Proc.devRef .tc main_arg16) = m ((c : Thread nD τ).loc main_arg16) :=
  calc W7 m ρ c (Proc.devRef .tc main_arg16)
    _ = W6 m ρ c (Proc.devRef .tc main_arg16) := keep_main_part1_ops1_main_arg16 _
    _ = W5 m ρ c (Proc.devRef .tc main_arg16) := W6_of_ne m ρ c main_arg16 (by decide)
    _ = W4 m ρ c (Proc.devRef .tc main_arg16) := W5_of_ne m ρ c main_arg16 (by decide)
    _ = W3 m ρ c (Proc.devRef .tc main_arg16) := keep_main_part1_ops0_main_arg16 _
    _ = W2 m ρ c (Proc.devRef .tc main_arg16) := keep_main_part0_ops2_main_arg16 _
    _ = W1 m ρ c (Proc.devRef .tc main_arg16) := keep_main_part0_ops1_main_arg16 _
    _ = W0 m ρ c (Proc.devRef .tc main_arg16) := keep_main_part0_ops0_main_arg16 _
    _ = m ((c : Thread nD τ).loc main_arg16) := rfl

theorem W7_main_arg17 (c : Dev nD) : W7 m ρ c (Proc.devRef .tc main_arg17) = m ((c : Thread nD τ).loc main_arg17) :=
  calc W7 m ρ c (Proc.devRef .tc main_arg17)
    _ = W6 m ρ c (Proc.devRef .tc main_arg17) := keep_main_part1_ops1_main_arg17 _
    _ = W5 m ρ c (Proc.devRef .tc main_arg17) := W6_of_ne m ρ c main_arg17 (by decide)
    _ = W4 m ρ c (Proc.devRef .tc main_arg17) := W5_of_ne m ρ c main_arg17 (by decide)
    _ = W3 m ρ c (Proc.devRef .tc main_arg17) := keep_main_part1_ops0_main_arg17 _
    _ = W2 m ρ c (Proc.devRef .tc main_arg17) := keep_main_part0_ops2_main_arg17 _
    _ = W1 m ρ c (Proc.devRef .tc main_arg17) := keep_main_part0_ops1_main_arg17 _
    _ = W0 m ρ c (Proc.devRef .tc main_arg17) := keep_main_part0_ops0_main_arg17 _
    _ = m ((c : Thread nD τ).loc main_arg17) := rfl

theorem W7_main_arg18 (c : Dev nD) : W7 m ρ c (Proc.devRef .tc main_arg18) = m ((c : Thread nD τ).loc main_arg18) :=
  calc W7 m ρ c (Proc.devRef .tc main_arg18)
    _ = W6 m ρ c (Proc.devRef .tc main_arg18) := keep_main_part1_ops1_main_arg18 _
    _ = W5 m ρ c (Proc.devRef .tc main_arg18) := W6_of_ne m ρ c main_arg18 (by decide)
    _ = W4 m ρ c (Proc.devRef .tc main_arg18) := W5_of_ne m ρ c main_arg18 (by decide)
    _ = W3 m ρ c (Proc.devRef .tc main_arg18) := keep_main_part1_ops0_main_arg18 _
    _ = W2 m ρ c (Proc.devRef .tc main_arg18) := keep_main_part0_ops2_main_arg18 _
    _ = W1 m ρ c (Proc.devRef .tc main_arg18) := keep_main_part0_ops1_main_arg18 _
    _ = W0 m ρ c (Proc.devRef .tc main_arg18) := keep_main_part0_ops0_main_arg18 _
    _ = m ((c : Thread nD τ).loc main_arg18) := rfl

theorem W7_main_arg19 (c : Dev nD) : W7 m ρ c (Proc.devRef .tc main_arg19) = m ((c : Thread nD τ).loc main_arg19) :=
  calc W7 m ρ c (Proc.devRef .tc main_arg19)
    _ = W6 m ρ c (Proc.devRef .tc main_arg19) := keep_main_part1_ops1_main_arg19 _
    _ = W5 m ρ c (Proc.devRef .tc main_arg19) := W6_of_ne m ρ c main_arg19 (by decide)
    _ = W4 m ρ c (Proc.devRef .tc main_arg19) := W5_of_ne m ρ c main_arg19 (by decide)
    _ = W3 m ρ c (Proc.devRef .tc main_arg19) := keep_main_part1_ops0_main_arg19 _
    _ = W2 m ρ c (Proc.devRef .tc main_arg19) := keep_main_part0_ops2_main_arg19 _
    _ = W1 m ρ c (Proc.devRef .tc main_arg19) := keep_main_part0_ops1_main_arg19 _
    _ = W0 m ρ c (Proc.devRef .tc main_arg19) := keep_main_part0_ops0_main_arg19 _
    _ = m ((c : Thread nD τ).loc main_arg19) := rfl

/-- The run with the result buffer and every argument read off the last boundary's contents. -/
theorem run_named : θ_run defs (onTc (τ := τ) (main (F := F))) ⟨m, fun _ => 0, ρ⟩ (fun r => ∀ c : Dev nD,
      r.2.mem ((c.tc : Thread nD τ).loc main_v93) = W7 m ρ c (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => ⟨h c _ (mem_uc main_v93 (by decide)),
    (h c _ (mem_uc main_arg0 (by decide))).trans (W7_main_arg0 m ρ c),
    (h c _ (mem_uc main_arg1 (by decide))).trans (W7_main_arg1 m ρ c),
    (h c _ (mem_uc main_arg2 (by decide))).trans (W7_main_arg2 m ρ c),
    (h c _ (mem_uc main_arg3 (by decide))).trans (W7_main_arg3 m ρ c),
    (h c _ (mem_uc main_arg4 (by decide))).trans (W7_main_arg4 m ρ c),
    (h c _ (mem_uc main_arg5 (by decide))).trans (W7_main_arg5 m ρ c),
    (h c _ (mem_uc main_arg6 (by decide))).trans (W7_main_arg6 m ρ c),
    (h c _ (mem_uc main_arg7 (by decide))).trans (W7_main_arg7 m ρ c),
    (h c _ (mem_uc main_arg8 (by decide))).trans (W7_main_arg8 m ρ c),
    (h c _ (mem_uc main_arg9 (by decide))).trans (W7_main_arg9 m ρ c),
    (h c _ (mem_uc main_arg10 (by decide))).trans (W7_main_arg10 m ρ c),
    (h c _ (mem_uc main_arg11 (by decide))).trans (W7_main_arg11 m ρ c),
    (h c _ (mem_uc main_arg12 (by decide))).trans (W7_main_arg12 m ρ c),
    (h c _ (mem_uc main_arg13 (by decide))).trans (W7_main_arg13 m ρ c),
    (h c _ (mem_uc main_arg14 (by decide))).trans (W7_main_arg14 m ρ c),
    (h c _ (mem_uc main_arg15 (by decide))).trans (W7_main_arg15 m ρ c),
    (h c _ (mem_uc main_arg16 (by decide))).trans (W7_main_arg16 m ρ c),
    (h c _ (mem_uc main_arg17 (by decide))).trans (W7_main_arg17 m ρ c),
    (h c _ (mem_uc main_arg18 (by decide))).trans (W7_main_arg18 m ρ c),
    (h c _ (mem_uc main_arg19 (by decide))).trans (W7_main_arg19 m ρ c)⟩) (run_all m ρ)

/-- The frame: every weakly fair execution terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => (h c).2) (run_named m ρ)

end Cert.Kernel.Hand
end
-- ==== Proof.KI.Body0.lean ====
import proofs.«146436_j3985729651483_1_alg».proof.Proof.Gen.KernelIdeal.Launch
import proofs.«146436_j3985729651483_1_alg».proof.Proof.Gen.KernelIdeal.Skeleton
import proofs.«146436_j3985729651483_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The kernel body of pallas_call 0 on whole staging memrefs, one triple per control case: at the first column of a
    row of tiles the accumulator is zeroed and then receives the tile's lane sums; at an inner column it is added to;
    at the last column it is added to and the output block receives it scaled. -/

theorem hz2_0 : (![0, 0] : Fin 2 → Nat) = fun _ => 0 := funext fun a => by fin_cases a <;> rfl

theorem mem_unit_zero_0 {S : Shape} {off : Fin S.rank → Nat} (h : off = fun _ => 0) (inb : ∀ a, off a + S.size a ≤ S.size a) (y : S.Idx) :
    y ∈ (Rect.unit off S.size inb).set := by
  subst h; show y ∈ (Rect.whole S).set; rw [Rect.set_whole]; exact Finset.mem_univ y

set_option maxHeartbeats 4000000 in
theorem sound_kernel0_A (c : Dev nD) (E : Set ℕ) (i : grid0.Coords)
    (h1 : Scalar.cmpi .ne (Scalar.extui (Scalar.cmpi .eq (BitVec.ofNat 32 (i 1).val) 0#32)) 0#32 = 1#1) (h2 : ¬ k0_cond2 i = 1#1)
    (arg2 : Memref sig .tc .vmem S32x256 .f32) (harg2 : arg2.IsWhole) (arg3 : Memref sig .tc .vmem S256x256 .f32) (harg3 : arg3.IsWhole)
    (arg4 : Memref sig .tc .vmem S32x256 .f32) (harg4 : arg4.IsWhole) (arg5 : Memref sig .tc .vmem S32x256 .f32) (harg5 : arg5.IsWhole)
    (x0 : Vec F S32x256 .f32) (x1 : Vec F S256x256 .f32) (y : Vec F S32x256 .f32) (s : Vec F S32x256 .f32) (K : PUnit → sProp 𝕄) :
    iprop(owns (c : Thread nD τ) arg2 fullShare x0 ∗ owns (c : Thread nD τ) arg3 fullShare x1
        ∗ owns (c : Thread nD τ) arg4 fullShare y ∗ (∃ s', owns (c : Thread nD τ) arg5 fullShare s')
        ∗ (iprop(owns (c : Thread nD τ) arg2 fullShare x0 ∗ owns (c : Thread nD τ) arg3 fullShare x1
            ∗ owns (c : Thread nD τ) arg4 fullShare y ∗ owns (c : Thread nD τ) arg5 fullShare (k0_pay2 x0 x1 (k0_pay1 (F := F)))) -∗ K ⟨⟩))
      ⊢ wp frame (wpE (defs₀ (F := F)) Variants.none c none) E (cc0__btm_kernel i arg2 harg2 arg3 harg3 arg4 harg4 arg5 harg5) K := by
  simp only [cc0__btm_kernel_eq_skeleton]; unfold cc0__btm_kernel_skel
  unfold owns
  iintro ⟨⟨%f0, %hf0, H0⟩, ⟨%f1, %hf1, H1⟩, ⟨%f2, %hf2, H2⟩, ⟨%s', %f3, -, H3⟩, Hk⟩
  subst hf0; subst hf1; subst hf2
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_cons_self, mem_unit_zero_0 hz2_0 inb_S32x256_S32x256_0_0 y⟩)]
  rw [View.canon_cons_unit_zero hz2_0]
  simp only [View.readAt_eq_ld, View.ld_unit_zero (S := S32x256) hz2_0, View.ld_unit_zero (S := S256x256) hz2_0]
  sl_unfold_run_names
  rw [View.readCov_unit_zero _ hz2_0]

set_option maxHeartbeats 4000000 in
theorem sound_kernel0_B (c : Dev nD) (E : Set ℕ) (i : grid0.Coords)
    (h1 : ¬ Scalar.cmpi .ne (Scalar.extui (Scalar.cmpi .eq (BitVec.ofNat 32 (i 1).val) 0#32)) 0#32 = 1#1) (h2 : ¬ k0_cond2 i = 1#1)
    (arg2 : Memref sig .tc .vmem S32x256 .f32) (harg2 : arg2.IsWhole) (arg3 : Memref sig .tc .vmem S256x256 .f32) (harg3 : arg3.IsWhole)
    (arg4 : Memref sig .tc .vmem S32x256 .f32) (harg4 : arg4.IsWhole) (arg5 : Memref sig .tc .vmem S32x256 .f32) (harg5 : arg5.IsWhole)
    (x0 : Vec F S32x256 .f32) (x1 : Vec F S256x256 .f32) (y : Vec F S32x256 .f32) (s : Vec F S32x256 .f32) (K : PUnit → sProp 𝕄) :
    iprop(owns (c : Thread nD τ) arg2 fullShare x0 ∗ owns (c : Thread nD τ) arg3 fullShare x1
        ∗ owns (c : Thread nD τ) arg4 fullShare y ∗ owns (c : Thread nD τ) arg5 fullShare s
        ∗ (iprop(owns (c : Thread nD τ) arg2 fullShare x0 ∗ owns (c : Thread nD τ) arg3 fullShare x1
            ∗ owns (c : Thread nD τ) arg4 fullShare y ∗ owns (c : Thread nD τ) arg5 fullShare (k0_pay2 x0 x1 s)) -∗ K ⟨⟩))
      ⊢ wp frame (wpE (defs₀ (F := F)) Variants.none c none) E (cc0__btm_kernel i arg2 harg2 arg3 harg3 arg4 harg4 arg5 harg5) K := by
  simp only [cc0__btm_kernel_eq_skeleton]; unfold cc0__btm_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_cons_self, mem_unit_zero_0 hz2_0 inb_S32x256_S32x256_0_0 y⟩)]
  rw [View.canon_cons_unit_zero hz2_0]
  simp only [View.readAt_eq_ld, View.ld_unit_zero (S := S32x256) hz2_0, View.ld_unit_zero (S := S256x256) hz2_0]
  try sl_unfold_run_names
  try simp only [View.readAt_eq_ld, View.ld_unit_zero (S := S32x256) hz2_0]

set_option maxHeartbeats 4000000 in
theorem sound_kernel0_C (c : Dev nD) (E : Set ℕ) (i : grid0.Coords)
    (h1 : ¬ Scalar.cmpi .ne (Scalar.extui (Scalar.cmpi .eq (BitVec.ofNat 32 (i 1).val) 0#32)) 0#32 = 1#1) (h2 : k0_cond2 i = 1#1)
    (arg2 : Memref sig .tc .vmem S32x256 .f32) (harg2 : arg2.IsWhole) (arg3 : Memref sig .tc .vmem S256x256 .f32) (harg3 : arg3.IsWhole)
    (arg4 : Memref sig .tc .vmem S32x256 .f32) (harg4 : arg4.IsWhole) (arg5 : Memref sig .tc .vmem S32x256 .f32) (harg5 : arg5.IsWhole)
    (x0 : Vec F S32x256 .f32) (x1 : Vec F S256x256 .f32) (y : Vec F S32x256 .f32) (s : Vec F S32x256 .f32) (K : PUnit → sProp 𝕄) :
    iprop(owns (c : Thread nD τ) arg2 fullShare x0 ∗ owns (c : Thread nD τ) arg3 fullShare x1
        ∗ owns (c : Thread nD τ) arg4 fullShare y ∗ owns (c : Thread nD τ) arg5 fullShare s
        ∗ (iprop(owns (c : Thread nD τ) arg2 fullShare x0 ∗ owns (c : Thread nD τ) arg3 fullShare x1
            ∗ owns (c : Thread nD τ) arg4 fullShare (k0_pay3 (k0_pay2 x0 x1 s)) ∗ owns (c : Thread nD τ) arg5 fullShare (k0_pay2 x0 x1 s)) -∗ K ⟨⟩))
      ⊢ wp frame (wpE (defs₀ (F := F)) Variants.none c none) E (cc0__btm_kernel i arg2 harg2 arg3 harg3 arg4 harg4 arg5 harg5) K := by
  simp only [cc0__btm_kernel_eq_skeleton]; unfold cc0__btm_kernel_skel
  unfold owns
  iintro ⟨⟨%f0, %hf0, H0⟩, ⟨%f1, %hf1, H1⟩, ⟨%f2, %hf2, H2⟩, ⟨%f3, %hf3, H3⟩, Hk⟩
  subst hf0; subst hf1; subst hf3
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    try sl_unfold_run_names
    rw [View.read_writes_eq_canon _ _ _ (fun y => ⟨_, List.mem_cons_self, mem_unit_zero_0 hz2_0 inb_S32x256_S32x256_0_0 y⟩)]
    rw [View.canon_cons_unit_zero hz2_0]
    simp only [View.readAt_eq_ld, View.ld_unit_zero (S := S32x256) hz2_0, View.ld_unit_zero (S := S256x256) hz2_0]
    rw [View.readCov_unit_zero _ hz2_0]
  iexists _; isplitr
  swap; · iexact H3
  ipureintro
  try sl_unfold_run_names
  rw [View.read_writes_eq_canon _ _ _ (fun y => ⟨_, List.mem_cons_self, mem_unit_zero_0 hz2_0 inb_S32x256_S32x256_0_0 y⟩)]
  rw [View.canon_cons_unit_zero hz2_0]
  simp only [View.readAt_eq_ld, View.ld_unit_zero (S := S32x256) hz2_0, View.ld_unit_zero (S := S256x256) hz2_0]

end Cert.KernelIdeal.Hand
end
-- ==== Proof.KI.Dat0.lean ====
import proofs.«146436_j3985729651483_1_alg».proof.Proof.Gen.KernelIdeal.Launch
import proofs.«146436_j3985729651483_1_alg».proof.Proof.Gen.KernelIdeal.Skeleton
import proofs.«146436_j3985729651483_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«146436_j3985729651483_1_alg».proof.Proof.KI.Body0
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The proof data of pallas_call 0 at the buffer contents `V` the region is entered from: the accumulator after each
    grid point (zeroed at the first column of a row of tiles, then the running sum of the tiles' lane sums), the output
    block's staging buffer after the last column, the invariant that carries the accumulator from point to point, and the
    body obligation at every point. -/

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The conditions over the grid, in closed form -/

abbrev cond0_1 (i : grid0.Coords) : Prop := Scalar.cmpi .ne (Scalar.extui (Scalar.cmpi .eq (BitVec.ofNat 32 (i 1).val) 0#32)) 0#32 = 1#1
theorem hcond0_1 : ∀ t : Fin cfg0.N, cond0_1 (grid0.coords t) ↔ t.val % 4 = 0 :=
  (by decide +kernel : ∀ t : Fin grid0.N, cond0_1 (grid0.coords t) ↔ t.val % 4 = 0)
theorem hcond0_2 : ∀ t : Fin cfg0.N, k0_cond2 (grid0.coords t) = 1#1 ↔ t.val % 4 = 3 :=
  (by decide +kernel : ∀ t : Fin grid0.N, k0_cond2 (grid0.coords t) = 1#1 ↔ t.val % 4 = 3)
theorem idle0_2 : ∀ t : Fin cfg0.N, ¬ t.val % 4 = 3 → cfg0.idle 2 (grid0.coords t) = true :=
  (by decide +kernel : ∀ t : Fin grid0.N, ¬ t.val % 4 = 3 → cfg0.idle 2 (grid0.coords t) = true)
theorem live0_2 : ∀ t : Fin cfg0.N, t.val % 4 = 3 → cfg0.idle 2 (grid0.coords t) = false :=
  (by decide +kernel : ∀ t : Fin grid0.N, t.val % 4 = 3 → cfg0.idle 2 (grid0.coords t) = false)

/-! ## The accumulator after each point -/

/-- The scratch accumulator after the body at position `n`: at the first column of a row of tiles the tile's lane sums
    added to zero, at a later column added to what the point before left. -/
def acc0 (c : Dev nD) : (n : ℕ) → n < cfg0.N → Vec F S32x256 .f32
  | 0, hn => k0_pay2 (iblk0 V c 0 ⟨0, hn⟩) (iblk0 V c 1 ⟨0, hn⟩) (k0_pay1 (F := F))
  | n + 1, hn =>
    if (n + 1) % 4 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (acc0 c n (Nat.lt_of_succ_lt hn))

theorem acc0_first (c : Dev nD) (t : Fin cfg0.N) (h : t.val % 4 = 0) :
    acc0 V c t.val t.isLt = k0_pay2 (iblk0 V c 0 t) (iblk0 V c 1 t) (k0_pay1 (F := F)) := by
  obtain ⟨n, hn⟩ := t
  cases n with
  | zero => rfl
  | succ n => exact if_pos h

theorem acc0_later (c : Dev nD) (t : Fin cfg0.N) (h : ¬ t.val % 4 = 0) :
    acc0 V c t.val t.isLt = k0_pay2 (iblk0 V c 0 t) (iblk0 V c 1 t)
      (acc0 V c (t.val - 1) (Nat.lt_of_le_of_lt (Nat.sub_le _ _) t.isLt)) := by
  obtain ⟨n, hn⟩ := t
  cases n with
  | zero => exact absurd (Nat.zero_mod 4) h
  | succ n => exact if_neg h

/-! ## The invariant -/

abbrev scM0 : Memref sig .tc .vmem S32x256 .f32 := Memref.whole cc0_scratch0

/-- The scoped buffers of the core that are neither a staging buffer of this call nor its accumulator, each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

theorem PhiA0_elim (c : Dev nD) :
    (Pipeline.ΦA spec0 c : sProp 𝕄) ⊢ iprop((∃ d, owns (c : Thread nD τ) scM0 fullShare d) ∗ rest0 (F := F) c ∗ (∃ r, prngReg c r)) := by
  unfold Pipeline.ΦA rest0; rw [scopedRest0_eq]; simp only [scM0, owns_whole]
  iintro ⟨⟨HS, HR⟩, Hg⟩
  isplitl [HS]; · iexact HS
  isplitl [HR]; · iexact HR
  iexact Hg

theorem PhiA0_intro (c : Dev nD) :
    iprop((∃ d, owns (c : Thread nD τ) scM0 fullShare d) ∗ rest0 (F := F) c ∗ (∃ r, prngReg c r)) ⊢ (Pipeline.ΦA spec0 c : sProp 𝕄) := by
  unfold Pipeline.ΦA rest0; rw [scopedRest0_eq]; simp only [scM0, owns_whole]
  iintro ⟨HS, HR, Hg⟩
  isplitl [HS HR]
  · isplitl [HS]; · iexact HS
    iexact HR
  iexact Hg

/-- The region invariant before position `n`: before the first point the scoped rest and the generator register; afterwards
    the accumulator at what the point before left, the other scoped buffers at anything, the generator register at some state. -/
def PhiS0 (c : Dev nD) : (n : ℕ) → n ≤ cfg0.N → sProp 𝕄
  | 0, _ => Pipeline.ΦA spec0 c
  | n + 1, hn => iprop(owns (c : Thread nD τ) scM0 fullShare (acc0 V c n hn) ∗ rest0 (F := F) c ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0 fullShare (acc0 V c n hn) ∗ rest0 (F := F) c ∗ (∃ r, prngReg c r)) := rfl

theorem PhiS0_pos (c : Dev nD) (n : ℕ) (h : n ≤ cfg0.N) (hz : n ≠ 0) :
    PhiS0 V c n h = iprop(owns (c : Thread nD τ) scM0 fullShare (acc0 V c (n - 1) (by omega)) ∗ rest0 (F := F) c ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (acc0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end Region0

end Cert.KernelIdeal.Hand
end
-- ==== Proof.KI.Body1.lean ====
import proofs.«146436_j3985729651483_1_alg».proof.Proof.Gen.KernelIdeal.Launch
import proofs.«146436_j3985729651483_1_alg».proof.Proof.Gen.KernelIdeal.Skeleton
import proofs.«146436_j3985729651483_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The kernel body of pallas_call 1 on whole staging memrefs, one triple per control case: at the first column of a
    row of tiles the accumulator is zeroed and then receives the tile's lane sums; at an inner column it is added to;
    at the last column it is added to and the output block receives it scaled. -/

theorem hz2_1 : (![0, 0] : Fin 2 → Nat) = fun _ => 0 := funext fun a => by fin_cases a <;> rfl

theorem mem_unit_zero_1 {S : Shape} {off : Fin S.rank → Nat} (h : off = fun _ => 0) (inb : ∀ a, off a + S.size a ≤ S.size a) (y : S.Idx) :
    y ∈ (Rect.unit off S.size inb).set := by
  subst h; show y ∈ (Rect.whole S).set; rw [Rect.set_whole]; exact Finset.mem_univ y

set_option maxHeartbeats 4000000 in
theorem sound_kernel1_A (c : Dev nD) (E : Set ℕ) (i : grid1.Coords)
    (h1 : Scalar.cmpi .ne (Scalar.extui (Scalar.cmpi .eq (BitVec.ofNat 32 (i 1).val) 0#32)) 0#32 = 1#1) (h2 : ¬ k1_cond2 i = 1#1)
    (arg2 : Memref sig .tc .vmem S32x256 .f32) (harg2 : arg2.IsWhole) (arg3 : Memref sig .tc .vmem S256x256 .f32) (harg3 : arg3.IsWhole)
    (arg4 : Memref sig .tc .vmem S32x256 .f32) (harg4 : arg4.IsWhole) (arg5 : Memref sig .tc .vmem S32x256 .f32) (harg5 : arg5.IsWhole)
    (x0 : Vec F S32x256 .f32) (x1 : Vec F S256x256 .f32) (y : Vec F S32x256 .f32) (s : Vec F S32x256 .f32) (K : PUnit → sProp 𝕄) :
    iprop(owns (c : Thread nD τ) arg2 fullShare x0 ∗ owns (c : Thread nD τ) arg3 fullShare x1
        ∗ owns (c : Thread nD τ) arg4 fullShare y ∗ (∃ s', owns (c : Thread nD τ) arg5 fullShare s')
        ∗ (iprop(owns (c : Thread nD τ) arg2 fullShare x0 ∗ owns (c : Thread nD τ) arg3 fullShare x1
            ∗ owns (c : Thread nD τ) arg4 fullShare y ∗ owns (c : Thread nD τ) arg5 fullShare (k1_pay2 x0 x1 (k1_pay1 (F := F)))) -∗ K ⟨⟩))
      ⊢ wp frame (wpE (defs₀ (F := F)) Variants.none c none) E (cc1__btm_kernel i arg2 harg2 arg3 harg3 arg4 harg4 arg5 harg5) K := by
  simp only [cc1__btm_kernel_eq_skeleton]; unfold cc1__btm_kernel_skel
  unfold owns
  iintro ⟨⟨%f0, %hf0, H0⟩, ⟨%f1, %hf1, H1⟩, ⟨%f2, %hf2, H2⟩, ⟨%s', %f3, -, H3⟩, Hk⟩
  subst hf0; subst hf1; subst hf2
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_cons_self, mem_unit_zero_1 hz2_1 inb_S32x256_S32x256_0_0 y⟩)]
  rw [View.canon_cons_unit_zero hz2_1]
  simp only [View.readAt_eq_ld, View.ld_unit_zero (S := S32x256) hz2_1, View.ld_unit_zero (S := S256x256) hz2_1]
  sl_unfold_run_names
  rw [View.readCov_unit_zero _ hz2_1]

set_option maxHeartbeats 4000000 in
theorem sound_kernel1_B (c : Dev nD) (E : Set ℕ) (i : grid1.Coords)
    (h1 : ¬ Scalar.cmpi .ne (Scalar.extui (Scalar.cmpi .eq (BitVec.ofNat 32 (i 1).val) 0#32)) 0#32 = 1#1) (h2 : ¬ k1_cond2 i = 1#1)
    (arg2 : Memref sig .tc .vmem S32x256 .f32) (harg2 : arg2.IsWhole) (arg3 : Memref sig .tc .vmem S256x256 .f32) (harg3 : arg3.IsWhole)
    (arg4 : Memref sig .tc .vmem S32x256 .f32) (harg4 : arg4.IsWhole) (arg5 : Memref sig .tc .vmem S32x256 .f32) (harg5 : arg5.IsWhole)
    (x0 : Vec F S32x256 .f32) (x1 : Vec F S256x256 .f32) (y : Vec F S32x256 .f32) (s : Vec F S32x256 .f32) (K : PUnit → sProp 𝕄) :
    iprop(owns (c : Thread nD τ) arg2 fullShare x0 ∗ owns (c : Thread nD τ) arg3 fullShare x1
        ∗ owns (c : Thread nD τ) arg4 fullShare y ∗ owns (c : Thread nD τ) arg5 fullShare s
        ∗ (iprop(owns (c : Thread nD τ) arg2 fullShare x0 ∗ owns (c : Thread nD τ) arg3 fullShare x1
            ∗ owns (c : Thread nD τ) arg4 fullShare y ∗ owns (c : Thread nD τ) arg5 fullShare (k1_pay2 x0 x1 s)) -∗ K ⟨⟩))
      ⊢ wp frame (wpE (defs₀ (F := F)) Variants.none c none) E (cc1__btm_kernel i arg2 harg2 arg3 harg3 arg4 harg4 arg5 harg5) K := by
  simp only [cc1__btm_kernel_eq_skeleton]; unfold cc1__btm_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_cons_self, mem_unit_zero_1 hz2_1 inb_S32x256_S32x256_0_0 y⟩)]
  rw [View.canon_cons_unit_zero hz2_1]
  simp only [View.readAt_eq_ld, View.ld_unit_zero (S := S32x256) hz2_1, View.ld_unit_zero (S := S256x256) hz2_1]
  try sl_unfold_run_names
  try simp only [View.readAt_eq_ld, View.ld_unit_zero (S := S32x256) hz2_1]

set_option maxHeartbeats 4000000 in
theorem sound_kernel1_C (c : Dev nD) (E : Set ℕ) (i : grid1.Coords)
    (h1 : ¬ Scalar.cmpi .ne (Scalar.extui (Scalar.cmpi .eq (BitVec.ofNat 32 (i 1).val) 0#32)) 0#32 = 1#1) (h2 : k1_cond2 i = 1#1)
    (arg2 : Memref sig .tc .vmem S32x256 .f32) (harg2 : arg2.IsWhole) (arg3 : Memref sig .tc .vmem S256x256 .f32) (harg3 : arg3.IsWhole)
    (arg4 : Memref sig .tc .vmem S32x256 .f32) (harg4 : arg4.IsWhole) (arg5 : Memref sig .tc .vmem S32x256 .f32) (harg5 : arg5.IsWhole)
    (x0 : Vec F S32x256 .f32) (x1 : Vec F S256x256 .f32) (y : Vec F S32x256 .f32) (s : Vec F S32x256 .f32) (K : PUnit → sProp 𝕄) :
    iprop(owns (c : Thread nD τ) arg2 fullShare x0 ∗ owns (c : Thread nD τ) arg3 fullShare x1
        ∗ owns (c : Thread nD τ) arg4 fullShare y ∗ owns (c : Thread nD τ) arg5 fullShare s
        ∗ (iprop(owns (c : Thread nD τ) arg2 fullShare x0 ∗ owns (c : Thread nD τ) arg3 fullShare x1
            ∗ owns (c : Thread nD τ) arg4 fullShare (k1_pay3 (k1_pay2 x0 x1 s)) ∗ owns (c : Thread nD τ) arg5 fullShare (k1_pay2 x0 x1 s)) -∗ K ⟨⟩))
      ⊢ wp frame (wpE (defs₀ (F := F)) Variants.none c none) E (cc1__btm_kernel i arg2 harg2 arg3 harg3 arg4 harg4 arg5 harg5) K := by
  simp only [cc1__btm_kernel_eq_skeleton]; unfold cc1__btm_kernel_skel
  unfold owns
  iintro ⟨⟨%f0, %hf0, H0⟩, ⟨%f1, %hf1, H1⟩, ⟨%f2, %hf2, H2⟩, ⟨%f3, %hf3, H3⟩, Hk⟩
  subst hf0; subst hf1; subst hf3
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    try sl_unfold_run_names
    rw [View.read_writes_eq_canon _ _ _ (fun y => ⟨_, List.mem_cons_self, mem_unit_zero_1 hz2_1 inb_S32x256_S32x256_0_0 y⟩)]
    rw [View.canon_cons_unit_zero hz2_1]
    simp only [View.readAt_eq_ld, View.ld_unit_zero (S := S32x256) hz2_1, View.ld_unit_zero (S := S256x256) hz2_1]
    rw [View.readCov_unit_zero _ hz2_1]
  iexists _; isplitr
  swap; · iexact H3
  ipureintro
  try sl_unfold_run_names
  rw [View.read_writes_eq_canon _ _ _ (fun y => ⟨_, List.mem_cons_self, mem_unit_zero_1 hz2_1 inb_S32x256_S32x256_0_0 y⟩)]
  rw [View.canon_cons_unit_zero hz2_1]
  simp only [View.readAt_eq_ld, View.ld_unit_zero (S := S32x256) hz2_1, View.ld_unit_zero (S := S256x256) hz2_1]

end Cert.KernelIdeal.Hand
end
-- ==== Proof.KI.Dat1.lean ====
import proofs.«146436_j3985729651483_1_alg».proof.Proof.Gen.KernelIdeal.Launch
import proofs.«146436_j3985729651483_1_alg».proof.Proof.Gen.KernelIdeal.Skeleton
import proofs.«146436_j3985729651483_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«146436_j3985729651483_1_alg».proof.Proof.KI.Body1
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The proof data of pallas_call 1 at the buffer contents `V` the region is entered from: the accumulator after each
    grid point (zeroed at the first column of a row of tiles, then the running sum of the tiles' lane sums), the output
    block's staging buffer after the last column, the invariant that carries the accumulator from point to point, and the
    body obligation at every point. -/

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The conditions over the grid, in closed form -/

abbrev cond1_1 (i : grid1.Coords) : Prop := Scalar.cmpi .ne (Scalar.extui (Scalar.cmpi .eq (BitVec.ofNat 32 (i 1).val) 0#32)) 0#32 = 1#1
theorem hcond1_1 : ∀ t : Fin cfg1.N, cond1_1 (grid1.coords t) ↔ t.val % 4 = 0 :=
  (by decide +kernel : ∀ t : Fin grid1.N, cond1_1 (grid1.coords t) ↔ t.val % 4 = 0)
theorem hcond1_2 : ∀ t : Fin cfg1.N, k1_cond2 (grid1.coords t) = 1#1 ↔ t.val % 4 = 3 :=
  (by decide +kernel : ∀ t : Fin grid1.N, k1_cond2 (grid1.coords t) = 1#1 ↔ t.val % 4 = 3)
theorem idle1_2 : ∀ t : Fin cfg1.N, ¬ t.val % 4 = 3 → cfg1.idle 2 (grid1.coords t) = true :=
  (by decide +kernel : ∀ t : Fin grid1.N, ¬ t.val % 4 = 3 → cfg1.idle 2 (grid1.coords t) = true)
theorem live1_2 : ∀ t : Fin cfg1.N, t.val % 4 = 3 → cfg1.idle 2 (grid1.coords t) = false :=
  (by decide +kernel : ∀ t : Fin grid1.N, t.val % 4 = 3 → cfg1.idle 2 (grid1.coords t) = false)

/-! ## The accumulator after each point -/

/-- The scratch accumulator after the body at position `n`: at the first column of a row of tiles the tile's lane sums
    added to zero, at a later column added to what the point before left. -/
def acc1 (c : Dev nD) : (n : ℕ) → n < cfg1.N → Vec F S32x256 .f32
  | 0, hn => k1_pay2 (iblk1 V c 0 ⟨0, hn⟩) (iblk1 V c 1 ⟨0, hn⟩) (k1_pay1 (F := F))
  | n + 1, hn =>
    if (n + 1) % 4 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (acc1 c n (Nat.lt_of_succ_lt hn))

theorem acc1_first (c : Dev nD) (t : Fin cfg1.N) (h : t.val % 4 = 0) :
    acc1 V c t.val t.isLt = k1_pay2 (iblk1 V c 0 t) (iblk1 V c 1 t) (k1_pay1 (F := F)) := by
  obtain ⟨n, hn⟩ := t
  cases n with
  | zero => rfl
  | succ n => exact if_pos h

theorem acc1_later (c : Dev nD) (t : Fin cfg1.N) (h : ¬ t.val % 4 = 0) :
    acc1 V c t.val t.isLt = k1_pay2 (iblk1 V c 0 t) (iblk1 V c 1 t)
      (acc1 V c (t.val - 1) (Nat.lt_of_le_of_lt (Nat.sub_le _ _) t.isLt)) := by
  obtain ⟨n, hn⟩ := t
  cases n with
  | zero => exact absurd (Nat.zero_mod 4) h
  | succ n => exact if_neg h

/-! ## The invariant -/

abbrev scM1 : Memref sig .tc .vmem S32x256 .f32 := Memref.whole cc1_scratch0

/-- The scoped buffers of the core that are neither a staging buffer of this call nor its accumulator, each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

theorem PhiA1_elim (c : Dev nD) :
    (Pipeline.ΦA spec1 c : sProp 𝕄) ⊢ iprop((∃ d, owns (c : Thread nD τ) scM1 fullShare d) ∗ rest1 (F := F) c ∗ (∃ r, prngReg c r)) := by
  unfold Pipeline.ΦA rest1; rw [scopedRest1_eq]; simp only [scM1, owns_whole]
  iintro ⟨⟨HA, HB, HC, HD, HE, HF, HG, HS⟩, Hg⟩
  isplitl [HS]; · iexact HS
  isplitl [HA HB HC HD HE HF HG]
  · isplitl [HA]; · iexact HA
    isplitl [HB]; · iexact HB
    isplitl [HC]; · iexact HC
    isplitl [HD]; · iexact HD
    isplitl [HE]; · iexact HE
    isplitl [HF]; · iexact HF
    iexact HG
  iexact Hg

theorem PhiA1_intro (c : Dev nD) :
    iprop((∃ d, owns (c : Thread nD τ) scM1 fullShare d) ∗ rest1 (F := F) c ∗ (∃ r, prngReg c r)) ⊢ (Pipeline.ΦA spec1 c : sProp 𝕄) := by
  unfold Pipeline.ΦA rest1; rw [scopedRest1_eq]; simp only [scM1, owns_whole]
  iintro ⟨HS, ⟨HA, HB, HC, HD, HE, HF, HG⟩, Hg⟩
  isplitl [HS HA HB HC HD HE HF HG]
  · isplitl [HA]; · iexact HA
    isplitl [HB]; · iexact HB
    isplitl [HC]; · iexact HC
    isplitl [HD]; · iexact HD
    isplitl [HE]; · iexact HE
    isplitl [HF]; · iexact HF
    isplitl [HG]; · iexact HG
    iexact HS
  iexact Hg

/-- The region invariant before position `n`: before the first point the scoped rest and the generator register; afterwards
    the accumulator at what the point before left, the other scoped buffers at anything, the generator register at some state. -/
def PhiS1 (c : Dev nD) : (n : ℕ) → n ≤ cfg1.N → sProp 𝕄
  | 0, _ => Pipeline.ΦA spec1 c
  | n + 1, hn => iprop(owns (c : Thread nD τ) scM1 fullShare (acc1 V c n hn) ∗ rest1 (F := F) c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1 fullShare (acc1 V c n hn) ∗ rest1 (F := F) c ∗ (∃ r, prngReg c r)) := rfl

theorem PhiS1_pos (c : Dev nD) (n : ℕ) (h : n ≤ cfg1.N) (hz : n ≠ 0) :
    PhiS1 V c n h = iprop(owns (c : Thread nD τ) scM1 fullShare (acc1 V c (n - 1) (by omega)) ∗ rest1 (F := F) c ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (acc1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (acc1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

end Region1

end Cert.KernelIdeal.Hand
end
-- ==== Proof.KI.Fold.lean ====
import proofs.«146436_j3985729651483_1_alg».proof.Proof.Gen.KernelIdeal.Launch
import proofs.«146436_j3985729651483_1_alg».proof.Proof.Gen.KernelIdeal.Skeleton
import proofs.«146436_j3985729651483_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«146436_j3985729651483_1_alg».proof.Proof.KI.Dat0
import proofs.«146436_j3985729651483_1_alg».proof.Proof.KI.Dat1
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The buffer contents of a core at every boundary between the pieces of the program: the host operations folded over
    the launch memory, and across each pallas_call its arrays at what the write-backs leave, every other buffer as entered. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
abbrev W1 : Dev nD → Valuation τ sig (Elt F) := fun c => StableHlo.after main_part0_ops0 (W0 m ρ c)
abbrev W2 : Dev nD → Valuation τ sig (Elt F) := fun c => StableHlo.after main_part0_ops1 (W1 m ρ c)
abbrev W3 : Dev nD → Valuation τ sig (Elt F) := fun c => StableHlo.after main_part0_ops2 (W2 m ρ c)
/-- The first pallas_call's entry. -/
abbrev W4 : Dev nD → Valuation τ sig (Elt F) := fun c => StableHlo.after main_part1_ops0 (W3 m ρ c)
abbrev V4 : (c : Dev nD) → (b : Ref sig .tc) → Buf (Elt F) ((c : Thread nD τ).loc b) := fun c b => W4 m ρ c b
/-- The first pallas_call's exit, the second's entry. -/
def W5 (c : Dev nD) : Valuation τ sig (Elt F) :=
  Pipeline.withArrays spec0 c (W4 m ρ c) fun w => (dat0 (V4 m ρ) c).arrAt w cfg0.N
theorem W5_arr (c : Dev nD) (w : Fin cfg0.W) :
    W5 m ρ c (Proc.devRef .tc (Pipeline.arrRef spec0 w)) = (dat0 (V4 m ρ) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m ρ c (Proc.devRef .tc b) = W4 m ρ c (Proc.devRef .tc b) := by
  unfold W5; exact Pipeline.withArrays_of_ne spec0 c _ _ b hb
abbrev V5 : (c : Dev nD) → (b : Ref sig .tc) → Buf (Elt F) ((c : Thread nD τ).loc b) := fun c b => W5 m ρ c b
theorem hF0 (c : Dev nD) (w : Fin cfg0.W) : (dat0 (V4 m ρ) c).arrAt w cfg0.N = V5 m ρ c (Pipeline.arrRef spec0 w) :=
  (W5_arr m ρ c w).symm
theorem hrest0 (c : Dev nD) : ∀ b, b ∉ Finset.univ.image (Pipeline.arrRef spec0) → V5 m ρ c b = V4 m ρ c b :=
  fun b hb => W5_of_ne m ρ c b fun w e => hb (Finset.mem_image.mpr ⟨w, Finset.mem_univ _, e⟩)
/-- The second pallas_call's exit. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- The return. -/
abbrev W7 : Dev nD → Valuation τ sig (Elt F) := fun c => StableHlo.after main_part1_ops1 (W6 m ρ c)

end Cert.KernelIdeal.Hand
end
-- ==== Proof.KI.Oblig0.lean ====
import proofs.«146436_j3985729651483_1_alg».proof.Proof.Gen.KernelIdeal.Launch
import proofs.«146436_j3985729651483_1_alg».proof.Proof.Gen.KernelIdeal.Skeleton
import proofs.«146436_j3985729651483_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«146436_j3985729651483_1_alg».proof.Proof.KI.Dat0
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body obligation of pallas_call 0: at every grid point the body, handed the invariant and the windows' staging
    buffers, returns the invariant at the next point and the buffers at what the proof data state. -/

section Region0
variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [show cfg0.idle 0 (cfg0.grid.coords t) = false from rfl], after0_0]
  rw [show (dat0 V c).leavesExact 1 t = owns (c : Thread nD τ) (st0_1 t) fullShare ((dat0 V c).after 1 t) from by
    unfold Dat.leavesExact; rw [show cfg0.idle 1 (cfg0.grid.coords t) = false from rfl], after0_1]
  have hN : t.val < 16 := lt_of_lt_of_eq t.isLt N_0
  by_cases h0 : t.val % 4 = 0
  · have h3 : ¬ t.val % 4 = 3 := by omega
    rw [Dat.leavesExact_idle (dat0 V c) 2 t (idle0_2 t h3) (Bool.eq_false_iff.mpr fun hf => h3 ((flush0_2 t).mp hf))]
    rw [acc0_first V c t h0]
    by_cases hz : t.val = 0
    · rw [PhiS0_castSucc V c t, PhiS0_zero V c _ _ hz]
      iintro ⟨HΦ, Ho, ⟨%d0, H0⟩, ⟨%d1, H1⟩, ⟨%d2, H2⟩⟩
      ihave HΦ' := (PhiA0_elim (F := F) c) $$ HΦ
      icases HΦ' with ⟨HS, HR, Hg⟩
      iapply (sound_kernel0_A c Set.univ (grid0.coords t) ((hcond0_1 t).mpr h0) (fun h => h3 ((hcond0_2 t).mp h)) _ _ _ _ _ _ _ _ (iblk0 V c 0 t) (iblk0 V c 1 t) ((dat0 V c).before 2 t d2) (iblk0 V c 0 t) _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
    · rw [PhiS0_castSucc V c t, PhiS0_pos V c _ _ hz]
      iintro ⟨⟨HS, HR, Hg⟩, Ho, ⟨%d0, H0⟩, ⟨%d1, H1⟩, ⟨%d2, H2⟩⟩
      iapply (sound_kernel0_A c Set.univ (grid0.coords t) ((hcond0_1 t).mpr h0) (fun h => h3 ((hcond0_2 t).mp h)) _ _ _ _ _ _ _ _ (iblk0 V c 0 t) (iblk0 V c 1 t) ((dat0 V c).before 2 t d2) (iblk0 V c 0 t) _)
      isplitl [H0]; · iexact H0
      isplitl [H1]; · iexact H1
      isplitl [H2]; · iexact H2
      isplitl [HS]; · iexists _; iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
  · have hz : t.val ≠ 0 := fun e => h0 (by rw [e])
    rw [acc0_later V c t h0]
    rw [PhiS0_castSucc V c t, PhiS0_pos V c _ _ hz]
    by_cases h3 : t.val % 4 = 3
    · rw [show (dat0 V c).leavesExact 2 t = owns (c : Thread nD τ) (st0_2 t) fullShare ((dat0 V c).after 2 t) from by
        unfold Dat.leavesExact; rw [live0_2 t h3], after0_2]
      rw [acc0_later V c t h0]
      iintro ⟨⟨HS, HR, Hg⟩, Ho, ⟨%d0, H0⟩, ⟨%d1, H1⟩, ⟨%d2, H2⟩⟩
      iapply (sound_kernel0_C c Set.univ (grid0.coords t) (fun h => h0 ((hcond0_1 t).mp h)) ((hcond0_2 t).mpr h3) _ _ _ _ _ _ _ _ (iblk0 V c 0 t) (iblk0 V c 1 t) ((dat0 V c).before 2 t d2) _ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · rw [Dat.leavesExact_idle (dat0 V c) 2 t (idle0_2 t h3) (Bool.eq_false_iff.mpr fun hf => h3 ((flush0_2 t).mp hf))]
      iintro ⟨⟨HS, HR, Hg⟩, Ho, ⟨%d0, H0⟩, ⟨%d1, H1⟩, ⟨%d2, H2⟩⟩
      iapply (sound_kernel0_B c Set.univ (grid0.coords t) (fun h => h0 ((hcond0_1 t).mp h)) (fun h => h3 ((hcond0_2 t).mp h)) _ _ _ _ _ _ _ _ (iblk0 V c 0 t) (iblk0 V c 1 t) ((dat0 V c).before 2 t d2) _ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the scoped rest back: the accumulator's named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 16 := N_0; omega)]
  refine .trans ?_ (PhiA0_intro (F := F) c)
  iintro ⟨HS, HR, Hg⟩
  isplitl [HS]; · iexists _; iexact HS
  isplitl [HR]; · iexact HR
  iexact Hg

end Region0

end Cert.KernelIdeal.Hand
end
-- ==== Proof.KI.Oblig1.lean ====
import proofs.«146436_j3985729651483_1_alg».proof.Proof.Gen.KernelIdeal.Launch
import proofs.«146436_j3985729651483_1_alg».proof.Proof.Gen.KernelIdeal.Skeleton
import proofs.«146436_j3985729651483_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«146436_j3985729651483_1_alg».proof.Proof.KI.Dat1
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body obligation of pallas_call 1: at every grid point the body, handed the invariant and the windows' staging
    buffers, returns the invariant at the next point and the buffers at what the proof data state. -/

section Region1
variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [show cfg1.idle 0 (cfg1.grid.coords t) = false from rfl], after1_0]
  rw [show (dat1 V c).leavesExact 1 t = owns (c : Thread nD τ) (st1_1 t) fullShare ((dat1 V c).after 1 t) from by
    unfold Dat.leavesExact; rw [show cfg1.idle 1 (cfg1.grid.coords t) = false from rfl], after1_1]
  have hN : t.val < 16 := lt_of_lt_of_eq t.isLt N_1
  by_cases h0 : t.val % 4 = 0
  · have h3 : ¬ t.val % 4 = 3 := by omega
    rw [Dat.leavesExact_idle (dat1 V c) 2 t (idle1_2 t h3) (Bool.eq_false_iff.mpr fun hf => h3 ((flush1_2 t).mp hf))]
    rw [acc1_first V c t h0]
    by_cases hz : t.val = 0
    · rw [PhiS1_castSucc V c t, PhiS1_zero V c _ _ hz]
      iintro ⟨HΦ, Ho, ⟨%d0, H0⟩, ⟨%d1, H1⟩, ⟨%d2, H2⟩⟩
      ihave HΦ' := (PhiA1_elim (F := F) c) $$ HΦ
      icases HΦ' with ⟨HS, HR, Hg⟩
      iapply (sound_kernel1_A c Set.univ (grid1.coords t) ((hcond1_1 t).mpr h0) (fun h => h3 ((hcond1_2 t).mp h)) _ _ _ _ _ _ _ _ (iblk1 V c 0 t) (iblk1 V c 1 t) ((dat1 V c).before 2 t d2) (iblk1 V c 0 t) _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
    · rw [PhiS1_castSucc V c t, PhiS1_pos V c _ _ hz]
      iintro ⟨⟨HS, HR, Hg⟩, Ho, ⟨%d0, H0⟩, ⟨%d1, H1⟩, ⟨%d2, H2⟩⟩
      iapply (sound_kernel1_A c Set.univ (grid1.coords t) ((hcond1_1 t).mpr h0) (fun h => h3 ((hcond1_2 t).mp h)) _ _ _ _ _ _ _ _ (iblk1 V c 0 t) (iblk1 V c 1 t) ((dat1 V c).before 2 t d2) (iblk1 V c 0 t) _)
      isplitl [H0]; · iexact H0
      isplitl [H1]; · iexact H1
      isplitl [H2]; · iexact H2
      isplitl [HS]; · iexists _; iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
  · have hz : t.val ≠ 0 := fun e => h0 (by rw [e])
    rw [acc1_later V c t h0]
    rw [PhiS1_castSucc V c t, PhiS1_pos V c _ _ hz]
    by_cases h3 : t.val % 4 = 3
    · rw [show (dat1 V c).leavesExact 2 t = owns (c : Thread nD τ) (st1_2 t) fullShare ((dat1 V c).after 2 t) from by
        unfold Dat.leavesExact; rw [live1_2 t h3], after1_2]
      rw [acc1_later V c t h0]
      iintro ⟨⟨HS, HR, Hg⟩, Ho, ⟨%d0, H0⟩, ⟨%d1, H1⟩, ⟨%d2, H2⟩⟩
      iapply (sound_kernel1_C c Set.univ (grid1.coords t) (fun h => h0 ((hcond1_1 t).mp h)) ((hcond1_2 t).mpr h3) _ _ _ _ _ _ _ _ (iblk1 V c 0 t) (iblk1 V c 1 t) ((dat1 V c).before 2 t d2) _ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · rw [Dat.leavesExact_idle (dat1 V c) 2 t (idle1_2 t h3) (Bool.eq_false_iff.mpr fun hf => h3 ((flush1_2 t).mp hf))]
      iintro ⟨⟨HS, HR, Hg⟩, Ho, ⟨%d0, H0⟩, ⟨%d1, H1⟩, ⟨%d2, H2⟩⟩
      iapply (sound_kernel1_B c Set.univ (grid1.coords t) (fun h => h0 ((hcond1_1 t).mp h)) (fun h => h3 ((hcond1_2 t).mp h)) _ _ _ _ _ _ _ _ (iblk1 V c 0 t) (iblk1 V c 1 t) ((dat1 V c).before 2 t d2) _ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the scoped rest back: the accumulator's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 16 := N_1; omega)]
  refine .trans ?_ (PhiA1_intro (F := F) c)
  iintro ⟨HS, HR, Hg⟩
  isplitl [HS]; · iexists _; iexact HS
  isplitl [HR]; · iexact HR
  iexact Hg

end Region1

end Cert.KernelIdeal.Hand
end
-- ==== Proof.KI.Run.lean ====
import proofs.«146436_j3985729651483_1_alg».proof.Proof.Gen.KernelIdeal.Launch
import proofs.«146436_j3985729651483_1_alg».proof.Proof.Gen.KernelIdeal.Skeleton
import proofs.«146436_j3985729651483_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«146436_j3985729651483_1_alg».proof.Proof.KI.Fold
import proofs.«146436_j3985729651483_1_alg».proof.Proof.KI.Oblig0
import proofs.«146436_j3985729651483_1_alg».proof.Proof.KI.Oblig1
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The run of the whole program: its stretches of host operations and its two pallas_calls as segments over the thread
    state "every unscoped buffer at the boundary's contents, the generator register at some state, nothing owed", and
    the launch: every weakly fair execution terminates with every unscoped buffer at the last boundary's contents. -/

variable (m : (ℓ : Loc nD τ sig) → Buf (Elt F) ℓ) (ρ : Dev nD → PrngReg)

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V4 m ρ) c
  | ⟨1, _⟩ => fun c => dat1 (V5 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem main_part0_ops0_fresh : (main_part0_ops0 : List (HloOp τ sig (Elt F))).Forall fun op => op.fresh = ∅ := by
  simp only [List.Forall]; repeat' constructor
theorem main_part0_ops1_fresh : (main_part0_ops1 : List (HloOp τ sig (Elt F))).Forall fun op => op.fresh = ∅ := by
  simp only [List.Forall]; repeat' constructor
theorem main_part0_ops2_fresh : (main_part0_ops2 : List (HloOp τ sig (Elt F))).Forall fun op => op.fresh = ∅ := by
  simp only [List.Forall]; repeat' constructor
theorem main_part1_ops0_fresh : (main_part1_ops0 : List (HloOp τ sig (Elt F))).Forall fun op => op.fresh = ∅ := by
  simp only [List.Forall]; repeat' constructor
theorem main_part1_ops1_fresh : (main_part1_ops1 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

set_option backward.isDefEq.respectTransparency.types false in
/-- Pallas_call 0 over the thread state: entered from every unscoped buffer at the entry contents, left with its arrays
    at what the write-backs leave and every other buffer as entered; the generator register and the scoped buffers go
    into the invariant and come back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V4 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec0 c (V4 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V4 m ρ) c)
    unfold Pipeline.ΦA
    iintro ⟨Hp, -, Hr⟩
    isplitl [Hr]; · iexact Hr
    iexact Hp
  hout c := by
    rw [Pipeline.ownSems0_none]
    refine (hout0 (V4 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V4 m ρ c) (V5 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 1 over the thread state: entered from every unscoped buffer at the entry contents, left with its arrays
    at what the write-backs leave and every other buffer as entered; the generator register and the scoped buffers go
    into the invariant and come back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V5 m ρ) c)
    unfold Pipeline.ΦA
    iintro ⟨Hp, -, Hr⟩
    isplitl [Hr]; · iexact Hr
    iexact Hp
  hout c := by
    rw [Pipeline.ownSems0_none]
    refine (hout1 (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg main_part0_ops0 main_part0_ops0_sub main_part0_ops0_fresh (W0 m ρ)),
    .host (hseg main_part0_ops1 main_part0_ops1_sub main_part0_ops1_fresh (W1 m ρ)),
    .host (hseg main_part0_ops2 main_part0_ops2_sub main_part0_ops2_fresh (W2 m ρ)),
    .host (hseg main_part1_ops0 main_part1_ops0_sub main_part1_ops0_fresh (W3 m ρ)),
    .region (reg0 m ρ),
    .region (reg1 m ρ),
    .host (hseg main_part1_ops1 main_part1_ops1_sub main_part1_ops1_fresh (W6 m ρ)) ]

theorem main_run (c : Dev nD) : main (F := F) c = Pipeline.Seg.run (segs m ρ) := (main_chain_windows c).trans (by chain_rfl)

set_option backward.isDefEq.respectTransparency.types false in
/-- From any memory with zero counters every weakly fair execution of the program on the TensorCores terminates, nothing
    faulting, and in every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.KernelIdeal.Hand
end
-- ==== Proof.KI.Keep_main_part0_ops0.lean ====
import proofs.«146436_j3985729651483_1_alg».proof.Proof.Gen.KernelIdeal.Launch
import proofs.«146436_j3985729651483_1_alg».proof.Proof.Gen.KernelIdeal.Skeleton
import proofs.«146436_j3985729651483_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! No operation of this stretch of host operations writes an argument array. -/
theorem keep_main_part0_ops0_main_arg0 (W : Valuation τ sig (Elt F)) :
    StableHlo.after main_part0_ops0 W (Proc.devRef .tc main_arg0) = W (Proc.devRef .tc main_arg0) :=
  StableHlo.after_of_forall_not_mem (b := Proc.devRef .tc main_arg0) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops0_main_arg1 (W : Valuation τ sig (Elt F)) :
    StableHlo.after main_part0_ops0 W (Proc.devRef .tc main_arg1) = W (Proc.devRef .tc main_arg1) :=
  StableHlo.after_of_forall_not_mem (b := Proc.devRef .tc main_arg1) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops0_main_arg2 (W : Valuation τ sig (Elt F)) :
    StableHlo.after main_part0_ops0 W (Proc.devRef .tc main_arg2) = W (Proc.devRef .tc main_arg2) :=
  StableHlo.after_of_forall_not_mem (b := Proc.devRef .tc main_arg2) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops0_main_arg3 (W : Valuation τ sig (Elt F)) :
    StableHlo.after main_part0_ops0 W (Proc.devRef .tc main_arg3) = W (Proc.devRef .tc main_arg3) :=
  StableHlo.after_of_forall_not_mem (b := Proc.devRef .tc main_arg3) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops0_main_arg4 (W : Valuation τ sig (Elt F)) :
    StableHlo.after main_part0_ops0 W (Proc.devRef .tc main_arg4) = W (Proc.devRef .tc main_arg4) :=
  StableHlo.after_of_forall_not_mem (b := Proc.devRef .tc main_arg4) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops0_main_arg5 (W : Valuation τ sig (Elt F)) :
    StableHlo.after main_part0_ops0 W (Proc.devRef .tc main_arg5) = W (Proc.devRef .tc main_arg5) :=
  StableHlo.after_of_forall_not_mem (b := Proc.devRef .tc main_arg5) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops0_main_arg6 (W : Valuation τ sig (Elt F)) :
    StableHlo.after main_part0_ops0 W (Proc.devRef .tc main_arg6) = W (Proc.devRef .tc main_arg6) :=
  StableHlo.after_of_forall_not_mem (b := Proc.devRef .tc main_arg6) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops0_main_arg7 (W : Valuation τ sig (Elt F)) :
    StableHlo.after main_part0_ops0 W (Proc.devRef .tc main_arg7) = W (Proc.devRef .tc main_arg7) :=
  StableHlo.after_of_forall_not_mem (b := Proc.devRef .tc main_arg7) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops0_main_arg8 (W : Valuation τ sig (Elt F)) :
    StableHlo.after main_part0_ops0 W (Proc.devRef .tc main_arg8) = W (Proc.devRef .tc main_arg8) :=
  StableHlo.after_of_forall_not_mem (b := Proc.devRef .tc main_arg8) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops0_main_arg9 (W : Valuation τ sig (Elt F)) :
    StableHlo.after main_part0_ops0 W (Proc.devRef .tc main_arg9) = W (Proc.devRef .tc main_arg9) :=
  StableHlo.after_of_forall_not_mem (b := Proc.devRef .tc main_arg9) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops0_main_arg10 (W : Valuation τ sig (Elt F)) :
    StableHlo.after main_part0_ops0 W (Proc.devRef .tc main_arg10) = W (Proc.devRef .tc main_arg10) :=
  StableHlo.after_of_forall_not_mem (b := Proc.devRef .tc main_arg10) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops0_main_arg11 (W : Valuation τ sig (Elt F)) :
    StableHlo.after main_part0_ops0 W (Proc.devRef .tc main_arg11) = W (Proc.devRef .tc main_arg11) :=
  StableHlo.after_of_forall_not_mem (b := Proc.devRef .tc main_arg11) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops0_main_arg12 (W : Valuation τ sig (Elt F)) :
    StableHlo.after main_part0_ops0 W (Proc.devRef .tc main_arg12) = W (Proc.devRef .tc main_arg12) :=
  StableHlo.after_of_forall_not_mem (b := Proc.devRef .tc main_arg12) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops0_main_arg13 (W : Valuation τ sig (Elt F)) :
    StableHlo.after main_part0_ops0 W (Proc.devRef .tc main_arg13) = W (Proc.devRef .tc main_arg13) :=
  StableHlo.after_of_forall_not_mem (b := Proc.devRef .tc main_arg13) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops0_main_arg14 (W : Valuation τ sig (Elt F)) :
    StableHlo.after main_part0_ops0 W (Proc.devRef .tc main_arg14) = W (Proc.devRef .tc main_arg14) :=
  StableHlo.after_of_forall_not_mem (b := Proc.devRef .tc main_arg14) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops0_main_arg15 (W : Valuation τ sig (Elt F)) :
    StableHlo.after main_part0_ops0 W (Proc.devRef .tc main_arg15) = W (Proc.devRef .tc main_arg15) :=
  StableHlo.after_of_forall_not_mem (b := Proc.devRef .tc main_arg15) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops0_main_arg16 (W : Valuation τ sig (Elt F)) :
    StableHlo.after main_part0_ops0 W (Proc.devRef .tc main_arg16) = W (Proc.devRef .tc main_arg16) :=
  StableHlo.after_of_forall_not_mem (b := Proc.devRef .tc main_arg16) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops0_main_arg17 (W : Valuation τ sig (Elt F)) :
    StableHlo.after main_part0_ops0 W (Proc.devRef .tc main_arg17) = W (Proc.devRef .tc main_arg17) :=
  StableHlo.after_of_forall_not_mem (b := Proc.devRef .tc main_arg17) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops0_main_arg18 (W : Valuation τ sig (Elt F)) :
    StableHlo.after main_part0_ops0 W (Proc.devRef .tc main_arg18) = W (Proc.devRef .tc main_arg18) :=
  StableHlo.after_of_forall_not_mem (b := Proc.devRef .tc main_arg18) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops0_main_arg19 (W : Valuation τ sig (Elt F)) :
    StableHlo.after main_part0_ops0 W (Proc.devRef .tc main_arg19) = W (Proc.devRef .tc main_arg19) :=
  StableHlo.after_of_forall_not_mem (b := Proc.devRef .tc main_arg19) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

end Cert.KernelIdeal.Hand
end
-- ==== Proof.KI.Keep_main_part0_ops1.lean ====
import proofs.«146436_j3985729651483_1_alg».proof.Proof.Gen.KernelIdeal.Launch
import proofs.«146436_j3985729651483_1_alg».proof.Proof.Gen.KernelIdeal.Skeleton
import proofs.«146436_j3985729651483_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! No operation of this stretch of host operations writes an argument array. -/
theorem keep_main_part0_ops1_main_arg0 (W : Valuation τ sig (Elt F)) :
    StableHlo.after main_part0_ops1 W (Proc.devRef .tc main_arg0) = W (Proc.devRef .tc main_arg0) :=
  StableHlo.after_of_forall_not_mem (b := Proc.devRef .tc main_arg0) _ _ (List.forall_iff_forall_mem.mp (by
    simp only [main_part0_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops1_main_arg1 (W : Valuation τ sig (Elt F)) :
    StableHlo.after main_part0_ops1 W (Proc.devRef .tc main_arg1) = W (Proc.devRef .tc main_arg1) :=
  StableHlo.after_of_forall_not_mem (b := Proc.devRef .tc main_arg1) _ _ (List.forall_iff_forall_mem.mp (by
    simp only [main_part0_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops1_main_arg2 (W : Valuation τ sig (Elt F)) :
    StableHlo.after main_part0_ops1 W (Proc.devRef .tc main_arg2) = W (Proc.devRef .tc main_arg2) :=
  StableHlo.after_of_forall_not_mem (b := Proc.devRef .tc main_arg2) _ _ (List.forall_iff_forall_mem.mp (by
    simp only [main_part0_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops1_main_arg3 (W : Valuation τ sig (Elt F)) :
    StableHlo.after main_part0_ops1 W (Proc.devRef .tc main_arg3) = W (Proc.devRef .tc main_arg3) :=
  StableHlo.after_of_forall_not_mem (b := Proc.devRef .tc main_arg3) _ _ (List.forall_iff_forall_mem.mp (by
    simp only [main_part0_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops1_main_arg4 (W : Valuation τ sig (Elt F)) :
    StableHlo.after main_part0_ops1 W (Proc.devRef .tc main_arg4) = W (Proc.devRef .tc main_arg4) :=
  StableHlo.after_of_forall_not_mem (b := Proc.devRef .tc main_arg4) _ _ (List.forall_iff_forall_mem.mp (by
    simp only [main_part0_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops1_main_arg5 (W : Valuation τ sig (Elt F)) :
    StableHlo.after main_part0_ops1 W (Proc.devRef .tc main_arg5) = W (Proc.devRef .tc main_arg5) :=
  StableHlo.after_of_forall_not_mem (b := Proc.devRef .tc main_arg5) _ _ (List.forall_iff_forall_mem.mp (by
    simp only [main_part0_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops1_main_arg6 (W : Valuation τ sig (Elt F)) :
    StableHlo.after main_part0_ops1 W (Proc.devRef .tc main_arg6) = W (Proc.devRef .tc main_arg6) :=
  StableHlo.after_of_forall_not_mem (b := Proc.devRef .tc main_arg6) _ _ (List.forall_iff_forall_mem.mp (by
    simp only [main_part0_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops1_main_arg7 (W : Valuation τ sig (Elt F)) :
    StableHlo.after main_part0_ops1 W (Proc.devRef .tc main_arg7) = W (Proc.devRef .tc main_arg7) :=
  StableHlo.after_of_forall_not_mem (b := Proc.devRef .tc main_arg7) _ _ (List.forall_iff_forall_mem.mp (by
    simp only [main_part0_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops1_main_arg8 (W : Valuation τ sig (Elt F)) :
    StableHlo.after main_part0_ops1 W (Proc.devRef .tc main_arg8) = W (Proc.devRef .tc main_arg8) :=
  StableHlo.after_of_forall_not_mem (b := Proc.devRef .tc main_arg8) _ _ (List.forall_iff_forall_mem.mp (by
    simp only [main_part0_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops1_main_arg9 (W : Valuation τ sig (Elt F)) :
    StableHlo.after main_part0_ops1 W (Proc.devRef .tc main_arg9) = W (Proc.devRef .tc main_arg9) :=
  StableHlo.after_of_forall_not_mem (b := Proc.devRef .tc main_arg9) _ _ (List.forall_iff_forall_mem.mp (by
    simp only [main_part0_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops1_main_arg10 (W : Valuation τ sig (Elt F)) :
    StableHlo.after main_part0_ops1 W (Proc.devRef .tc main_arg10) = W (Proc.devRef .tc main_arg10) :=
  StableHlo.after_of_forall_not_mem (b := Proc.devRef .tc main_arg10) _ _ (List.forall_iff_forall_mem.mp (by
    simp only [main_part0_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops1_main_arg11 (W : Valuation τ sig (Elt F)) :
    StableHlo.after main_part0_ops1 W (Proc.devRef .tc main_arg11) = W (Proc.devRef .tc main_arg11) :=
  StableHlo.after_of_forall_not_mem (b := Proc.devRef .tc main_arg11) _ _ (List.forall_iff_forall_mem.mp (by
    simp only [main_part0_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops1_main_arg12 (W : Valuation τ sig (Elt F)) :
    StableHlo.after main_part0_ops1 W (Proc.devRef .tc main_arg12) = W (Proc.devRef .tc main_arg12) :=
  StableHlo.after_of_forall_not_mem (b := Proc.devRef .tc main_arg12) _ _ (List.forall_iff_forall_mem.mp (by
    simp only [main_part0_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops1_main_arg13 (W : Valuation τ sig (Elt F)) :
    StableHlo.after main_part0_ops1 W (Proc.devRef .tc main_arg13) = W (Proc.devRef .tc main_arg13) :=
  StableHlo.after_of_forall_not_mem (b := Proc.devRef .tc main_arg13) _ _ (List.forall_iff_forall_mem.mp (by
    simp only [main_part0_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops1_main_arg14 (W : Valuation τ sig (Elt F)) :
    StableHlo.after main_part0_ops1 W (Proc.devRef .tc main_arg14) = W (Proc.devRef .tc main_arg14) :=
  StableHlo.after_of_forall_not_mem (b := Proc.devRef .tc main_arg14) _ _ (List.forall_iff_forall_mem.mp (by
    simp only [main_part0_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops1_main_arg15 (W : Valuation τ sig (Elt F)) :
    StableHlo.after main_part0_ops1 W (Proc.devRef .tc main_arg15) = W (Proc.devRef .tc main_arg15) :=
  StableHlo.after_of_forall_not_mem (b := Proc.devRef .tc main_arg15) _ _ (List.forall_iff_forall_mem.mp (by
    simp only [main_part0_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops1_main_arg16 (W : Valuation τ sig (Elt F)) :
    StableHlo.after main_part0_ops1 W (Proc.devRef .tc main_arg16) = W (Proc.devRef .tc main_arg16) :=
  StableHlo.after_of_forall_not_mem (b := Proc.devRef .tc main_arg16) _ _ (List.forall_iff_forall_mem.mp (by
    simp only [main_part0_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops1_main_arg17 (W : Valuation τ sig (Elt F)) :
    StableHlo.after main_part0_ops1 W (Proc.devRef .tc main_arg17) = W (Proc.devRef .tc main_arg17) :=
  StableHlo.after_of_forall_not_mem (b := Proc.devRef .tc main_arg17) _ _ (List.forall_iff_forall_mem.mp (by
    simp only [main_part0_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops1_main_arg18 (W : Valuation τ sig (Elt F)) :
    StableHlo.after main_part0_ops1 W (Proc.devRef .tc main_arg18) = W (Proc.devRef .tc main_arg18) :=
  StableHlo.after_of_forall_not_mem (b := Proc.devRef .tc main_arg18) _ _ (List.forall_iff_forall_mem.mp (by
    simp only [main_part0_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops1_main_arg19 (W : Valuation τ sig (Elt F)) :
    StableHlo.after main_part0_ops1 W (Proc.devRef .tc main_arg19) = W (Proc.devRef .tc main_arg19) :=
  StableHlo.after_of_forall_not_mem (b := Proc.devRef .tc main_arg19) _ _ (List.forall_iff_forall_mem.mp (by
    simp only [main_part0_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

end Cert.KernelIdeal.Hand
end
-- ==== Proof.KI.Keep_main_part0_ops2.lean ====
import proofs.«146436_j3985729651483_1_alg».proof.Proof.Gen.KernelIdeal.Launch
import proofs.«146436_j3985729651483_1_alg».proof.Proof.Gen.KernelIdeal.Skeleton
import proofs.«146436_j3985729651483_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! No operation of this stretch of host operations writes an argument array. -/
theorem keep_main_part0_ops2_main_arg0 (W : Valuation τ sig (Elt F)) :
    StableHlo.after main_part0_ops2 W (Proc.devRef .tc main_arg0) = W (Proc.devRef .tc main_arg0) :=
  StableHlo.after_of_forall_not_mem (b := Proc.devRef .tc main_arg0) _ _ (List.forall_iff_forall_mem.mp (by
    simp only [main_part0_ops2, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops2_main_arg1 (W : Valuation τ sig (Elt F)) :
    StableHlo.after main_part0_ops2 W (Proc.devRef .tc main_arg1) = W (Proc.devRef .tc main_arg1) :=
  StableHlo.after_of_forall_not_mem (b := Proc.devRef .tc main_arg1) _ _ (List.forall_iff_forall_mem.mp (by
    simp only [main_part0_ops2, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops2_main_arg2 (W : Valuation τ sig (Elt F)) :
    StableHlo.after main_part0_ops2 W (Proc.devRef .tc main_arg2) = W (Proc.devRef .tc main_arg2) :=
  StableHlo.after_of_forall_not_mem (b := Proc.devRef .tc main_arg2) _ _ (List.forall_iff_forall_mem.mp (by
    simp only [main_part0_ops2, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops2_main_arg3 (W : Valuation τ sig (Elt F)) :
    StableHlo.after main_part0_ops2 W (Proc.devRef .tc main_arg3) = W (Proc.devRef .tc main_arg3) :=
  StableHlo.after_of_forall_not_mem (b := Proc.devRef .tc main_arg3) _ _ (List.forall_iff_forall_mem.mp (by
    simp only [main_part0_ops2, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops2_main_arg4 (W : Valuation τ sig (Elt F)) :
    StableHlo.after main_part0_ops2 W (Proc.devRef .tc main_arg4) = W (Proc.devRef .tc main_arg4) :=
  StableHlo.after_of_forall_not_mem (b := Proc.devRef .tc main_arg4) _ _ (List.forall_iff_forall_mem.mp (by
    simp only [main_part0_ops2, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops2_main_arg5 (W : Valuation τ sig (Elt F)) :
    StableHlo.after main_part0_ops2 W (Proc.devRef .tc main_arg5) = W (Proc.devRef .tc main_arg5) :=
  StableHlo.after_of_forall_not_mem (b := Proc.devRef .tc main_arg5) _ _ (List.forall_iff_forall_mem.mp (by
    simp only [main_part0_ops2, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops2_main_arg6 (W : Valuation τ sig (Elt F)) :
    StableHlo.after main_part0_ops2 W (Proc.devRef .tc main_arg6) = W (Proc.devRef .tc main_arg6) :=
  StableHlo.after_of_forall_not_mem (b := Proc.devRef .tc main_arg6) _ _ (List.forall_iff_forall_mem.mp (by
    simp only [main_part0_ops2, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops2_main_arg7 (W : Valuation τ sig (Elt F)) :
    StableHlo.after main_part0_ops2 W (Proc.devRef .tc main_arg7) = W (Proc.devRef .tc main_arg7) :=
  StableHlo.after_of_forall_not_mem (b := Proc.devRef .tc main_arg7) _ _ (List.forall_iff_forall_mem.mp (by
    simp only [main_part0_ops2, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops2_main_arg8 (W : Valuation τ sig (Elt F)) :
    StableHlo.after main_part0_ops2 W (Proc.devRef .tc main_arg8) = W (Proc.devRef .tc main_arg8) :=
  StableHlo.after_of_forall_not_mem (b := Proc.devRef .tc main_arg8) _ _ (List.forall_iff_forall_mem.mp (by
    simp only [main_part0_ops2, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops2_main_arg9 (W : Valuation τ sig (Elt F)) :
    StableHlo.after main_part0_ops2 W (Proc.devRef .tc main_arg9) = W (Proc.devRef .tc main_arg9) :=
  StableHlo.after_of_forall_not_mem (b := Proc.devRef .tc main_arg9) _ _ (List.forall_iff_forall_mem.mp (by
    simp only [main_part0_ops2, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops2_main_arg10 (W : Valuation τ sig (Elt F)) :
    StableHlo.after main_part0_ops2 W (Proc.devRef .tc main_arg10) = W (Proc.devRef .tc main_arg10) :=
  StableHlo.after_of_forall_not_mem (b := Proc.devRef .tc main_arg10) _ _ (List.forall_iff_forall_mem.mp (by
    simp only [main_part0_ops2, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops2_main_arg11 (W : Valuation τ sig (Elt F)) :
    StableHlo.after main_part0_ops2 W (Proc.devRef .tc main_arg11) = W (Proc.devRef .tc main_arg11) :=
  StableHlo.after_of_forall_not_mem (b := Proc.devRef .tc main_arg11) _ _ (List.forall_iff_forall_mem.mp (by
    simp only [main_part0_ops2, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops2_main_arg12 (W : Valuation τ sig (Elt F)) :
    StableHlo.after main_part0_ops2 W (Proc.devRef .tc main_arg12) = W (Proc.devRef .tc main_arg12) :=
  StableHlo.after_of_forall_not_mem (b := Proc.devRef .tc main_arg12) _ _ (List.forall_iff_forall_mem.mp (by
    simp only [main_part0_ops2, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops2_main_arg13 (W : Valuation τ sig (Elt F)) :
    StableHlo.after main_part0_ops2 W (Proc.devRef .tc main_arg13) = W (Proc.devRef .tc main_arg13) :=
  StableHlo.after_of_forall_not_mem (b := Proc.devRef .tc main_arg13) _ _ (List.forall_iff_forall_mem.mp (by
    simp only [main_part0_ops2, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops2_main_arg14 (W : Valuation τ sig (Elt F)) :
    StableHlo.after main_part0_ops2 W (Proc.devRef .tc main_arg14) = W (Proc.devRef .tc main_arg14) :=
  StableHlo.after_of_forall_not_mem (b := Proc.devRef .tc main_arg14) _ _ (List.forall_iff_forall_mem.mp (by
    simp only [main_part0_ops2, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops2_main_arg15 (W : Valuation τ sig (Elt F)) :
    StableHlo.after main_part0_ops2 W (Proc.devRef .tc main_arg15) = W (Proc.devRef .tc main_arg15) :=
  StableHlo.after_of_forall_not_mem (b := Proc.devRef .tc main_arg15) _ _ (List.forall_iff_forall_mem.mp (by
    simp only [main_part0_ops2, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops2_main_arg16 (W : Valuation τ sig (Elt F)) :
    StableHlo.after main_part0_ops2 W (Proc.devRef .tc main_arg16) = W (Proc.devRef .tc main_arg16) :=
  StableHlo.after_of_forall_not_mem (b := Proc.devRef .tc main_arg16) _ _ (List.forall_iff_forall_mem.mp (by
    simp only [main_part0_ops2, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops2_main_arg17 (W : Valuation τ sig (Elt F)) :
    StableHlo.after main_part0_ops2 W (Proc.devRef .tc main_arg17) = W (Proc.devRef .tc main_arg17) :=
  StableHlo.after_of_forall_not_mem (b := Proc.devRef .tc main_arg17) _ _ (List.forall_iff_forall_mem.mp (by
    simp only [main_part0_ops2, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops2_main_arg18 (W : Valuation τ sig (Elt F)) :
    StableHlo.after main_part0_ops2 W (Proc.devRef .tc main_arg18) = W (Proc.devRef .tc main_arg18) :=
  StableHlo.after_of_forall_not_mem (b := Proc.devRef .tc main_arg18) _ _ (List.forall_iff_forall_mem.mp (by
    simp only [main_part0_ops2, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part0_ops2_main_arg19 (W : Valuation τ sig (Elt F)) :
    StableHlo.after main_part0_ops2 W (Proc.devRef .tc main_arg19) = W (Proc.devRef .tc main_arg19) :=
  StableHlo.after_of_forall_not_mem (b := Proc.devRef .tc main_arg19) _ _ (List.forall_iff_forall_mem.mp (by
    simp only [main_part0_ops2, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

end Cert.KernelIdeal.Hand
end
-- ==== Proof.KI.Keep_main_part1_ops0.lean ====
import proofs.«146436_j3985729651483_1_alg».proof.Proof.Gen.KernelIdeal.Launch
import proofs.«146436_j3985729651483_1_alg».proof.Proof.Gen.KernelIdeal.Skeleton
import proofs.«146436_j3985729651483_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! No operation of this stretch of host operations writes an argument array. -/
theorem keep_main_part1_ops0_main_arg0 (W : Valuation τ sig (Elt F)) :
    StableHlo.after main_part1_ops0 W (Proc.devRef .tc main_arg0) = W (Proc.devRef .tc main_arg0) :=
  StableHlo.after_of_forall_not_mem (b := Proc.devRef .tc main_arg0) _ _ (List.forall_iff_forall_mem.mp (by
    simp only [main_part1_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops0_main_arg1 (W : Valuation τ sig (Elt F)) :
    StableHlo.after main_part1_ops0 W (Proc.devRef .tc main_arg1) = W (Proc.devRef .tc main_arg1) :=
  StableHlo.after_of_forall_not_mem (b := Proc.devRef .tc main_arg1) _ _ (List.forall_iff_forall_mem.mp (by
    simp only [main_part1_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops0_main_arg2 (W : Valuation τ sig (Elt F)) :
    StableHlo.after main_part1_ops0 W (Proc.devRef .tc main_arg2) = W (Proc.devRef .tc main_arg2) :=
  StableHlo.after_of_forall_not_mem (b := Proc.devRef .tc main_arg2) _ _ (List.forall_iff_forall_mem.mp (by
    simp only [main_part1_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops0_main_arg3 (W : Valuation τ sig (Elt F)) :
    StableHlo.after main_part1_ops0 W (Proc.devRef .tc main_arg3) = W (Proc.devRef .tc main_arg3) :=
  StableHlo.after_of_forall_not_mem (b := Proc.devRef .tc main_arg3) _ _ (List.forall_iff_forall_mem.mp (by
    simp only [main_part1_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops0_main_arg4 (W : Valuation τ sig (Elt F)) :
    StableHlo.after main_part1_ops0 W (Proc.devRef .tc main_arg4) = W (Proc.devRef .tc main_arg4) :=
  StableHlo.after_of_forall_not_mem (b := Proc.devRef .tc main_arg4) _ _ (List.forall_iff_forall_mem.mp (by
    simp only [main_part1_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops0_main_arg5 (W : Valuation τ sig (Elt F)) :
    StableHlo.after main_part1_ops0 W (Proc.devRef .tc main_arg5) = W (Proc.devRef .tc main_arg5) :=
  StableHlo.after_of_forall_not_mem (b := Proc.devRef .tc main_arg5) _ _ (List.forall_iff_forall_mem.mp (by
    simp only [main_part1_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops0_main_arg6 (W : Valuation τ sig (Elt F)) :
    StableHlo.after main_part1_ops0 W (Proc.devRef .tc main_arg6) = W (Proc.devRef .tc main_arg6) :=
  StableHlo.after_of_forall_not_mem (b := Proc.devRef .tc main_arg6) _ _ (List.forall_iff_forall_mem.mp (by
    simp only [main_part1_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops0_main_arg7 (W : Valuation τ sig (Elt F)) :
    StableHlo.after main_part1_ops0 W (Proc.devRef .tc main_arg7) = W (Proc.devRef .tc main_arg7) :=
  StableHlo.after_of_forall_not_mem (b := Proc.devRef .tc main_arg7) _ _ (List.forall_iff_forall_mem.mp (by
    simp only [main_part1_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops0_main_arg8 (W : Valuation τ sig (Elt F)) :
    StableHlo.after main_part1_ops0 W (Proc.devRef .tc main_arg8) = W (Proc.devRef .tc main_arg8) :=
  StableHlo.after_of_forall_not_mem (b := Proc.devRef .tc main_arg8) _ _ (List.forall_iff_forall_mem.mp (by
    simp only [main_part1_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops0_main_arg9 (W : Valuation τ sig (Elt F)) :
    StableHlo.after main_part1_ops0 W (Proc.devRef .tc main_arg9) = W (Proc.devRef .tc main_arg9) :=
  StableHlo.after_of_forall_not_mem (b := Proc.devRef .tc main_arg9) _ _ (List.forall_iff_forall_mem.mp (by
    simp only [main_part1_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops0_main_arg10 (W : Valuation τ sig (Elt F)) :
    StableHlo.after main_part1_ops0 W (Proc.devRef .tc main_arg10) = W (Proc.devRef .tc main_arg10) :=
  StableHlo.after_of_forall_not_mem (b := Proc.devRef .tc main_arg10) _ _ (List.forall_iff_forall_mem.mp (by
    simp only [main_part1_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops0_main_arg11 (W : Valuation τ sig (Elt F)) :
    StableHlo.after main_part1_ops0 W (Proc.devRef .tc main_arg11) = W (Proc.devRef .tc main_arg11) :=
  StableHlo.after_of_forall_not_mem (b := Proc.devRef .tc main_arg11) _ _ (List.forall_iff_forall_mem.mp (by
    simp only [main_part1_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops0_main_arg12 (W : Valuation τ sig (Elt F)) :
    StableHlo.after main_part1_ops0 W (Proc.devRef .tc main_arg12) = W (Proc.devRef .tc main_arg12) :=
  StableHlo.after_of_forall_not_mem (b := Proc.devRef .tc main_arg12) _ _ (List.forall_iff_forall_mem.mp (by
    simp only [main_part1_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops0_main_arg13 (W : Valuation τ sig (Elt F)) :
    StableHlo.after main_part1_ops0 W (Proc.devRef .tc main_arg13) = W (Proc.devRef .tc main_arg13) :=
  StableHlo.after_of_forall_not_mem (b := Proc.devRef .tc main_arg13) _ _ (List.forall_iff_forall_mem.mp (by
    simp only [main_part1_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops0_main_arg14 (W : Valuation τ sig (Elt F)) :
    StableHlo.after main_part1_ops0 W (Proc.devRef .tc main_arg14) = W (Proc.devRef .tc main_arg14) :=
  StableHlo.after_of_forall_not_mem (b := Proc.devRef .tc main_arg14) _ _ (List.forall_iff_forall_mem.mp (by
    simp only [main_part1_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops0_main_arg15 (W : Valuation τ sig (Elt F)) :
    StableHlo.after main_part1_ops0 W (Proc.devRef .tc main_arg15) = W (Proc.devRef .tc main_arg15) :=
  StableHlo.after_of_forall_not_mem (b := Proc.devRef .tc main_arg15) _ _ (List.forall_iff_forall_mem.mp (by
    simp only [main_part1_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops0_main_arg16 (W : Valuation τ sig (Elt F)) :
    StableHlo.after main_part1_ops0 W (Proc.devRef .tc main_arg16) = W (Proc.devRef .tc main_arg16) :=
  StableHlo.after_of_forall_not_mem (b := Proc.devRef .tc main_arg16) _ _ (List.forall_iff_forall_mem.mp (by
    simp only [main_part1_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops0_main_arg17 (W : Valuation τ sig (Elt F)) :
    StableHlo.after main_part1_ops0 W (Proc.devRef .tc main_arg17) = W (Proc.devRef .tc main_arg17) :=
  StableHlo.after_of_forall_not_mem (b := Proc.devRef .tc main_arg17) _ _ (List.forall_iff_forall_mem.mp (by
    simp only [main_part1_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops0_main_arg18 (W : Valuation τ sig (Elt F)) :
    StableHlo.after main_part1_ops0 W (Proc.devRef .tc main_arg18) = W (Proc.devRef .tc main_arg18) :=
  StableHlo.after_of_forall_not_mem (b := Proc.devRef .tc main_arg18) _ _ (List.forall_iff_forall_mem.mp (by
    simp only [main_part1_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops0_main_arg19 (W : Valuation τ sig (Elt F)) :
    StableHlo.after main_part1_ops0 W (Proc.devRef .tc main_arg19) = W (Proc.devRef .tc main_arg19) :=
  StableHlo.after_of_forall_not_mem (b := Proc.devRef .tc main_arg19) _ _ (List.forall_iff_forall_mem.mp (by
    simp only [main_part1_ops0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

end Cert.KernelIdeal.Hand
end
-- ==== Proof.KI.Keep_main_part1_ops1.lean ====
import proofs.«146436_j3985729651483_1_alg».proof.Proof.Gen.KernelIdeal.Launch
import proofs.«146436_j3985729651483_1_alg».proof.Proof.Gen.KernelIdeal.Skeleton
import proofs.«146436_j3985729651483_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! No operation of this stretch of host operations writes an argument array. -/
theorem keep_main_part1_ops1_main_arg0 (W : Valuation τ sig (Elt F)) :
    StableHlo.after main_part1_ops1 W (Proc.devRef .tc main_arg0) = W (Proc.devRef .tc main_arg0) :=
  StableHlo.after_of_forall_not_mem (b := Proc.devRef .tc main_arg0) _ _ (List.forall_iff_forall_mem.mp (by
    simp only [main_part1_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops1_main_arg1 (W : Valuation τ sig (Elt F)) :
    StableHlo.after main_part1_ops1 W (Proc.devRef .tc main_arg1) = W (Proc.devRef .tc main_arg1) :=
  StableHlo.after_of_forall_not_mem (b := Proc.devRef .tc main_arg1) _ _ (List.forall_iff_forall_mem.mp (by
    simp only [main_part1_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops1_main_arg2 (W : Valuation τ sig (Elt F)) :
    StableHlo.after main_part1_ops1 W (Proc.devRef .tc main_arg2) = W (Proc.devRef .tc main_arg2) :=
  StableHlo.after_of_forall_not_mem (b := Proc.devRef .tc main_arg2) _ _ (List.forall_iff_forall_mem.mp (by
    simp only [main_part1_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops1_main_arg3 (W : Valuation τ sig (Elt F)) :
    StableHlo.after main_part1_ops1 W (Proc.devRef .tc main_arg3) = W (Proc.devRef .tc main_arg3) :=
  StableHlo.after_of_forall_not_mem (b := Proc.devRef .tc main_arg3) _ _ (List.forall_iff_forall_mem.mp (by
    simp only [main_part1_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops1_main_arg4 (W : Valuation τ sig (Elt F)) :
    StableHlo.after main_part1_ops1 W (Proc.devRef .tc main_arg4) = W (Proc.devRef .tc main_arg4) :=
  StableHlo.after_of_forall_not_mem (b := Proc.devRef .tc main_arg4) _ _ (List.forall_iff_forall_mem.mp (by
    simp only [main_part1_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops1_main_arg5 (W : Valuation τ sig (Elt F)) :
    StableHlo.after main_part1_ops1 W (Proc.devRef .tc main_arg5) = W (Proc.devRef .tc main_arg5) :=
  StableHlo.after_of_forall_not_mem (b := Proc.devRef .tc main_arg5) _ _ (List.forall_iff_forall_mem.mp (by
    simp only [main_part1_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops1_main_arg6 (W : Valuation τ sig (Elt F)) :
    StableHlo.after main_part1_ops1 W (Proc.devRef .tc main_arg6) = W (Proc.devRef .tc main_arg6) :=
  StableHlo.after_of_forall_not_mem (b := Proc.devRef .tc main_arg6) _ _ (List.forall_iff_forall_mem.mp (by
    simp only [main_part1_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops1_main_arg7 (W : Valuation τ sig (Elt F)) :
    StableHlo.after main_part1_ops1 W (Proc.devRef .tc main_arg7) = W (Proc.devRef .tc main_arg7) :=
  StableHlo.after_of_forall_not_mem (b := Proc.devRef .tc main_arg7) _ _ (List.forall_iff_forall_mem.mp (by
    simp only [main_part1_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops1_main_arg8 (W : Valuation τ sig (Elt F)) :
    StableHlo.after main_part1_ops1 W (Proc.devRef .tc main_arg8) = W (Proc.devRef .tc main_arg8) :=
  StableHlo.after_of_forall_not_mem (b := Proc.devRef .tc main_arg8) _ _ (List.forall_iff_forall_mem.mp (by
    simp only [main_part1_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops1_main_arg9 (W : Valuation τ sig (Elt F)) :
    StableHlo.after main_part1_ops1 W (Proc.devRef .tc main_arg9) = W (Proc.devRef .tc main_arg9) :=
  StableHlo.after_of_forall_not_mem (b := Proc.devRef .tc main_arg9) _ _ (List.forall_iff_forall_mem.mp (by
    simp only [main_part1_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops1_main_arg10 (W : Valuation τ sig (Elt F)) :
    StableHlo.after main_part1_ops1 W (Proc.devRef .tc main_arg10) = W (Proc.devRef .tc main_arg10) :=
  StableHlo.after_of_forall_not_mem (b := Proc.devRef .tc main_arg10) _ _ (List.forall_iff_forall_mem.mp (by
    simp only [main_part1_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops1_main_arg11 (W : Valuation τ sig (Elt F)) :
    StableHlo.after main_part1_ops1 W (Proc.devRef .tc main_arg11) = W (Proc.devRef .tc main_arg11) :=
  StableHlo.after_of_forall_not_mem (b := Proc.devRef .tc main_arg11) _ _ (List.forall_iff_forall_mem.mp (by
    simp only [main_part1_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops1_main_arg12 (W : Valuation τ sig (Elt F)) :
    StableHlo.after main_part1_ops1 W (Proc.devRef .tc main_arg12) = W (Proc.devRef .tc main_arg12) :=
  StableHlo.after_of_forall_not_mem (b := Proc.devRef .tc main_arg12) _ _ (List.forall_iff_forall_mem.mp (by
    simp only [main_part1_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops1_main_arg13 (W : Valuation τ sig (Elt F)) :
    StableHlo.after main_part1_ops1 W (Proc.devRef .tc main_arg13) = W (Proc.devRef .tc main_arg13) :=
  StableHlo.after_of_forall_not_mem (b := Proc.devRef .tc main_arg13) _ _ (List.forall_iff_forall_mem.mp (by
    simp only [main_part1_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops1_main_arg14 (W : Valuation τ sig (Elt F)) :
    StableHlo.after main_part1_ops1 W (Proc.devRef .tc main_arg14) = W (Proc.devRef .tc main_arg14) :=
  StableHlo.after_of_forall_not_mem (b := Proc.devRef .tc main_arg14) _ _ (List.forall_iff_forall_mem.mp (by
    simp only [main_part1_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops1_main_arg15 (W : Valuation τ sig (Elt F)) :
    StableHlo.after main_part1_ops1 W (Proc.devRef .tc main_arg15) = W (Proc.devRef .tc main_arg15) :=
  StableHlo.after_of_forall_not_mem (b := Proc.devRef .tc main_arg15) _ _ (List.forall_iff_forall_mem.mp (by
    simp only [main_part1_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops1_main_arg16 (W : Valuation τ sig (Elt F)) :
    StableHlo.after main_part1_ops1 W (Proc.devRef .tc main_arg16) = W (Proc.devRef .tc main_arg16) :=
  StableHlo.after_of_forall_not_mem (b := Proc.devRef .tc main_arg16) _ _ (List.forall_iff_forall_mem.mp (by
    simp only [main_part1_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops1_main_arg17 (W : Valuation τ sig (Elt F)) :
    StableHlo.after main_part1_ops1 W (Proc.devRef .tc main_arg17) = W (Proc.devRef .tc main_arg17) :=
  StableHlo.after_of_forall_not_mem (b := Proc.devRef .tc main_arg17) _ _ (List.forall_iff_forall_mem.mp (by
    simp only [main_part1_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops1_main_arg18 (W : Valuation τ sig (Elt F)) :
    StableHlo.after main_part1_ops1 W (Proc.devRef .tc main_arg18) = W (Proc.devRef .tc main_arg18) :=
  StableHlo.after_of_forall_not_mem (b := Proc.devRef .tc main_arg18) _ _ (List.forall_iff_forall_mem.mp (by
    simp only [main_part1_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

theorem keep_main_part1_ops1_main_arg19 (W : Valuation τ sig (Elt F)) :
    StableHlo.after main_part1_ops1 W (Proc.devRef .tc main_arg19) = W (Proc.devRef .tc main_arg19) :=
  StableHlo.after_of_forall_not_mem (b := Proc.devRef .tc main_arg19) _ _ (List.forall_iff_forall_mem.mp (by
    simp only [main_part1_ops1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, Finset.mem_singleton]
    repeat' apply And.intro
    all_goals exact StableHlo.devRef_ne_of_ne (by decide)))

end Cert.KernelIdeal.Hand
end
-- ==== Proof.KI.Frame.lean ====
import proofs.«146436_j3985729651483_1_alg».proof.Proof.Gen.KernelIdeal.Launch
import proofs.«146436_j3985729651483_1_alg».proof.Proof.Gen.KernelIdeal.Skeleton
import proofs.«146436_j3985729651483_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«146436_j3985729651483_1_alg».proof.Proof.KI.Run
import proofs.«146436_j3985729651483_1_alg».proof.Proof.KI.Keep_main_part0_ops0
import proofs.«146436_j3985729651483_1_alg».proof.Proof.KI.Keep_main_part0_ops1
import proofs.«146436_j3985729651483_1_alg».proof.Proof.KI.Keep_main_part0_ops2
import proofs.«146436_j3985729651483_1_alg».proof.Proof.KI.Keep_main_part1_ops0
import proofs.«146436_j3985729651483_1_alg».proof.Proof.KI.Keep_main_part1_ops1
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The argument arrays end as launched: no host operation writes one and each pallas_call only reads it (through an input
    window) or bypasses it, so the last boundary's contents at an argument walk back to the launch memory. -/

variable (m : (ℓ : Loc nD τ sig) → Buf (Elt F) ℓ) (ρ : Dev nD → PrngReg)

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := keep_main_part1_ops1_main_arg0 _
    _ = W5 m ρ c (Proc.devRef .tc main_arg0) := W6_of_ne m ρ c main_arg0 (by decide)
    _ = W4 m ρ c (Proc.devRef .tc main_arg0) := W5_of_ne m ρ c main_arg0 (by decide)
    _ = W3 m ρ c (Proc.devRef .tc main_arg0) := keep_main_part1_ops0_main_arg0 _
    _ = W2 m ρ c (Proc.devRef .tc main_arg0) := keep_main_part0_ops2_main_arg0 _
    _ = W1 m ρ c (Proc.devRef .tc main_arg0) := keep_main_part0_ops1_main_arg0 _
    _ = W0 m ρ c (Proc.devRef .tc main_arg0) := keep_main_part0_ops0_main_arg0 _
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := keep_main_part1_ops1_main_arg1 _
    _ = W5 m ρ c (Proc.devRef .tc main_arg1) := W6_of_ne m ρ c main_arg1 (by decide)
    _ = W4 m ρ c (Proc.devRef .tc main_arg1) := W5_of_ne m ρ c main_arg1 (by decide)
    _ = W3 m ρ c (Proc.devRef .tc main_arg1) := keep_main_part1_ops0_main_arg1 _
    _ = W2 m ρ c (Proc.devRef .tc main_arg1) := keep_main_part0_ops2_main_arg1 _
    _ = W1 m ρ c (Proc.devRef .tc main_arg1) := keep_main_part0_ops1_main_arg1 _
    _ = W0 m ρ c (Proc.devRef .tc main_arg1) := keep_main_part0_ops0_main_arg1 _
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := keep_main_part1_ops1_main_arg2 _
    _ = W5 m ρ c (Proc.devRef .tc main_arg2) := W6_of_ne m ρ c main_arg2 (by decide)
    _ = W4 m ρ c (Proc.devRef .tc main_arg2) := W5_of_ne m ρ c main_arg2 (by decide)
    _ = W3 m ρ c (Proc.devRef .tc main_arg2) := keep_main_part1_ops0_main_arg2 _
    _ = W2 m ρ c (Proc.devRef .tc main_arg2) := keep_main_part0_ops2_main_arg2 _
    _ = W1 m ρ c (Proc.devRef .tc main_arg2) := keep_main_part0_ops1_main_arg2 _
    _ = W0 m ρ c (Proc.devRef .tc main_arg2) := keep_main_part0_ops0_main_arg2 _
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := keep_main_part1_ops1_main_arg3 _
    _ = W5 m ρ c (Proc.devRef .tc main_arg3) := W6_of_ne m ρ c main_arg3 (by decide)
    _ = W4 m ρ c (Proc.devRef .tc main_arg3) := W5_of_ne m ρ c main_arg3 (by decide)
    _ = W3 m ρ c (Proc.devRef .tc main_arg3) := keep_main_part1_ops0_main_arg3 _
    _ = W2 m ρ c (Proc.devRef .tc main_arg3) := keep_main_part0_ops2_main_arg3 _
    _ = W1 m ρ c (Proc.devRef .tc main_arg3) := keep_main_part0_ops1_main_arg3 _
    _ = W0 m ρ c (Proc.devRef .tc main_arg3) := keep_main_part0_ops0_main_arg3 _
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := keep_main_part1_ops1_main_arg4 _
    _ = W5 m ρ c (Proc.devRef .tc main_arg4) := W6_of_ne m ρ c main_arg4 (by decide)
    _ = W4 m ρ c (Proc.devRef .tc main_arg4) := W5_of_ne m ρ c main_arg4 (by decide)
    _ = W3 m ρ c (Proc.devRef .tc main_arg4) := keep_main_part1_ops0_main_arg4 _
    _ = W2 m ρ c (Proc.devRef .tc main_arg4) := keep_main_part0_ops2_main_arg4 _
    _ = W1 m ρ c (Proc.devRef .tc main_arg4) := keep_main_part0_ops1_main_arg4 _
    _ = W0 m ρ c (Proc.devRef .tc main_arg4) := keep_main_part0_ops0_main_arg4 _
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := keep_main_part1_ops1_main_arg5 _
    _ = W5 m ρ c (Proc.devRef .tc main_arg5) := W6_of_ne m ρ c main_arg5 (by decide)
    _ = W4 m ρ c (Proc.devRef .tc main_arg5) := W5_of_ne m ρ c main_arg5 (by decide)
    _ = W3 m ρ c (Proc.devRef .tc main_arg5) := keep_main_part1_ops0_main_arg5 _
    _ = W2 m ρ c (Proc.devRef .tc main_arg5) := keep_main_part0_ops2_main_arg5 _
    _ = W1 m ρ c (Proc.devRef .tc main_arg5) := keep_main_part0_ops1_main_arg5 _
    _ = W0 m ρ c (Proc.devRef .tc main_arg5) := keep_main_part0_ops0_main_arg5 _
    _ = m ((c : Thread nD τ).loc main_arg5) := rfl

theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := keep_main_part1_ops1_main_arg6 _
    _ = W5 m ρ c (Proc.devRef .tc main_arg6) := W6_of_ne m ρ c main_arg6 (by decide)
    _ = W4 m ρ c (Proc.devRef .tc main_arg6) := W5_of_ne m ρ c main_arg6 (by decide)
    _ = W3 m ρ c (Proc.devRef .tc main_arg6) := keep_main_part1_ops0_main_arg6 _
    _ = W2 m ρ c (Proc.devRef .tc main_arg6) := keep_main_part0_ops2_main_arg6 _
    _ = W1 m ρ c (Proc.devRef .tc main_arg6) := keep_main_part0_ops1_main_arg6 _
    _ = W0 m ρ c (Proc.devRef .tc main_arg6) := keep_main_part0_ops0_main_arg6 _
    _ = m ((c : Thread nD τ).loc main_arg6) := rfl

theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := keep_main_part1_ops1_main_arg7 _
    _ = W5 m ρ c (Proc.devRef .tc main_arg7) := W6_of_ne m ρ c main_arg7 (by decide)
    _ = W4 m ρ c (Proc.devRef .tc main_arg7) := W5_of_ne m ρ c main_arg7 (by decide)
    _ = W3 m ρ c (Proc.devRef .tc main_arg7) := keep_main_part1_ops0_main_arg7 _
    _ = W2 m ρ c (Proc.devRef .tc main_arg7) := keep_main_part0_ops2_main_arg7 _
    _ = W1 m ρ c (Proc.devRef .tc main_arg7) := keep_main_part0_ops1_main_arg7 _
    _ = W0 m ρ c (Proc.devRef .tc main_arg7) := keep_main_part0_ops0_main_arg7 _
    _ = m ((c : Thread nD τ).loc main_arg7) := rfl

theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := keep_main_part1_ops1_main_arg8 _
    _ = W5 m ρ c (Proc.devRef .tc main_arg8) := W6_of_ne m ρ c main_arg8 (by decide)
    _ = W4 m ρ c (Proc.devRef .tc main_arg8) := W5_of_ne m ρ c main_arg8 (by decide)
    _ = W3 m ρ c (Proc.devRef .tc main_arg8) := keep_main_part1_ops0_main_arg8 _
    _ = W2 m ρ c (Proc.devRef .tc main_arg8) := keep_main_part0_ops2_main_arg8 _
    _ = W1 m ρ c (Proc.devRef .tc main_arg8) := keep_main_part0_ops1_main_arg8 _
    _ = W0 m ρ c (Proc.devRef .tc main_arg8) := keep_main_part0_ops0_main_arg8 _
    _ = m ((c : Thread nD τ).loc main_arg8) := rfl

theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := keep_main_part1_ops1_main_arg9 _
    _ = W5 m ρ c (Proc.devRef .tc main_arg9) := W6_of_ne m ρ c main_arg9 (by decide)
    _ = W4 m ρ c (Proc.devRef .tc main_arg9) := W5_of_ne m ρ c main_arg9 (by decide)
    _ = W3 m ρ c (Proc.devRef .tc main_arg9) := keep_main_part1_ops0_main_arg9 _
    _ = W2 m ρ c (Proc.devRef .tc main_arg9) := keep_main_part0_ops2_main_arg9 _
    _ = W1 m ρ c (Proc.devRef .tc main_arg9) := keep_main_part0_ops1_main_arg9 _
    _ = W0 m ρ c (Proc.devRef .tc main_arg9) := keep_main_part0_ops0_main_arg9 _
    _ = m ((c : Thread nD τ).loc main_arg9) := rfl

theorem W7_main_arg10 (c : Dev nD) : W7 m ρ c (Proc.devRef .tc main_arg10) = m ((c : Thread nD τ).loc main_arg10) :=
  calc W7 m ρ c (Proc.devRef .tc main_arg10)
    _ = W6 m ρ c (Proc.devRef .tc main_arg10) := keep_main_part1_ops1_main_arg10 _
    _ = W5 m ρ c (Proc.devRef .tc main_arg10) := W6_of_ne m ρ c main_arg10 (by decide)
    _ = W4 m ρ c (Proc.devRef .tc main_arg10) := W5_of_ne m ρ c main_arg10 (by decide)
    _ = W3 m ρ c (Proc.devRef .tc main_arg10) := keep_main_part1_ops0_main_arg10 _
    _ = W2 m ρ c (Proc.devRef .tc main_arg10) := keep_main_part0_ops2_main_arg10 _
    _ = W1 m ρ c (Proc.devRef .tc main_arg10) := keep_main_part0_ops1_main_arg10 _
    _ = W0 m ρ c (Proc.devRef .tc main_arg10) := keep_main_part0_ops0_main_arg10 _
    _ = m ((c : Thread nD τ).loc main_arg10) := rfl

theorem W7_main_arg11 (c : Dev nD) : W7 m ρ c (Proc.devRef .tc main_arg11) = m ((c : Thread nD τ).loc main_arg11) :=
  calc W7 m ρ c (Proc.devRef .tc main_arg11)
    _ = W6 m ρ c (Proc.devRef .tc main_arg11) := keep_main_part1_ops1_main_arg11 _
    _ = W5 m ρ c (Proc.devRef .tc main_arg11) := W6_of_ne m ρ c main_arg11 (by decide)
    _ = W4 m ρ c (Proc.devRef .tc main_arg11) := W5_of_ne m ρ c main_arg11 (by decide)
    _ = W3 m ρ c (Proc.devRef .tc main_arg11) := keep_main_part1_ops0_main_arg11 _
    _ = W2 m ρ c (Proc.devRef .tc main_arg11) := keep_main_part0_ops2_main_arg11 _
    _ = W1 m ρ c (Proc.devRef .tc main_arg11) := keep_main_part0_ops1_main_arg11 _
    _ = W0 m ρ c (Proc.devRef .tc main_arg11) := keep_main_part0_ops0_main_arg11 _
    _ = m ((c : Thread nD τ).loc main_arg11) := rfl

theorem W7_main_arg12 (c : Dev nD) : W7 m ρ c (Proc.devRef .tc main_arg12) = m ((c : Thread nD τ).loc main_arg12) :=
  calc W7 m ρ c (Proc.devRef .tc main_arg12)
    _ = W6 m ρ c (Proc.devRef .tc main_arg12) := keep_main_part1_ops1_main_arg12 _
    _ = W5 m ρ c (Proc.devRef .tc main_arg12) := W6_of_ne m ρ c main_arg12 (by decide)
    _ = W4 m ρ c (Proc.devRef .tc main_arg12) := W5_of_ne m ρ c main_arg12 (by decide)
    _ = W3 m ρ c (Proc.devRef .tc main_arg12) := keep_main_part1_ops0_main_arg12 _
    _ = W2 m ρ c (Proc.devRef .tc main_arg12) := keep_main_part0_ops2_main_arg12 _
    _ = W1 m ρ c (Proc.devRef .tc main_arg12) := keep_main_part0_ops1_main_arg12 _
    _ = W0 m ρ c (Proc.devRef .tc main_arg12) := keep_main_part0_ops0_main_arg12 _
    _ = m ((c : Thread nD τ).loc main_arg12) := rfl

theorem W7_main_arg13 (c : Dev nD) : W7 m ρ c (Proc.devRef .tc main_arg13) = m ((c : Thread nD τ).loc main_arg13) :=
  calc W7 m ρ c (Proc.devRef .tc main_arg13)
    _ = W6 m ρ c (Proc.devRef .tc main_arg13) := keep_main_part1_ops1_main_arg13 _
    _ = W5 m ρ c (Proc.devRef .tc main_arg13) := W6_of_ne m ρ c main_arg13 (by decide)
    _ = W4 m ρ c (Proc.devRef .tc main_arg13) := W5_of_ne m ρ c main_arg13 (by decide)
    _ = W3 m ρ c (Proc.devRef .tc main_arg13) := keep_main_part1_ops0_main_arg13 _
    _ = W2 m ρ c (Proc.devRef .tc main_arg13) := keep_main_part0_ops2_main_arg13 _
    _ = W1 m ρ c (Proc.devRef .tc main_arg13) := keep_main_part0_ops1_main_arg13 _
    _ = W0 m ρ c (Proc.devRef .tc main_arg13) := keep_main_part0_ops0_main_arg13 _
    _ = m ((c : Thread nD τ).loc main_arg13) := rfl

theorem W7_main_arg14 (c : Dev nD) : W7 m ρ c (Proc.devRef .tc main_arg14) = m ((c : Thread nD τ).loc main_arg14) :=
  calc W7 m ρ c (Proc.devRef .tc main_arg14)
    _ = W6 m ρ c (Proc.devRef .tc main_arg14) := keep_main_part1_ops1_main_arg14 _
    _ = W5 m ρ c (Proc.devRef .tc main_arg14) := W6_of_ne m ρ c main_arg14 (by decide)
    _ = W4 m ρ c (Proc.devRef .tc main_arg14) := W5_of_ne m ρ c main_arg14 (by decide)
    _ = W3 m ρ c (Proc.devRef .tc main_arg14) := keep_main_part1_ops0_main_arg14 _
    _ = W2 m ρ c (Proc.devRef .tc main_arg14) := keep_main_part0_ops2_main_arg14 _
    _ = W1 m ρ c (Proc.devRef .tc main_arg14) := keep_main_part0_ops1_main_arg14 _
    _ = W0 m ρ c (Proc.devRef .tc main_arg14) := keep_main_part0_ops0_main_arg14 _
    _ = m ((c : Thread nD τ).loc main_arg14) := rfl

theorem W7_main_arg15 (c : Dev nD) : W7 m ρ c (Proc.devRef .tc main_arg15) = m ((c : Thread nD τ).loc main_arg15) :=
  calc W7 m ρ c (Proc.devRef .tc main_arg15)
    _ = W6 m ρ c (Proc.devRef .tc main_arg15) := keep_main_part1_ops1_main_arg15 _
    _ = W5 m ρ c (Proc.devRef .tc main_arg15) := W6_of_ne m ρ c main_arg15 (by decide)
    _ = W4 m ρ c (Proc.devRef .tc main_arg15) := W5_of_ne m ρ c main_arg15 (by decide)
    _ = W3 m ρ c (Proc.devRef .tc main_arg15) := keep_main_part1_ops0_main_arg15 _
    _ = W2 m ρ c (Proc.devRef .tc main_arg15) := keep_main_part0_ops2_main_arg15 _
    _ = W1 m ρ c (Proc.devRef .tc main_arg15) := keep_main_part0_ops1_main_arg15 _
    _ = W0 m ρ c (Proc.devRef .tc main_arg15) := keep_main_part0_ops0_main_arg15 _
    _ = m ((c : Thread nD τ).loc main_arg15) := rfl

theorem W7_main_arg16 (c : Dev nD) : W7 m ρ c (Proc.devRef .tc main_arg16) = m ((c : Thread nD τ).loc main_arg16) :=
  calc W7 m ρ c (Proc.devRef .tc main_arg16)
    _ = W6 m ρ c (Proc.devRef .tc main_arg16) := keep_main_part1_ops1_main_arg16 _
    _ = W5 m ρ c (Proc.devRef .tc main_arg16) := W6_of_ne m ρ c main_arg16 (by decide)
    _ = W4 m ρ c (Proc.devRef .tc main_arg16) := W5_of_ne m ρ c main_arg16 (by decide)
    _ = W3 m ρ c (Proc.devRef .tc main_arg16) := keep_main_part1_ops0_main_arg16 _
    _ = W2 m ρ c (Proc.devRef .tc main_arg16) := keep_main_part0_ops2_main_arg16 _
    _ = W1 m ρ c (Proc.devRef .tc main_arg16) := keep_main_part0_ops1_main_arg16 _
    _ = W0 m ρ c (Proc.devRef .tc main_arg16) := keep_main_part0_ops0_main_arg16 _
    _ = m ((c : Thread nD τ).loc main_arg16) := rfl

theorem W7_main_arg17 (c : Dev nD) : W7 m ρ c (Proc.devRef .tc main_arg17) = m ((c : Thread nD τ).loc main_arg17) :=
  calc W7 m ρ c (Proc.devRef .tc main_arg17)
    _ = W6 m ρ c (Proc.devRef .tc main_arg17) := keep_main_part1_ops1_main_arg17 _
    _ = W5 m ρ c (Proc.devRef .tc main_arg17) := W6_of_ne m ρ c main_arg17 (by decide)
    _ = W4 m ρ c (Proc.devRef .tc main_arg17) := W5_of_ne m ρ c main_arg17 (by decide)
    _ = W3 m ρ c (Proc.devRef .tc main_arg17) := keep_main_part1_ops0_main_arg17 _
    _ = W2 m ρ c (Proc.devRef .tc main_arg17) := keep_main_part0_ops2_main_arg17 _
    _ = W1 m ρ c (Proc.devRef .tc main_arg17) := keep_main_part0_ops1_main_arg17 _
    _ = W0 m ρ c (Proc.devRef .tc main_arg17) := keep_main_part0_ops0_main_arg17 _
    _ = m ((c : Thread nD τ).loc main_arg17) := rfl

theorem W7_main_arg18 (c : Dev nD) : W7 m ρ c (Proc.devRef .tc main_arg18) = m ((c : Thread nD τ).loc main_arg18) :=
  calc W7 m ρ c (Proc.devRef .tc main_arg18)
    _ = W6 m ρ c (Proc.devRef .tc main_arg18) := keep_main_part1_ops1_main_arg18 _
    _ = W5 m ρ c (Proc.devRef .tc main_arg18) := W6_of_ne m ρ c main_arg18 (by decide)
    _ = W4 m ρ c (Proc.devRef .tc main_arg18) := W5_of_ne m ρ c main_arg18 (by decide)
    _ = W3 m ρ c (Proc.devRef .tc main_arg18) := keep_main_part1_ops0_main_arg18 _
    _ = W2 m ρ c (Proc.devRef .tc main_arg18) := keep_main_part0_ops2_main_arg18 _
    _ = W1 m ρ c (Proc.devRef .tc main_arg18) := keep_main_part0_ops1_main_arg18 _
    _ = W0 m ρ c (Proc.devRef .tc main_arg18) := keep_main_part0_ops0_main_arg18 _
    _ = m ((c : Thread nD τ).loc main_arg18) := rfl

theorem W7_main_arg19 (c : Dev nD) : W7 m ρ c (Proc.devRef .tc main_arg19) = m ((c : Thread nD τ).loc main_arg19) :=
  calc W7 m ρ c (Proc.devRef .tc main_arg19)
    _ = W6 m ρ c (Proc.devRef .tc main_arg19) := keep_main_part1_ops1_main_arg19 _
    _ = W5 m ρ c (Proc.devRef .tc main_arg19) := W6_of_ne m ρ c main_arg19 (by decide)
    _ = W4 m ρ c (Proc.devRef .tc main_arg19) := W5_of_ne m ρ c main_arg19 (by decide)
    _ = W3 m ρ c (Proc.devRef .tc main_arg19) := keep_main_part1_ops0_main_arg19 _
    _ = W2 m ρ c (Proc.devRef .tc main_arg19) := keep_main_part0_ops2_main_arg19 _
    _ = W1 m ρ c (Proc.devRef .tc main_arg19) := keep_main_part0_ops1_main_arg19 _
    _ = W0 m ρ c (Proc.devRef .tc main_arg19) := keep_main_part0_ops0_main_arg19 _
    _ = m ((c : Thread nD τ).loc main_arg19) := rfl

/-- The run with the result buffer and every argument read off the last boundary's contents. -/
theorem run_named : θ_run defs (onTc (τ := τ) (main (F := F))) ⟨m, fun _ => 0, ρ⟩ (fun r => ∀ c : Dev nD,
      r.2.mem ((c.tc : Thread nD τ).loc main_v93) = W7 m ρ c (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => ⟨h c _ (mem_uc main_v93 (by decide)),
    (h c _ (mem_uc main_arg0 (by decide))).trans (W7_main_arg0 m ρ c),
    (h c _ (mem_uc main_arg1 (by decide))).trans (W7_main_arg1 m ρ c),
    (h c _ (mem_uc main_arg2 (by decide))).trans (W7_main_arg2 m ρ c),
    (h c _ (mem_uc main_arg3 (by decide))).trans (W7_main_arg3 m ρ c),
    (h c _ (mem_uc main_arg4 (by decide))).trans (W7_main_arg4 m ρ c),
    (h c _ (mem_uc main_arg5 (by decide))).trans (W7_main_arg5 m ρ c),
    (h c _ (mem_uc main_arg6 (by decide))).trans (W7_main_arg6 m ρ c),
    (h c _ (mem_uc main_arg7 (by decide))).trans (W7_main_arg7 m ρ c),
    (h c _ (mem_uc main_arg8 (by decide))).trans (W7_main_arg8 m ρ c),
    (h c _ (mem_uc main_arg9 (by decide))).trans (W7_main_arg9 m ρ c),
    (h c _ (mem_uc main_arg10 (by decide))).trans (W7_main_arg10 m ρ c),
    (h c _ (mem_uc main_arg11 (by decide))).trans (W7_main_arg11 m ρ c),
    (h c _ (mem_uc main_arg12 (by decide))).trans (W7_main_arg12 m ρ c),
    (h c _ (mem_uc main_arg13 (by decide))).trans (W7_main_arg13 m ρ c),
    (h c _ (mem_uc main_arg14 (by decide))).trans (W7_main_arg14 m ρ c),
    (h c _ (mem_uc main_arg15 (by decide))).trans (W7_main_arg15 m ρ c),
    (h c _ (mem_uc main_arg16 (by decide))).trans (W7_main_arg16 m ρ c),
    (h c _ (mem_uc main_arg17 (by decide))).trans (W7_main_arg17 m ρ c),
    (h c _ (mem_uc main_arg18 (by decide))).trans (W7_main_arg18 m ρ c),
    (h c _ (mem_uc main_arg19 (by decide))).trans (W7_main_arg19 m ρ c)⟩) (run_all m ρ)

/-- The frame: every weakly fair execution terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => (h c).2) (run_named m ρ)

end Cert.KernelIdeal.Hand
end
-- ==== Proof.KI.ValueIn.lean ====
import proofs.«146436_j3985729651483_1_alg».proof.Proof.Gen.KernelIdeal.Launch
import proofs.«146436_j3985729651483_1_alg».proof.Proof.Gen.KernelIdeal.Skeleton
import proofs.«146436_j3985729651483_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«146436_j3985729651483_1_alg».proof.Proof.KI.Fold
import proofs.«146436_j3985729651483_1_alg».proof.Proof.Gen.ReferenceIdeal.Read
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The host operations before the pallas_calls are the same in the program and in the reference: the contents the first
    call finds in its operand arrays are the reference's stages of the same arguments, operation for operation. -/

open Cert.ReferenceIdeal.Read

variable (m : (ℓ : Loc nD τ sig) → Buf (Elt Ideal) ℓ) (ρ : Dev nD → PrngReg)

set_option maxRecDepth 100000 in
set_option maxHeartbeats 40000000 in
/-- The forward branch's pre-activation, as the first call finds it. -/
theorem cf_eq (c : Dev nD) :
    (V4 m ρ c main_v67 : S32x1024.Idx → EReal) = val_main_v67 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10)) := by
  show StableHlo.after main_part1_ops0 (StableHlo.after main_part0_ops2 (StableHlo.after main_part0_ops1 (StableHlo.after main_part0_ops0 (W0 m ρ c)))) (Proc.devRef .tc main_v67) = _
  after_results_simp
  rfl

set_option maxRecDepth 100000 in
set_option maxHeartbeats 40000000 in
/-- The backward branch's pre-activation. -/
theorem cb_eq (c : Dev nD) :
    (V4 m ρ c main_v74 : S32x1024.Idx → EReal) = val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg11)) (m ((c.tc : Thread nD τ).loc main_arg12)) := by
  show StableHlo.after main_part1_ops0 (StableHlo.after main_part0_ops2 (StableHlo.after main_part0_ops1 (StableHlo.after main_part0_ops0 (W0 m ρ c)))) (Proc.devRef .tc main_v74) = _
  after_results_simp
  rfl

set_option maxRecDepth 100000 in
set_option maxHeartbeats 40000000 in
/-- The forward weights scaled row by row. -/
theorem as_eq (c : Dev nD) :
    (V4 m ρ c main_v77 : S1024x1024.Idx → EReal) = val_main_v78 (F := Ideal) (m ((c.tc : Thread nD τ).loc main_arg13)) (m ((c.tc : Thread nD τ).loc main_arg15)) := by
  show StableHlo.after main_part1_ops0 (StableHlo.after main_part0_ops2 (StableHlo.after main_part0_ops1 (StableHlo.after main_part0_ops0 (W0 m ρ c)))) (Proc.devRef .tc main_v77) = _
  after_results_simp
  rfl

set_option maxRecDepth 100000 in
set_option maxHeartbeats 40000000 in
/-- The backward weights scaled row by row. -/
theorem bs_eq (c : Dev nD) :
    (V4 m ρ c main_v80 : S1024x1024.Idx → EReal) = val_main_v90 (F := Ideal) (m ((c.tc : Thread nD τ).loc main_arg14)) (m ((c.tc : Thread nD τ).loc main_arg15)) := by
  show StableHlo.after main_part1_ops0 (StableHlo.after main_part0_ops2 (StableHlo.after main_part0_ops1 (StableHlo.after main_part0_ops0 (W0 m ρ c)))) (Proc.devRef .tc main_v80) = _
  after_results_simp
  rfl

end Cert.KernelIdeal.Hand
end
-- ==== Proof.KI.ValueTail.lean ====
import proofs.«146436_j3985729651483_1_alg».proof.Proof.Gen.KernelIdeal.Launch
import proofs.«146436_j3985729651483_1_alg».proof.Proof.Gen.KernelIdeal.Skeleton
import proofs.«146436_j3985729651483_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«146436_j3985729651483_1_alg».proof.Proof.Gen.ReferenceIdeal.Read
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The host operations after the pallas_calls: from any buffer contents in which the two calls' outputs are the reference's
    two means and the last four arguments are as launched, the result buffer is the reference's result stage. -/

open Cert.ReferenceIdeal.Read

set_option maxRecDepth 100000 in
set_option maxHeartbeats 40000000 in
theorem tail_eq (W : Valuation τ sig (Elt Ideal)) (x0 : (⟨Cert.ReferenceIdeal.S32x9x9x200, .f32⟩ : BufTy).Contents (Elt Ideal)) (x1 : (⟨Cert.ReferenceIdeal.S200x3, .f32⟩ : BufTy).Contents (Elt Ideal)) (x2 : (⟨Cert.ReferenceIdeal.S200, .f32⟩ : BufTy).Contents (Elt Ideal)) (x3 : (⟨Cert.ReferenceIdeal.S16200, .f32⟩ : BufTy).Contents (Elt Ideal)) (x4 : (⟨Cert.ReferenceIdeal.S16200, .f32⟩ : BufTy).Contents (Elt Ideal)) (x5 : (⟨Cert.ReferenceIdeal.S1024x16200, .f32⟩ : BufTy).Contents (Elt Ideal)) (x6 : (⟨Cert.ReferenceIdeal.S1024, .f32⟩ : BufTy).Contents (Elt Ideal)) (x7 : (⟨Cert.ReferenceIdeal.S1024x16200, .f32⟩ : BufTy).Contents (Elt Ideal)) (x8 : (⟨Cert.ReferenceIdeal.S1024, .f32⟩ : BufTy).Contents (Elt Ideal)) (x9 : (⟨Cert.ReferenceIdeal.S1024x1024x3, .f32⟩ : BufTy).Contents (Elt Ideal)) (x10 : (⟨Cert.ReferenceIdeal.S1024, .f32⟩ : BufTy).Contents (Elt Ideal)) (x11 : (⟨Cert.ReferenceIdeal.S1024x1024x3, .f32⟩ : BufTy).Contents (Elt Ideal)) (x12 : (⟨Cert.ReferenceIdeal.S1024, .f32⟩ : BufTy).Contents (Elt Ideal)) (x13 : (⟨Cert.ReferenceIdeal.S1024x1024, .f32⟩ : BufTy).Contents (Elt Ideal)) (x14 : (⟨Cert.ReferenceIdeal.S1024x1024, .f32⟩ : BufTy).Contents (Elt Ideal)) (x15 : (⟨Cert.ReferenceIdeal.S1024, .f32⟩ : BufTy).Contents (Elt Ideal)) (x16 : (⟨Cert.ReferenceIdeal.S512x1024, .f32⟩ : BufTy).Contents (Elt Ideal)) (x17 : (⟨Cert.ReferenceIdeal.S512, .f32⟩ : BufTy).Contents (Elt Ideal)) (x18 : (⟨Cert.ReferenceIdeal.S512x1024, .f32⟩ : BufTy).Contents (Elt Ideal)) (x19 : (⟨Cert.ReferenceIdeal.S512, .f32⟩ : BufTy).Contents (Elt Ideal))
    (hfr : (W (Proc.devRef .tc main_v81) : S32x1024.Idx → EReal) = val_main_v86 (F := Ideal) x0 x1 x2 x3 x4 x5 x6 x9 x10 x13 x15)
    (hbr : (W (Proc.devRef .tc main_v82) : S32x1024.Idx → EReal) = val_main_v98 (F := Ideal) x0 x1 x2 x3 x4 x7 x8 x11 x12 x14 x15)
    (h16 : (W (Proc.devRef .tc main_arg16) : S512x1024.Idx → EReal) = x16)
    (h17 : (W (Proc.devRef .tc main_arg17) : S512.Idx → EReal) = x17)
    (h18 : (W (Proc.devRef .tc main_arg18) : S512x1024.Idx → EReal) = x18)
    (h19 : (W (Proc.devRef .tc main_arg19) : S512.Idx → EReal) = x19) :
    (StableHlo.after main_part1_ops1 W (Proc.devRef .tc main_v93) : S32x512.Idx → EReal) = val_main_v109 (F := Ideal) x0 x1 x2 x3 x4 x5 x6 x7 x8 x9 x10 x11 x12 x13 x14 x15 x16 x17 x18 x19 := by
  after_results
  rw [hfr, hbr, h16, h17, h18, h19]
  rfl

end Cert.KernelIdeal.Hand
end
-- ==== Proof.BtmSpec.lean ====
/- The mean over 1024 terms in the two spellings the certificate meets: the reference's quotient of the
   sum by the constant 1024, and the kernel's four partial sums of 256 terms scaled by the constant 2^-10. -/
import Idealize.ShloMosaic.PureOps.Ideal
import Idealize.ShloMosaic.PureOps.Ideal.Laws

noncomputable section

namespace Cert.Btm

open Idealize.ShloMosaic

/-- The f32 word of `+0.0` denotes the extended real `0`. -/
theorem ofBits_zero : Ideal.ofBits .f32 0x00000000#32 = 0 := by
  simp [Ideal.ofBits, Ideal.ieee]

/-- The f32 word `0x44800000` denotes the real `1024`. -/
theorem ofBits_1024 : Ideal.ofBits .f32 0x44800000#32 = ((1024 : ℝ) : EReal) := by
  simp [Ideal.ofBits, Ideal.ieee, -EReal.coe_mul]; norm_num

/-- The f32 word `0x3A800000` denotes the real `1/1024` (that is `2^-10`, exactly). -/
theorem ofBits_inv1024 : Ideal.ofBits .f32 0x3A800000#32 = ((1 / 1024 : ℝ) : EReal) := by
  simp [Ideal.ofBits, Ideal.ieee, -EReal.coe_mul]; norm_num

/-- The mean of 1024 extended reals as the reference computes it: the sum, started from the value of the
    word `+0.0`, divided (the ideal division) by the value of the f32 word of `1024.0`. -/
def mean1024 (f : Fin 1024 → EReal) : EReal :=
  Ideal.div (Ideal.ofBits .f32 0x00000000#32 + ∑ j : Fin 1024, f j) (Ideal.ofBits .f32 0x44800000#32)

/-- The mean is the sum times the real `1/1024`: the initial value is `0`, and division by a nonzero real
    is multiplication by its reciprocal at every extended real, the infinities included. -/
theorem mean1024_eq (f : Fin 1024 → EReal) :
    mean1024 f = (∑ j : Fin 1024, f j) * ((1 / 1024 : ℝ) : EReal) := by
  rw [mean1024, ofBits_zero, ofBits_1024, zero_add, Ideal.div_coe (by norm_num)]

/-- A sum over 1024 indices, read as 4 consecutive blocks of 256, is the sum over the blocks of the sums
    inside each block: the index `j` is the pair (`j / 256`, `j % 256`). Sums of extended reals regroup
    freely (addition is commutative and associative on all of them), so no finiteness is asked. -/
theorem sum_blocks (g : Fin 4 → Fin 256 → EReal) :
    (∑ j : Fin 1024, g ⟨j.val / 256, by omega⟩ ⟨j.val % 256, by omega⟩) = ∑ k : Fin 4, ∑ j : Fin 256, g k j := by
  rw [← Fintype.sum_prod_type']
  exact Fintype.sum_equiv (finProdFinEquiv (m := 4) (n := 256)).symm _ _ (fun x => rfl)

/-- The kernel's accumulation is the reference's mean. Starting from `0`, adding the four block sums of
    256 terms one after the other, and scaling by the value of the word `0x3A800000` (`2^-10`) gives the
    mean of the 1024 terms `g (j / 256) (j % 256)`: the four partial sums add up to the whole sum, and
    `x * 2^-10 = x / 1024` for every extended real `x`. -/
theorem blocked (g : Fin 4 → Fin 256 → EReal) :
    ((((0 + ∑ j : Fin 256, g 0 j) + ∑ j : Fin 256, g 1 j) + ∑ j : Fin 256, g 2 j) + ∑ j : Fin 256, g 3 j)
        * Ideal.ofBits .f32 0x3A800000#32
      = mean1024 (fun j : Fin 1024 => g ⟨j.val / 256, by omega⟩ ⟨j.val % 256, by omega⟩) := by
  rw [mean1024_eq, sum_blocks, Fin.sum_univ_four, ofBits_inv1024, zero_add]

end Cert.Btm

end
-- ==== Proof.LibLastAxis.lean ====
/-
  Reusable lemmas: reductions along the LAST axis of an [a, b, c] array, read at an entry over the extended reals.

  A sum over the last axis, from the zero accumulator, is at (i, k) the sum over j of the entries (i, k, j); a running
  maximum along it is the fold of max, from the accumulator's value, over those entries. Generic in the extents.
-/
import Idealize.ShloMosaic.Lib.ValueIdx
import Idealize.ShloMosaic.PureOps.Ideal.Laws

noncomputable section

namespace Cert.LastAxis

open Idealize.ShloMosaic Idealize.ShloMosaic.ValueIdx

variable {a b c : ℕ}

/-- The source index of a reduction over the last axis: the pair (i, k) with the coordinate j appended is (i, k, j). -/
theorem lift_last (h : (⟨3, ![a, b, c]⟩ : Shape).Reduces [(2 : Fin 3)] ⟨2, ![a, b]⟩) (i : Fin a) (k : Fin b) (j : Fin c) :
    h.lift (ix2 i k) j = ix3 i k j := by
  funext d
  apply Fin.ext
  show h.liftVal (ix2 i k) j.val d = (ix3 i k j d).val
  unfold Shape.Reduces.liftVal
  match d with
  | ⟨0, _⟩ => rfl
  | ⟨1, _⟩ => rfl
  | ⟨2, _⟩ => rfl

/-- A sum over the last axis of an [a, b, c] array, from the zero accumulator, is at (i, k) the sum over j of the
    entries (i, k, j). -/
theorem lastSum_apply {φ : FTy} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.add.neutral φ hφ) (i : Fin a) (k : Fin b) :
    multiReduction .add [(2 : Fin 3)] ⟨2, ![a, b]⟩ src acc h hφ hacc (ix2 i k) = ∑ j : Fin c, src (ix3 i k j) := by
  refine (Ideal.multiReduction_add_single src acc h hφ hacc (ix2 i k)).trans ?_
  show ∑ j : Fin c, src (h.lift (ix2 i k) j) = _
  exact Finset.sum_congr rfl fun j _ => congrArg src (lift_last h i k j)

/-- A running maximum along the last axis of an [a, b, c] array is at (i, k) the fold of max, from the accumulator's
    value, over the entries (i, k, j). -/
theorem lastMax_apply {φ : FTy} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.maximumf.neutral φ hφ) (i : Fin a) (k : Fin b) :
    multiReduction .maximumf [(2 : Fin 3)] ⟨2, ![a, b]⟩ src acc h hφ hacc (ix2 i k)
      = (Finset.univ : Finset (Fin c)).fold max (Ideal.ofBits φ acc) (fun j => src (ix3 i k j)) := by
  refine (Ideal.multiReduction_maximumf_single src acc h hφ hacc (ix2 i k)).trans ?_
  have e : (src ∘ h.lift (ix2 i k)) = fun j => src (ix3 i k j) := funext fun j => congrArg src (lift_last h i k j)
  show (Finset.univ : Finset (Fin c)).fold max (Ideal.ofBits φ acc) (src ∘ h.lift (ix2 i k)) = _
  rw [e]
  rfl

end Cert.LastAxis

end
-- ==== Proof.LibSlabLayout.lean ====
/-
  Reusable lemmas: an [a, b] array of rows and an [a, b, c] array of slabs read at an entry.

  A kernel that treats each of a blocks separately reduces along the middle axis of an [a, b, c] array (a sum over the b
  rows of every slab, leaving [a, c]) and along the rows of an [a, b] array (a sum or a running maximum over b, leaving
  [a]), and lays an [a, b] array along a new trailing axis ([a, b] → [a, b, 1] → [a, b, c]).  Each lemma reads one such
  operation at an entry written by its coordinates; the sums are over the extended reals.  Generic in the extents.
-/
import Idealize.ShloMosaic.Lib.Pipeline.Value
import Idealize.ShloMosaic.Lib.ValueIdx
import Idealize.ShloMosaic.PureOps.Ideal.Laws

noncomputable section

namespace Cert.SlabLayout

open Idealize.ShloMosaic Idealize.ShloMosaic.ValueIdx

variable {α : Type} {a b c : ℕ}

/-- An [a, b] array viewed [a, b, 1] reads, at (i, k, u), the operand at (i, k). -/
theorem shapeCast_ab_ab1_apply (x : (⟨2, ![a, b]⟩ : Shape).Idx → α)
    (h : (⟨2, ![a, b]⟩ : Shape).ShapeCasts ⟨3, ![a, b, 1]⟩) (i : Fin a) (k : Fin b) (u : Fin 1) :
    shapeCast ⟨3, ![a, b, 1]⟩ x h (ix3 i k u) = x (ix2 i k) :=
  shapeCast_apply x h _ _ (by
    have hu : u.val = 0 := by omega
    rw [Shape.rowMajor_val_three, Shape.rowMajor_val_two]
    show i.val * b + k.val = (i.val * b + k.val) * 1 + u.val
    rw [hu, Nat.mul_one, Nat.add_zero])

/-- An [a, b, 1] array broadcast to [a, b, c] reads, at (i, k, j), the operand at (i, k, 0). -/
theorem broadcastTo_ab1_abc_apply (x : (⟨3, ![a, b, 1]⟩ : Shape).Idx → α)
    (h : (⟨3, ![a, b, 1]⟩ : Shape).Broadcasts ⟨3, ![a, b, c]⟩) (i : Fin a) (k : Fin b) (j : Fin c) :
    broadcastTo ⟨3, ![a, b, c]⟩ x h (ix3 i k j) = x (ix3 i k (0 : Fin 1)) := by
  refine broadcastTo_apply x h (ix3 i k j) (ix3 i k (0 : Fin 1)) fun ax => ?_
  match ax with
  | ⟨0, _⟩ =>
    show i.val = if a = 1 then 0 else i.val
    split
    · have := i.isLt; omega
    · rfl
  | ⟨1, _⟩ =>
    show k.val = if b = 1 then 0 else k.val
    split
    · have := k.isLt; omega
    · rfl
  | ⟨2, _⟩ => rfl

/-- The source index of a reduction over the middle axis: the pair (i, j) with the row k inserted is (i, k, j). -/
theorem lift_mid (h : (⟨3, ![a, b, c]⟩ : Shape).Reduces [(1 : Fin 3)] ⟨2, ![a, c]⟩) (i : Fin a) (j : Fin c) (k : Fin b) :
    h.lift (ix2 i j) k = ix3 i k j := by
  funext d
  apply Fin.ext
  show h.liftVal (ix2 i j) k.val d = (ix3 i k j d).val
  unfold Shape.Reduces.liftVal
  match d with
  | ⟨0, _⟩ => rfl
  | ⟨1, _⟩ => rfl
  | ⟨2, _⟩ => rfl

/-- Over the extended reals a sum over the middle axis of an [a, b, c] array, from the zero accumulator, is at (i, j)
    the sum over the rows k of the entries (i, k, j). -/
theorem midSum_apply {φ : FTy} (src : FVec Ideal ⟨3, ![a, b, c]⟩ φ) (acc : BitVec φ.bits)
    (h : (⟨3, ![a, b, c]⟩ : Shape).Reduces [(1 : Fin 3)] ⟨2, ![a, c]⟩) (hφ : FKind.Formats φ)
    (hacc : acc = FKind.add.neutral φ hφ) (i : Fin a) (j : Fin c) :
    multiReduction .add [(1 : Fin 3)] ⟨2, ![a, c]⟩ src acc h hφ hacc (ix2 i j) = ∑ k : Fin b, src (ix3 i k j) := by
  refine (Ideal.multiReduction_add_single src acc h hφ hacc (ix2 i j)).trans ?_
  show ∑ k : Fin b, src (h.lift (ix2 i j) k) = _
  exact Finset.sum_congr rfl fun k _ => congrArg src (lift_mid h i j k)

/-- The source index of a reduction over the rows of an [a, b] array: i with the column k inserted is (i, k). -/
theorem lift_row (h : (⟨2, ![a, b]⟩ : Shape).Reduces [(1 : Fin 2)] ⟨1, ![a]⟩) (i : Fin a) (k : Fin b) :
    h.lift (ix1 i) k = ix2 i k := by
  funext d
  apply Fin.ext
  show h.liftVal (ix1 i) k.val d = (ix2 i k d).val
  unfold Shape.Reduces.liftVal
  match d with
  | ⟨0, _⟩ => rfl
  | ⟨1, _⟩ => rfl

/-- Over the extended reals a sum along the rows of an [a, b] array, from the zero accumulator, is at i the sum over k
    of the entries (i, k). -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = _
  exact Finset.sum_congr rfl fun k _ => congrArg src (lift_row h i k)

/-- Over the extended reals a running maximum along the rows of an [a, b] array is at i the fold of max, from the
    accumulator's value, over the entries (i, k). -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.maximumf.neutral φ hφ) (i : Fin a) :
    multiReduction .maximumf [(1 : Fin 2)] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  have e : (src ∘ h.lift (ix1 i)) = fun k => src (ix2 i k) := funext fun k => congrArg src (lift_row h i k)
  show (Finset.univ : Finset (Fin b)).fold max (Ideal.ofBits φ acc) (src ∘ h.lift (ix1 i)) = _
  rw [e]
  rfl

end Cert.SlabLayout

end
-- ==== Proof.KPay.lean ====
import proofs.«146436_j3985729651483_1_alg».proof.Proof.Gen.KernelIdeal.Skeleton
import proofs.«146436_j3985729651483_1_alg».proof.Proof.BtmSpec
import proofs.«146436_j3985729651483_1_alg».proof.Proof.LibLastAxis
import proofs.«146436_j3985729651483_1_alg».proof.Proof.LibSlabLayout
import Idealize.ShloMosaic.Lib.ValueLayout
import Idealize.ShloMosaic.Lib.ValueIdx
import Idealize.ShloMosaic.Lib.Pipeline.Value

/-! The kernel's three stored values read at an entry, at the exact (extended-real) instance: the zeroed accumulator,
   one accumulation step over a 256-lane tile, the scaled output; and the four steps chained into the mean over the
   1024 columns. -/

noncomputable section

namespace Cert.KernelIdeal.KPay

open Idealize.ShloMosaic Idealize.ShloMosaic.ValueIdx Cert.KernelIdeal Cert.KernelIdeal.Gen

/-- A [1, a, b] array broadcast to [c, a, b] reads, at (p, i, j), the operand's one slab at (0, i, j). -/
theorem broadcastTo_1ab_cab_apply {α : Type} {a b c : ℕ} (x : (⟨3, ![1, a, b]⟩ : Shape).Idx → α)
    (h : (⟨3, ![1, a, b]⟩ : Shape).Broadcasts ⟨3, ![c, a, b]⟩) (p : Fin c) (i : Fin a) (j : Fin b) :
    broadcastTo ⟨3, ![c, a, b]⟩ x h (ix3 p i j) = x (ix3 (0 : Fin 1) i j) := by
  refine broadcastTo_apply x h (ix3 p i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- The accumulator's first value: the zero vector reads `0` at every entry (the word `+0.0` denotes `0`). -/
theorem pay1_apply (b : Fin 32) (r : Fin 256) : Gen.k0_pay1 (F := Ideal) (ix2 b r) = 0 := by
  show Ideal.ofBits .f32 0x00000000#32 = 0
  exact Btm.ofBits_zero

/-- One accumulation step at the entry (b, r): the accumulator's entry plus the sum over the 256 lanes j of
    tanh (x0[b, r] + x1[r, j]). The row block x0 is laid along a new trailing axis and the tile x1 along a new
    leading axis, both are broadcast to [32, 256, 256], added, passed through tanh, and summed along the last axis
    from the zero accumulator. -/
theorem pay2_apply (x0 : Vec Ideal S32x256 .f32) (x1 : Vec Ideal S256x256 .f32) (s : Vec Ideal S32x256 .f32)
    (b : Fin 32) (r : Fin 256) :
    Gen.k0_pay2 (F := Ideal) x0 x1 s (ix2 b r)
      = s (ix2 b r) + ∑ j : Fin 256, Ideal.tanh (x0 (ix2 b r) + x1 (ix2 r j)) := by
  unfold Gen.k0_pay2
  simp only [shapeCast_self]
  refine congrArg (s (ix2 b r) + ·) ?_
  refine (LastAxis.lastSum_apply _ _ reduces_S32x256x256_S32x256 _ _ b r).trans ?_
  refine Finset.sum_congr rfl fun j _ => ?_
  exact congrArg₂ (fun u v => Ideal.tanh (u + v))
    ((SlabLayout.broadcastTo_ab1_abc_apply _ _ b r j).trans (SlabLayout.shapeCast_ab_ab1_apply x0 _ b r 0))
    ((broadcastTo_1ab_cab_apply _ _ b r j).trans (shapeCast_ab_1ab_apply x1 _ 0 r j))

/-- The output step at the entry (b, r): the accumulator's entry times the value of the word `0x3A800000`. -/
theorem pay3_apply (v : Vec Ideal S32x256 .f32) (b : Fin 32) (r : Fin 256) :
    Gen.k0_pay3 (F := Ideal) v (ix2 b r) = v (ix2 b r) * Ideal.ofBits .f32 0x3A800000#32 := rfl

/-- The whole accumulation at the entry (b, r) over the four column tiles. Zeroing the accumulator, adding the lane
    sums of tanh (cb[b, r] + w_k[r, j]) for the tiles k = 0, 1, 2, 3 in turn, and scaling by `2^-10` gives the mean over
    the 1024 columns j of tanh (cb[b, r] + w_(j / 256)[r, j % 256]). -/
theorem chain_apply (cb : Vec Ideal S32x256 .f32) (wb : Fin 4 → Vec Ideal S256x256 .f32) (b : Fin 32) (r : Fin 256) :
    Gen.k0_pay3 (F := Ideal) (Gen.k0_pay2 cb (wb 3) (Gen.k0_pay2 cb (wb 2) (Gen.k0_pay2 cb (wb 1)
        (Gen.k0_pay2 cb (wb 0) (Gen.k0_pay1 (F := Ideal)))))) (ix2 b r)
      = Btm.mean1024 (fun j : Fin 1024 =>
          Ideal.tanh (cb (ix2 b r) + wb ⟨j.val / 256, by omega⟩ (ix2 r ⟨j.val % 256, by omega⟩))) := by
  rw [pay3_apply, pay2_apply, pay2_apply, pay2_apply, pay2_apply, pay1_apply]
  exact Btm.blocked (fun k j => Ideal.tanh (cb (ix2 b r) + wb k (ix2 r j)))

/-! The second launch's payloads are the first launch's, operation for operation. -/

/-- The second launch's zero vector is the first launch's. -/
theorem k1_pay1_eq : Gen.k1_pay1 (F := Ideal) = Gen.k0_pay1 (F := Ideal) := rfl

/-- The second launch's accumulation step is the first launch's. -/
theorem k1_pay2_eq (x0 : Vec Ideal S32x256 .f32) (x1 : Vec Ideal S256x256 .f32) (s : Vec Ideal S32x256 .f32) :
    Gen.k1_pay2 (F := Ideal) x0 x1 s = Gen.k0_pay2 (F := Ideal) x0 x1 s := rfl

/-- The second launch's output step is the first launch's. -/
theorem k1_pay3_eq (v : Vec Ideal S32x256 .f32) : Gen.k1_pay3 (F := Ideal) v = Gen.k0_pay3 (F := Ideal) v := rfl

/-- The second launch's first accumulator value reads `0` at every entry. -/
theorem k1_pay1_apply (b : Fin 32) (r : Fin 256) : Gen.k1_pay1 (F := Ideal) (ix2 b r) = 0 :=
  pay1_apply b r

/-- The second launch's accumulation step at the entry (b, r): the accumulator's entry plus the sum over the 256
    lanes j of tanh (x0[b, r] + x1[r, j]). -/
theorem k1_pay2_apply (x0 : Vec Ideal S32x256 .f32) (x1 : Vec Ideal S256x256 .f32) (s : Vec Ideal S32x256 .f32)
    (b : Fin 32) (r : Fin 256) :
    Gen.k1_pay2 (F := Ideal) x0 x1 s (ix2 b r)
      = s (ix2 b r) + ∑ j : Fin 256, Ideal.tanh (x0 (ix2 b r) + x1 (ix2 r j)) :=
  pay2_apply x0 x1 s b r

/-- The second launch's output step at the entry (b, r): the accumulator's entry times the value of the word
    `0x3A800000`. -/
theorem k1_pay3_apply (v : Vec Ideal S32x256 .f32) (b : Fin 32) (r : Fin 256) :
    Gen.k1_pay3 (F := Ideal) v (ix2 b r) = v (ix2 b r) * Ideal.ofBits .f32 0x3A800000#32 := rfl

/-- The second launch's whole accumulation at the entry (b, r): the mean over the 1024 columns j of
    tanh (cb[b, r] + w_(j / 256)[r, j % 256]), as for the first launch. -/
theorem k1_chain_apply (cb : Vec Ideal S32x256 .f32) (wb : Fin 4 → Vec Ideal S256x256 .f32) (b : Fin 32) (r : Fin 256) :
    Gen.k1_pay3 (F := Ideal) (Gen.k1_pay2 cb (wb 3) (Gen.k1_pay2 cb (wb 2) (Gen.k1_pay2 cb (wb 1)
        (Gen.k1_pay2 cb (wb 0) (Gen.k1_pay1 (F := Ideal)))))) (ix2 b r)
      = Btm.mean1024 (fun j : Fin 1024 =>
          Ideal.tanh (cb (ix2 b r) + wb ⟨j.val / 256, by omega⟩ (ix2 r ⟨j.val % 256, by omega⟩))) :=
  chain_apply cb wb b r

end Cert.KernelIdeal.KPay

end
-- ==== Proof.BtmArray.lean ====
/- The whole [32, 1024] array of row means: entry (b, n) is the mean over the 1024 columns j of tanh (c[b, n] + w[n, j]). -/
import proofs.«146436_j3985729651483_1_alg».proof.Proof.BtmSpec
import Idealize.ShloMosaic.Lib.ValueIdx

noncomputable section

namespace Cert.Btm

open Idealize.ShloMosaic Idealize.ShloMosaic.ValueIdx

/-- The array of row means of a [32, 1024] array `cf` against a [1024, 1024] array `w`: at the index `y = (b, n)` the mean
    over the 1024 columns `j` of `tanh (cf[b, n] + w[n, j])`. -/
def Gmean (cf : (⟨2, ![32, 1024]⟩ : Shape).Idx → EReal) (w : (⟨2, ![1024, 1024]⟩ : Shape).Idx → EReal) :
    (⟨2, ![32, 1024]⟩ : Shape).Idx → EReal :=
  fun y => mean1024 (fun j : Fin 1024 => Ideal.tanh (cf y + w (ix2 ⟨(y 1).val, (y 1).isLt⟩ j)))

/-- The array of row means at the entry (b, n). -/
theorem Gmean_apply (cf : (⟨2, ![32, 1024]⟩ : Shape).Idx → EReal) (w : (⟨2, ![1024, 1024]⟩ : Shape).Idx → EReal)
    (b : Fin 32) (n : Fin 1024) :
    Gmean cf w (ix2 b n) = mean1024 (fun j : Fin 1024 => Ideal.tanh (cf (ix2 b n) + w (ix2 n j))) := rfl

/-- The kernel's four partial sums at one entry are the mean there: for a row `n` of `w` cut into four consecutive
    tiles of 256 columns, zero plus the four tile sums of `tanh (x + w[n, 256 k + j])` in turn, scaled by `2^-10`, is the
    mean over all 1024 columns. -/
theorem blocked_row (x : EReal) (w : (⟨2, ![1024, 1024]⟩ : Shape).Idx → EReal) (n : Fin 1024) :
    ((((0 + ∑ j : Fin 256, Ideal.tanh (x + w (ix2 n ⟨256 * 0 + j.val, by omega⟩)))
        + ∑ j : Fin 256, Ideal.tanh (x + w (ix2 n ⟨256 * 1 + j.val, by omega⟩)))
        + ∑ j : Fin 256, Ideal.tanh (x + w (ix2 n ⟨256 * 2 + j.val, by omega⟩)))
        + ∑ j : Fin 256, Ideal.tanh (x + w (ix2 n ⟨256 * 3 + j.val, by omega⟩)))
        * Ideal.ofBits .f32 0x3A800000#32
      = mean1024 (fun j : Fin 1024 => Ideal.tanh (x + w (ix2 n j))) := by
  refine (blocked (fun (k : Fin 4) (j : Fin 256) =>
    Ideal.tanh (x + w (ix2 n ⟨256 * k.val + j.val, by omega⟩)))).trans ?_
  refine congrArg mean1024 (funext fun j => ?_)
  have e : (⟨256 * (j.val / 256) + j.val % 256, by omega⟩ : Fin 1024) = j := Fin.ext (by show 256 * (j.val / 256) + j.val % 256 = j.val; omega)
  show Ideal.tanh (x + w (ix2 n ⟨256 * (j.val / 256) + j.val % 256, _⟩)) = _
  rw [e]

end Cert.Btm

end
-- ==== Proof.KPayRow.lean ====
import proofs.«146436_j3985729651483_1_alg».proof.Proof.KPay
import proofs.«146436_j3985729651483_1_alg».proof.Proof.BtmArray

/-! The four accumulation steps of one row of tiles, over blocks known only by what they read: when the four row blocks
   read one entry of a [32, 1024] array and the four tiles read four consecutive stretches of 256 columns of one row of a
   [1024, 1024] array, the scaled accumulator is that entry of the array of row means. -/

noncomputable section

namespace Cert.KernelIdeal.KPay

open Idealize.ShloMosaic Idealize.ShloMosaic.ValueIdx Cert.KernelIdeal Cert.KernelIdeal.Gen

/-- The scaled accumulator after the four column tiles of a row of tiles, at the block entry (b, r), is the array of row
    means at (b, n): each row block `c_k` reads `cf[b, n]` at (b, r), and the tile `w_k` reads `w[n, 256 k + j]` at (r, j). -/
theorem chain_value (cf : (⟨2, ![32, 1024]⟩ : Shape).Idx → EReal) (w : (⟨2, ![1024, 1024]⟩ : Shape).Idx → EReal)
    (b : Fin 32) (r : Fin 256) (n : Fin 1024)
    (c0 c1 c2 c3 : Vec Ideal S32x256 .f32) (w0 w1 w2 w3 : Vec Ideal S256x256 .f32)
    (h0 : c0 (ix2 b r) = cf (ix2 b n)) (h1 : c1 (ix2 b r) = cf (ix2 b n))
    (h2 : c2 (ix2 b r) = cf (ix2 b n)) (h3 : c3 (ix2 b r) = cf (ix2 b n))
    (g0 : ∀ j : Fin 256, w0 (ix2 r j) = w (ix2 n ⟨256 * 0 + j.val, by omega⟩))
    (g1 : ∀ j : Fin 256, w1 (ix2 r j) = w (ix2 n ⟨256 * 1 + j.val, by omega⟩))
    (g2 : ∀ j : Fin 256, w2 (ix2 r j) = w (ix2 n ⟨256 * 2 + j.val, by omega⟩))
    (g3 : ∀ j : Fin 256, w3 (ix2 r j) = w (ix2 n ⟨256 * 3 + j.val, by omega⟩)) :
    Gen.k0_pay3 (F := Ideal) (Gen.k0_pay2 c3 w3 (Gen.k0_pay2 c2 w2 (Gen.k0_pay2 c1 w1
        (Gen.k0_pay2 c0 w0 (Gen.k0_pay1 (F := Ideal)))))) (ix2 b r)
      = Btm.Gmean cf w (ix2 b n) := by
  rw [pay3_apply, pay2_apply, pay2_apply, pay2_apply, pay2_apply, pay1_apply, Btm.Gmean_apply, h0, h1, h2, h3]
  simp only [g0, g1, g2, g3]
  exact Btm.blocked_row (cf (ix2 b n)) w n

/-- The same for the second launch's payloads (they are the first launch's, operation for operation). -/
theorem k1_chain_value (cf : (⟨2, ![32, 1024]⟩ : Shape).Idx → EReal) (w : (⟨2, ![1024, 1024]⟩ : Shape).Idx → EReal)
    (b : Fin 32) (r : Fin 256) (n : Fin 1024)
    (c0 c1 c2 c3 : Vec Ideal S32x256 .f32) (w0 w1 w2 w3 : Vec Ideal S256x256 .f32)
    (h0 : c0 (ix2 b r) = cf (ix2 b n)) (h1 : c1 (ix2 b r) = cf (ix2 b n))
    (h2 : c2 (ix2 b r) = cf (ix2 b n)) (h3 : c3 (ix2 b r) = cf (ix2 b n))
    (g0 : ∀ j : Fin 256, w0 (ix2 r j) = w (ix2 n ⟨256 * 0 + j.val, by omega⟩))
    (g1 : ∀ j : Fin 256, w1 (ix2 r j) = w (ix2 n ⟨256 * 1 + j.val, by omega⟩))
    (g2 : ∀ j : Fin 256, w2 (ix2 r j) = w (ix2 n ⟨256 * 2 + j.val, by omega⟩))
    (g3 : ∀ j : Fin 256, w3 (ix2 r j) = w (ix2 n ⟨256 * 3 + j.val, by omega⟩)) :
    Gen.k1_pay3 (F := Ideal) (Gen.k1_pay2 c3 w3 (Gen.k1_pay2 c2 w2 (Gen.k1_pay2 c1 w1
        (Gen.k1_pay2 c0 w0 (Gen.k1_pay1 (F := Ideal)))))) (ix2 b r)
      = Btm.Gmean cf w (ix2 b n) :=
  chain_value cf w b r n c0 c1 c2 c3 w0 w1 w2 w3 h0 h1 h2 h3 g0 g1 g2 g3

end Cert.KernelIdeal.KPay

end
-- ==== Proof.KI.Final0.lean ====
import proofs.«146436_j3985729651483_1_alg».proof.Proof.KI.Dat0
import proofs.«146436_j3985729651483_1_alg».proof.Proof.KPay
import proofs.«146436_j3985729651483_1_alg».proof.Proof.KPayRow
import proofs.«146436_j3985729651483_1_alg».proof.Proof.BtmSpec
import proofs.«146436_j3985729651483_1_alg».proof.Proof.BtmArray
import Idealize.ShloMosaic.Lib.Pipeline.Value
import Idealize.ShloMosaic.Lib.ValueIdx
set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The output array of the first launch after the run, at the exact (extended-real) instance, as one function of the two
    input arrays as the region finds them: entry (b, n) is the mean over the 1024 columns j of tanh (cf[b, n] + w[n, j]). -/

section Region0
variable (V : (c : Dev nD) → (b : Ref sig .tc) → Buf (Elt Ideal) ((c : Thread nD τ).loc b))

/-- The index maps over the grid: at the point `t` (row of tiles `t / 4`, column of tiles `t % 4`) the
    row block of the first input and of the output is block (0, t / 4), the tile of the second input is (t / 4, t % 4). -/
theorem idx_facts0 : ∀ t : Fin cfg0.N,
    win0_0.index t (0 : Fin 2) = 0 ∧ win0_0.index t (1 : Fin 2) = t.val / 4
    ∧ win0_1.index t (0 : Fin 2) = t.val / 4 ∧ win0_1.index t (1 : Fin 2) = t.val % 4
    ∧ win0_2.index t (0 : Fin 2) = 0 ∧ win0_2.index t (1 : Fin 2) = t.val / 4 :=
  (by decide +kernel : ∀ t : Fin grid0.N, _)

/-- The first input's block at the point `t`, at (b, r), is the array at (b, 256 (t / 4) + r). -/
theorem iblk0_0_apply (c : Dev nD) (t : Fin cfg0.N) (b : Fin 32) (r : Fin 256) (k : S32x1024.Idx)
    (hk0 : (k 0).val = b.val) (hk1 : (k 1).val = 256 * (t.val / 4) + r.val) :
    (iblk0 V c 0 t : Vec Ideal S32x256 .f32) (ix2 b r) = (V c main_v67 : S32x1024.Idx → EReal) k := by
  obtain ⟨e0, e1, -, -, -, -⟩ := idx_facts0 t
  unfold iblk0
  rw [View.read_apply]
  show V c main_v67 _ = V c main_v67 _
  congr 1
  funext a
  apply Fin.ext
  match a with
  | ⟨0, _⟩ => show win0_0.index t 0 * 32 + 1 * b.val = (k 0).val; rw [e0, hk0]; omega
  | ⟨1, _⟩ => show win0_0.index t 1 * 256 + 1 * r.val = (k 1).val; rw [e1, hk1]; omega

/-- The second input's tile at the point `t`, at (r, j), is the array at (256 (t / 4) + r, 256 (t % 4) + j). -/
theorem iblk0_1_apply (c : Dev nD) (t : Fin cfg0.N) (r j : Fin 256) (k : S1024x1024.Idx)
    (hk0 : (k 0).val = 256 * (t.val / 4) + r.val) (hk1 : (k 1).val = 256 * (t.val % 4) + j.val) :
    (iblk0 V c 1 t : Vec Ideal S256x256 .f32) (ix2 r j) = (V c main_v77 : S1024x1024.Idx → EReal) k := by
  obtain ⟨-, -, e0, e1, -, -⟩ := idx_facts0 t
  unfold iblk0
  rw [View.read_apply]
  show V c main_v77 _ = V c main_v77 _
  congr 1
  funext a
  apply Fin.ext
  match a with
  | ⟨0, _⟩ => show win0_1.index t 0 * 256 + 1 * r.val = (k 0).val; rw [e0, hk0]; omega
  | ⟨1, _⟩ => show win0_1.index t 1 * 256 + 1 * j.val = (k 1).val; rw [e1, hk1]; omega

/-- The accumulator after the last column of a row of tiles, scaled, at (b, r): the point `t = 4 i + 3` has seen the tiles
    of the columns 0, 1, 2, 3 of the row `i` of tiles at the points `t - 3, t - 2, t - 1, t`, from the zeroed accumulator,
    so its scaled value is the mean over all 1024 columns, at the array's row `n = 256 i + r`. -/
theorem flush_value0 (c : Dev nD) (t : Fin cfg0.N) (ht : t.val % 4 = 3) (b : Fin 32) (r : Fin 256) (n : Fin 1024)
    (hn : n.val = 256 * (t.val / 4) + r.val) :
    k0_pay3 (F := Ideal) (acc0 V c t.val t.isLt) (ix2 b r)
      = Btm.Gmean (V c main_v67 : S32x1024.Idx → EReal) (V c main_v77 : S1024x1024.Idx → EReal) (ix2 b n) := by
  have hN : cfg0.N = 16 := N_0
  have htl := t.isLt
  have l3 := acc0_later V c t (by omega)
  have l2 := acc0_later V c ⟨t.val - 1, by omega⟩ (by show ¬ (t.val - 1) % 4 = 0; omega)
  have l1 := acc0_later V c ⟨t.val - 1 - 1, by omega⟩ (by show ¬ (t.val - 1 - 1) % 4 = 0; omega)
  have l0 := acc0_first V c ⟨t.val - 1 - 1 - 1, by omega⟩ (by show (t.val - 1 - 1 - 1) % 4 = 0; omega)
  rw [l3, l2, l1, l0]
  have hi : (t.val - 1) / 4 = t.val / 4 ∧ (t.val - 1 - 1) / 4 = t.val / 4 ∧ (t.val - 1 - 1 - 1) / 4 = t.val / 4
      ∧ (t.val - 1) % 4 = 2 ∧ (t.val - 1 - 1) % 4 = 1 ∧ (t.val - 1 - 1 - 1) % 4 = 0 := by omega
  obtain ⟨d2, d1, d0, m2, m1, m0⟩ := hi
  refine KPay.chain_value (V c main_v67 : S32x1024.Idx → EReal) (V c main_v77 : S1024x1024.Idx → EReal) b r n
    _ _ _ _ _ _ _ _ ?_ ?_ ?_ ?_ (fun j => ?_) (fun j => ?_) (fun j => ?_) (fun j => ?_)
  · exact iblk0_0_apply V c _ b r (ix2 b n) rfl (by show n.val = 256 * ((t.val - 1 - 1 - 1) / 4) + r.val; rw [d0, hn])
  · exact iblk0_0_apply V c _ b r (ix2 b n) rfl (by show n.val = 256 * ((t.val - 1 - 1) / 4) + r.val; rw [d1, hn])
  · exact iblk0_0_apply V c _ b r (ix2 b n) rfl (by show n.val = 256 * ((t.val - 1) / 4) + r.val; rw [d2, hn])
  · exact iblk0_0_apply V c _ b r (ix2 b n) rfl hn
  · exact iblk0_1_apply V c _ r j _ (by show n.val = 256 * ((t.val - 1 - 1 - 1) / 4) + r.val; rw [d0, hn])
      (by show 256 * 0 + j.val = 256 * ((t.val - 1 - 1 - 1) % 4) + j.val; rw [m0])
  · exact iblk0_1_apply V c _ r j _ (by show n.val = 256 * ((t.val - 1 - 1) / 4) + r.val; rw [d1, hn])
      (by show 256 * 1 + j.val = 256 * ((t.val - 1 - 1) % 4) + j.val; rw [m1])
  · exact iblk0_1_apply V c _ r j _ (by show n.val = 256 * ((t.val - 1) / 4) + r.val; rw [d2, hn])
      (by show 256 * 2 + j.val = 256 * ((t.val - 1) % 4) + j.val; rw [m2])
  · exact iblk0_1_apply V c _ r j _ hn (by show 256 * 3 + j.val = 256 * (t.val % 4) + j.val; rw [ht])

/-- What a flushing point writes back is its block of the array of row means: the output block at the point `t` (a last
    column, `t % 4 = 3`) is the scaled accumulator, whose entry (b, r) is the mean at the array's entry (b, 256 (t / 4) + r). -/
theorem flushed0_eq (c : Dev nD) (t : Fin cfg0.N) (hf : (cfg0.win 2).flush t = true) :
    (dat0 (F := Ideal) V c).flushed 2 t
      = ((cfg0.win 2).blk t).view.read (Elt Ideal)
          (Btm.Gmean (V c main_v67 : S32x1024.Idx → EReal) (V c main_v77 : S1024x1024.Idx → EReal)) := by
  have ht : t.val % 4 = 3 := (flush0_2 t).mp hf
  have hN : cfg0.N = 16 := N_0
  have htl := t.isLt
  obtain ⟨-, -, -, -, e0, e1⟩ := idx_facts0 t
  show (cfg0.win 2).cut (grid0.coords t) ((dat0 V c).after 2 t) = _
  rw [after0_2]
  funext y
  rw [View.read_apply]
  have hy0 : (y 0).val < 32 := (y 0).isLt
  have hy1 : (y 1).val < 256 := (y 1).isLt
  have ey : (cfg0.win 2).xinj (grid0.coords t) y = ix2 (⟨(y 0).val, hy0⟩ : Fin 32) (⟨(y 1).val, hy1⟩ : Fin 256) := by
    funext a; match a with | ⟨0, _⟩ => rfl | ⟨1, _⟩ => rfl
  have eemb : ((cfg0.win 2).blk t).view.emb y
      = ix2 (⟨(y 0).val, hy0⟩ : Fin 32) (⟨256 * (t.val / 4) + (y 1).val, by omega⟩ : Fin 1024) := by
    funext a
    apply Fin.ext
    match a with
    | ⟨0, _⟩ => show win0_2.index t 0 * 32 + 1 * (y 0).val = (y 0).val; rw [e0]; omega
    | ⟨1, _⟩ => show win0_2.index t 1 * 256 + 1 * (y 1).val = 256 * (t.val / 4) + (y 1).val; rw [e1]; omega
  show k0_pay3 (acc0 V c t.val t.isLt) ((cfg0.win 2).xinj (grid0.coords t) y) = Btm.Gmean _ _ (((cfg0.win 2).blk t).view.emb y)
  rw [ey, eemb]
  exact flush_value0 V c t ht _ _ _ rfl

/-- Every entry of the output array is in some flushing point's block: the column `n` lies in the block of columns of the
    row of tiles `n / 256`, written back at its last column, the point `4 (n / 256) + 3`. -/
theorem cover0 (c : Dev nD) (i : ((cfg0.win 2).arr.view.loc (c.tc : Thread nD τ)).2.ty.Idx) :
    ∃ t : Fin cfg0.N, (cfg0.win 2).flush t = true ∧ i ∈ ((cfg0.win 2).blk t).view.set := by
  have hN : cfg0.N = 16 := N_0
  have h0 : (i 0).val < 32 := (i 0).isLt
  have h1 : (i 1).val < 1024 := (i 1).isLt
  obtain ⟨t, ht⟩ : ∃ t : Fin cfg0.N, t.val = 4 * ((i 1).val / 256) + 3 := ⟨⟨4 * ((i 1).val / 256) + 3, by omega⟩, rfl⟩
  obtain ⟨-, -, -, -, e0, e1⟩ := idx_facts0 t
  refine ⟨t, (flush0_2 t).mpr (by omega), ?_⟩
  show i ∈ ((View.whole main_v81).slice (win0_2.rect t)).set
  rw [View.set_slice_whole, Rect.mem_set_unit]
  intro a
  match a with
  | ⟨0, _⟩ =>
    show win0_2.index t 0 * 32 ≤ (i 0).val ∧ (i 0).val < win0_2.index t 0 * 32 + 32
    rw [e0]; omega
  | ⟨1, _⟩ =>
    show win0_2.index t 1 * 256 ≤ (i 1).val ∧ (i 1).val < win0_2.index t 1 * 256 + 256
    rw [e1]; omega

/-- The output array after the run is the array of row means of the two input arrays as the region finds them: entry
    (b, n) is the mean over the 1024 columns j of tanh (cf[b, n] + w[n, j]). -/
theorem final0 (c : Dev nD) :
    (dat0 (F := Ideal) V c).arrAt 2 cfg0.N
      = Btm.Gmean (V c main_v67 : S32x1024.Idx → EReal) (V c main_v77 : S1024x1024.Idx → EReal) :=
  (dat0 (F := Ideal) V c).arrAt_eq_of_cover 2 _ (flushed0_eq V c) (cover0 c)

end Region0

end Cert.KernelIdeal.Hand
end
-- ==== Proof.KI.Final1.lean ====
import proofs.«146436_j3985729651483_1_alg».proof.Proof.KI.Dat1
import proofs.«146436_j3985729651483_1_alg».proof.Proof.KPay
import proofs.«146436_j3985729651483_1_alg».proof.Proof.KPayRow
import proofs.«146436_j3985729651483_1_alg».proof.Proof.BtmSpec
import proofs.«146436_j3985729651483_1_alg».proof.Proof.BtmArray
import Idealize.ShloMosaic.Lib.Pipeline.Value
import Idealize.ShloMosaic.Lib.ValueIdx
set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The output array of the second launch after the run, at the exact (extended-real) instance, as one function of the two
    input arrays as the region finds them: entry (b, n) is the mean over the 1024 columns j of tanh (cf[b, n] + w[n, j]). -/

section Region1
variable (V : (c : Dev nD) → (b : Ref sig .tc) → Buf (Elt Ideal) ((c : Thread nD τ).loc b))

/-- The index maps over the grid: at the point `t` (row of tiles `t / 4`, column of tiles `t % 4`) the
    row block of the first input and of the output is block (0, t / 4), the tile of the second input is (t / 4, t % 4). -/
theorem idx_facts1 : ∀ t : Fin cfg1.N,
    win1_0.index t (0 : Fin 2) = 0 ∧ win1_0.index t (1 : Fin 2) = t.val / 4
    ∧ win1_1.index t (0 : Fin 2) = t.val / 4 ∧ win1_1.index t (1 : Fin 2) = t.val % 4
    ∧ win1_2.index t (0 : Fin 2) = 0 ∧ win1_2.index t (1 : Fin 2) = t.val / 4 :=
  (by decide +kernel : ∀ t : Fin grid1.N, _)

/-- The first input's block at the point `t`, at (b, r), is the array at (b, 256 (t / 4) + r). -/
theorem iblk1_0_apply (c : Dev nD) (t : Fin cfg1.N) (b : Fin 32) (r : Fin 256) (k : S32x1024.Idx)
    (hk0 : (k 0).val = b.val) (hk1 : (k 1).val = 256 * (t.val / 4) + r.val) :
    (iblk1 V c 0 t : Vec Ideal S32x256 .f32) (ix2 b r) = (V c main_v74 : S32x1024.Idx → EReal) k := by
  obtain ⟨e0, e1, -, -, -, -⟩ := idx_facts1 t
  unfold iblk1
  rw [View.read_apply]
  show V c main_v74 _ = V c main_v74 _
  congr 1
  funext a
  apply Fin.ext
  match a with
  | ⟨0, _⟩ => show win1_0.index t 0 * 32 + 1 * b.val = (k 0).val; rw [e0, hk0]; omega
  | ⟨1, _⟩ => show win1_0.index t 1 * 256 + 1 * r.val = (k 1).val; rw [e1, hk1]; omega

/-- The second input's tile at the point `t`, at (r, j), is the array at (256 (t / 4) + r, 256 (t % 4) + j). -/
theorem iblk1_1_apply (c : Dev nD) (t : Fin cfg1.N) (r j : Fin 256) (k : S1024x1024.Idx)
    (hk0 : (k 0).val = 256 * (t.val / 4) + r.val) (hk1 : (k 1).val = 256 * (t.val % 4) + j.val) :
    (iblk1 V c 1 t : Vec Ideal S256x256 .f32) (ix2 r j) = (V c main_v80 : S1024x1024.Idx → EReal) k := by
  obtain ⟨-, -, e0, e1, -, -⟩ := idx_facts1 t
  unfold iblk1
  rw [View.read_apply]
  show V c main_v80 _ = V c main_v80 _
  congr 1
  funext a
  apply Fin.ext
  match a with
  | ⟨0, _⟩ => show win1_1.index t 0 * 256 + 1 * r.val = (k 0).val; rw [e0, hk0]; omega
  | ⟨1, _⟩ => show win1_1.index t 1 * 256 + 1 * j.val = (k 1).val; rw [e1, hk1]; omega

/-- The accumulator after the last column of a row of tiles, scaled, at (b, r): the point `t = 4 i + 3` has seen the tiles
    of the columns 0, 1, 2, 3 of the row `i` of tiles at the points `t - 3, t - 2, t - 1, t`, from the zeroed accumulator,
    so its scaled value is the mean over all 1024 columns, at the array's row `n = 256 i + r`. -/
theorem flush_value1 (c : Dev nD) (t : Fin cfg1.N) (ht : t.val % 4 = 3) (b : Fin 32) (r : Fin 256) (n : Fin 1024)
    (hn : n.val = 256 * (t.val / 4) + r.val) :
    k1_pay3 (F := Ideal) (acc1 V c t.val t.isLt) (ix2 b r)
      = Btm.Gmean (V c main_v74 : S32x1024.Idx → EReal) (V c main_v80 : S1024x1024.Idx → EReal) (ix2 b n) := by
  have hN : cfg1.N = 16 := N_1
  have htl := t.isLt
  have l3 := acc1_later V c t (by omega)
  have l2 := acc1_later V c ⟨t.val - 1, by omega⟩ (by show ¬ (t.val - 1) % 4 = 0; omega)
  have l1 := acc1_later V c ⟨t.val - 1 - 1, by omega⟩ (by show ¬ (t.val - 1 - 1) % 4 = 0; omega)
  have l0 := acc1_first V c ⟨t.val - 1 - 1 - 1, by omega⟩ (by show (t.val - 1 - 1 - 1) % 4 = 0; omega)
  rw [l3, l2, l1, l0]
  have hi : (t.val - 1) / 4 = t.val / 4 ∧ (t.val - 1 - 1) / 4 = t.val / 4 ∧ (t.val - 1 - 1 - 1) / 4 = t.val / 4
      ∧ (t.val - 1) % 4 = 2 ∧ (t.val - 1 - 1) % 4 = 1 ∧ (t.val - 1 - 1 - 1) % 4 = 0 := by omega
  obtain ⟨d2, d1, d0, m2, m1, m0⟩ := hi
  refine KPay.k1_chain_value (V c main_v74 : S32x1024.Idx → EReal) (V c main_v80 : S1024x1024.Idx → EReal) b r n
    _ _ _ _ _ _ _ _ ?_ ?_ ?_ ?_ (fun j => ?_) (fun j => ?_) (fun j => ?_) (fun j => ?_)
  · exact iblk1_0_apply V c _ b r (ix2 b n) rfl (by show n.val = 256 * ((t.val - 1 - 1 - 1) / 4) + r.val; rw [d0, hn])
  · exact iblk1_0_apply V c _ b r (ix2 b n) rfl (by show n.val = 256 * ((t.val - 1 - 1) / 4) + r.val; rw [d1, hn])
  · exact iblk1_0_apply V c _ b r (ix2 b n) rfl (by show n.val = 256 * ((t.val - 1) / 4) + r.val; rw [d2, hn])
  · exact iblk1_0_apply V c _ b r (ix2 b n) rfl hn
  · exact iblk1_1_apply V c _ r j _ (by show n.val = 256 * ((t.val - 1 - 1 - 1) / 4) + r.val; rw [d0, hn])
      (by show 256 * 0 + j.val = 256 * ((t.val - 1 - 1 - 1) % 4) + j.val; rw [m0])
  · exact iblk1_1_apply V c _ r j _ (by show n.val = 256 * ((t.val - 1 - 1) / 4) + r.val; rw [d1, hn])
      (by show 256 * 1 + j.val = 256 * ((t.val - 1 - 1) % 4) + j.val; rw [m1])
  · exact iblk1_1_apply V c _ r j _ (by show n.val = 256 * ((t.val - 1) / 4) + r.val; rw [d2, hn])
      (by show 256 * 2 + j.val = 256 * ((t.val - 1) % 4) + j.val; rw [m2])
  · exact iblk1_1_apply V c _ r j _ hn (by show 256 * 3 + j.val = 256 * (t.val % 4) + j.val; rw [ht])

/-- What a flushing point writes back is its block of the array of row means: the output block at the point `t` (a last
    column, `t % 4 = 3`) is the scaled accumulator, whose entry (b, r) is the mean at the array's entry (b, 256 (t / 4) + r). -/
theorem flushed1_eq (c : Dev nD) (t : Fin cfg1.N) (hf : (cfg1.win 2).flush t = true) :
    (dat1 (F := Ideal) V c).flushed 2 t
      = ((cfg1.win 2).blk t).view.read (Elt Ideal)
          (Btm.Gmean (V c main_v74 : S32x1024.Idx → EReal) (V c main_v80 : S1024x1024.Idx → EReal)) := by
  have ht : t.val % 4 = 3 := (flush1_2 t).mp hf
  have hN : cfg1.N = 16 := N_1
  have htl := t.isLt
  obtain ⟨-, -, -, -, e0, e1⟩ := idx_facts1 t
  show (cfg1.win 2).cut (grid1.coords t) ((dat1 V c).after 2 t) = _
  rw [after1_2]
  funext y
  rw [View.read_apply]
  have hy0 : (y 0).val < 32 := (y 0).isLt
  have hy1 : (y 1).val < 256 := (y 1).isLt
  have ey : (cfg1.win 2).xinj (grid1.coords t) y = ix2 (⟨(y 0).val, hy0⟩ : Fin 32) (⟨(y 1).val, hy1⟩ : Fin 256) := by
    funext a; match a with | ⟨0, _⟩ => rfl | ⟨1, _⟩ => rfl
  have eemb : ((cfg1.win 2).blk t).view.emb y
      = ix2 (⟨(y 0).val, hy0⟩ : Fin 32) (⟨256 * (t.val / 4) + (y 1).val, by omega⟩ : Fin 1024) := by
    funext a
    apply Fin.ext
    match a with
    | ⟨0, _⟩ => show win1_2.index t 0 * 32 + 1 * (y 0).val = (y 0).val; rw [e0]; omega
    | ⟨1, _⟩ => show win1_2.index t 1 * 256 + 1 * (y 1).val = 256 * (t.val / 4) + (y 1).val; rw [e1]; omega
  show k1_pay3 (acc1 V c t.val t.isLt) ((cfg1.win 2).xinj (grid1.coords t) y) = Btm.Gmean _ _ (((cfg1.win 2).blk t).view.emb y)
  rw [ey, eemb]
  exact flush_value1 V c t ht _ _ _ rfl

/-- Every entry of the output array is in some flushing point's block: the column `n` lies in the block of columns of the
    row of tiles `n / 256`, written back at its last column, the point `4 (n / 256) + 3`. -/
theorem cover1 (c : Dev nD) (i : ((cfg1.win 2).arr.view.loc (c.tc : Thread nD τ)).2.ty.Idx) :
    ∃ t : Fin cfg1.N, (cfg1.win 2).flush t = true ∧ i ∈ ((cfg1.win 2).blk t).view.set := by
  have hN : cfg1.N = 16 := N_1
  have h0 : (i 0).val < 32 := (i 0).isLt
  have h1 : (i 1).val < 1024 := (i 1).isLt
  obtain ⟨t, ht⟩ : ∃ t : Fin cfg1.N, t.val = 4 * ((i 1).val / 256) + 3 := ⟨⟨4 * ((i 1).val / 256) + 3, by omega⟩, rfl⟩
  obtain ⟨-, -, -, -, e0, e1⟩ := idx_facts1 t
  refine ⟨t, (flush1_2 t).mpr (by omega), ?_⟩
  show i ∈ ((View.whole main_v82).slice (win1_2.rect t)).set
  rw [View.set_slice_whole, Rect.mem_set_unit]
  intro a
  match a with
  | ⟨0, _⟩ =>
    show win1_2.index t 0 * 32 ≤ (i 0).val ∧ (i 0).val < win1_2.index t 0 * 32 + 32
    rw [e0]; omega
  | ⟨1, _⟩ =>
    show win1_2.index t 1 * 256 ≤ (i 1).val ∧ (i 1).val < win1_2.index t 1 * 256 + 256
    rw [e1]; omega

/-- The output array after the run is the array of row means of the two input arrays as the region finds them: entry
    (b, n) is the mean over the 1024 columns j of tanh (cf[b, n] + w[n, j]). -/
theorem final1 (c : Dev nD) :
    (dat1 (F := Ideal) V c).arrAt 2 cfg1.N
      = Btm.Gmean (V c main_v74 : S32x1024.Idx → EReal) (V c main_v80 : S1024x1024.Idx → EReal) :=
  (dat1 (F := Ideal) V c).arrAt_eq_of_cover 2 _ (flushed1_eq V c) (cover1 c)

end Region1

end Cert.KernelIdeal.Hand
end
-- ==== Proof.RefMean.lean ====
import proofs.«146436_j3985729651483_1_alg».proof.Proof.Gen.ReferenceIdeal.Read
import proofs.«146436_j3985729651483_1_alg».proof.Proof.BtmSpec

/-! The reference's two row means read at an entry, at the exact (extended-real) instance: each is the mean over
   the 1024 columns j of tanh (c[b, i] + M[i, j]), for the forward pair (c, M) and for the backward pair. -/

noncomputable section

namespace Cert.ReferenceIdeal.RefMean

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-- The forward mean at the entry (b, i): the sum over the 1024 columns j of tanh (cf[b, i] + As[i, j]), started from
    the constant `0`, divided by the constant `1024`. The row vector cf is laid along a new trailing axis and the matrix
    As along a new leading axis, both are broadcast to [32, 1024, 1024], added, passed through tanh, summed along the
    last axis and divided. -/
theorem fr_apply (x0 : (⟨S32x9x9x200, .f32⟩ : BufTy).Contents (Elt Ideal)) (x1 : (⟨S200x3, .f32⟩ : BufTy).Contents (Elt Ideal)) (x2 : (⟨S200, .f32⟩ : BufTy).Contents (Elt Ideal)) (x3 x4 : (⟨S16200, .f32⟩ : BufTy).Contents (Elt Ideal)) (x5 : (⟨S1024x16200, .f32⟩ : BufTy).Contents (Elt Ideal)) (x6 : (⟨S1024, .f32⟩ : BufTy).Contents (Elt Ideal)) (x9 : (⟨S1024x1024x3, .f32⟩ : BufTy).Contents (Elt Ideal)) (x10 : (⟨S1024, .f32⟩ : BufTy).Contents (Elt Ideal)) (x13 : (⟨S1024x1024, .f32⟩ : BufTy).Contents (Elt Ideal)) (x15 : (⟨S1024, .f32⟩ : BufTy).Contents (Elt Ideal)) (b : Fin 32) (i : Fin 1024) :
    val_main_v86 (F := Ideal) x0 x1 x2 x3 x4 x5 x6 x9 x10 x13 x15 (ix2 b i)
      = Btm.mean1024 (fun j : Fin 1024 =>
          Ideal.tanh (val_main_v67 (F := Ideal) x0 x1 x2 x3 x4 x5 x6 x9 x10 (ix2 b i)
            + val_main_v78 (F := Ideal) x13 x15 (ix2 i j))) := by
  rw [val_main_v86_apply, val_main_v84_apply, val_main_v85_apply, val_main_cst_5_apply, val_main_cst_4_apply]
  unfold Btm.mean1024
  refine congrArg (fun S => Ideal.div (Ideal.ofBits .f32 0x00000000#32 + S) (Ideal.ofBits .f32 0x44800000#32)) ?_
  refine Finset.sum_congr rfl fun j _ => ?_
  rw [val_main_v83_apply, val_main_v82_apply, val_main_v80_apply, val_main_v75_apply, val_main_v81_apply,
    val_main_v79_apply]
  have e1 : idx_main_v75 (idx_main_v80 (idx_main_v84 (ix2 b i) j)) = ix2 b i := by
    funext a; match a with | ⟨0, _⟩ => rfl | ⟨1, _⟩ => rfl
  have e2 : idx_main_v79 (idx_main_v81 (idx_main_v84 (ix2 b i) j)) = ix2 i j := by
    funext a; match a with | ⟨0, _⟩ => rfl | ⟨1, _⟩ => rfl
  rw [e1, e2]
  rfl

/-- The backward mean at the entry (b, i): the sum over the 1024 columns j of tanh (cb[b, i] + Bs[i, j]), started from
    the constant `0`, divided by the constant `1024`; the same layout, sum and division as the forward mean, on the
    backward pair. -/
theorem br_apply (x0 : (⟨S32x9x9x200, .f32⟩ : BufTy).Contents (Elt Ideal)) (x1 : (⟨S200x3, .f32⟩ : BufTy).Contents (Elt Ideal)) (x2 : (⟨S200, .f32⟩ : BufTy).Contents (Elt Ideal)) (x3 x4 : (⟨S16200, .f32⟩ : BufTy).Contents (Elt Ideal)) (x7 : (⟨S1024x16200, .f32⟩ : BufTy).Contents (Elt Ideal)) (x8 : (⟨S1024, .f32⟩ : BufTy).Contents (Elt Ideal)) (x11 : (⟨S1024x1024x3, .f32⟩ : BufTy).Contents (Elt Ideal)) (x12 : (⟨S1024, .f32⟩ : BufTy).Contents (Elt Ideal)) (x14 : (⟨S1024x1024, .f32⟩ : BufTy).Contents (Elt Ideal)) (x15 : (⟨S1024, .f32⟩ : BufTy).Contents (Elt Ideal)) (b : Fin 32) (i : Fin 1024) :
    val_main_v98 (F := Ideal) x0 x1 x2 x3 x4 x7 x8 x11 x12 x14 x15 (ix2 b i)
      = Btm.mean1024 (fun j : Fin 1024 =>
          Ideal.tanh (val_main_v74 (F := Ideal) x0 x1 x2 x3 x4 x7 x8 x11 x12 (ix2 b i)
            + val_main_v90 (F := Ideal) x14 x15 (ix2 i j))) := by
  rw [val_main_v98_apply, val_main_v96_apply, val_main_v97_apply, val_main_cst_7_apply, val_main_cst_6_apply]
  unfold Btm.mean1024
  refine congrArg (fun S => Ideal.div (Ideal.ofBits .f32 0x00000000#32 + S) (Ideal.ofBits .f32 0x44800000#32)) ?_
  refine Finset.sum_congr rfl fun j _ => ?_
  rw [val_main_v95_apply, val_main_v94_apply, val_main_v92_apply, val_main_v87_apply, val_main_v93_apply,
    val_main_v91_apply]
  have e1 : idx_main_v87 (idx_main_v92 (idx_main_v96 (ix2 b i) j)) = ix2 b i := by
    funext a; match a with | ⟨0, _⟩ => rfl | ⟨1, _⟩ => rfl
  have e2 : idx_main_v91 (idx_main_v93 (idx_main_v96 (ix2 b i) j)) = ix2 i j := by
    funext a; match a with | ⟨0, _⟩ => rfl | ⟨1, _⟩ => rfl
  rw [e1, e2]
  rfl

end Cert.ReferenceIdeal.RefMean

end
-- ==== Proof.KI.Value.lean ====
import proofs.«146436_j3985729651483_1_alg».proof.Proof.Gen.KernelIdeal.Launch
import proofs.«146436_j3985729651483_1_alg».proof.Proof.Gen.KernelIdeal.Skeleton
import proofs.«146436_j3985729651483_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«146436_j3985729651483_1_alg».proof.Proof.KI.ValueIn
import proofs.«146436_j3985729651483_1_alg».proof.Proof.KI.ValueTail
import proofs.«146436_j3985729651483_1_alg».proof.Proof.KI.Final0
import proofs.«146436_j3985729651483_1_alg».proof.Proof.KI.Final1
import proofs.«146436_j3985729651483_1_alg».proof.Proof.RefMean
import proofs.«146436_j3985729651483_1_alg».proof.Proof.KI.Keep_main_part0_ops0
import proofs.«146436_j3985729651483_1_alg».proof.Proof.KI.Keep_main_part0_ops1
import proofs.«146436_j3985729651483_1_alg».proof.Proof.KI.Keep_main_part0_ops2
import proofs.«146436_j3985729651483_1_alg».proof.Proof.KI.Keep_main_part1_ops0
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The program's result is the reference's result stage of the same arguments: each pallas_call's output array is the
    row mean of tanh(pre-activation + scaled weight) that the reference computes, and the host operations around the
    calls are the reference's own. -/

open Cert.ReferenceIdeal.Read Idealize.ShloMosaic.ValueIdx

variable (m : (ℓ : Loc nD τ sig) → Buf (Elt Ideal) ℓ) (ρ : Dev nD → PrngReg)

theorem W6_main_arg16 (c : Dev nD) : W6 m ρ c (Proc.devRef .tc main_arg16) = m ((c : Thread nD τ).loc main_arg16) :=
  calc W6 m ρ c (Proc.devRef .tc main_arg16)
    _ = W5 m ρ c (Proc.devRef .tc main_arg16) := W6_of_ne m ρ c main_arg16 (by decide)
    _ = W4 m ρ c (Proc.devRef .tc main_arg16) := W5_of_ne m ρ c main_arg16 (by decide)
    _ = W3 m ρ c (Proc.devRef .tc main_arg16) := keep_main_part1_ops0_main_arg16 _
    _ = W2 m ρ c (Proc.devRef .tc main_arg16) := keep_main_part0_ops2_main_arg16 _
    _ = W1 m ρ c (Proc.devRef .tc main_arg16) := keep_main_part0_ops1_main_arg16 _
    _ = W0 m ρ c (Proc.devRef .tc main_arg16) := keep_main_part0_ops0_main_arg16 _
    _ = m ((c : Thread nD τ).loc main_arg16) := rfl

theorem W6_main_arg17 (c : Dev nD) : W6 m ρ c (Proc.devRef .tc main_arg17) = m ((c : Thread nD τ).loc main_arg17) :=
  calc W6 m ρ c (Proc.devRef .tc main_arg17)
    _ = W5 m ρ c (Proc.devRef .tc main_arg17) := W6_of_ne m ρ c main_arg17 (by decide)
    _ = W4 m ρ c (Proc.devRef .tc main_arg17) := W5_of_ne m ρ c main_arg17 (by decide)
    _ = W3 m ρ c (Proc.devRef .tc main_arg17) := keep_main_part1_ops0_main_arg17 _
    _ = W2 m ρ c (Proc.devRef .tc main_arg17) := keep_main_part0_ops2_main_arg17 _
    _ = W1 m ρ c (Proc.devRef .tc main_arg17) := keep_main_part0_ops1_main_arg17 _
    _ = W0 m ρ c (Proc.devRef .tc main_arg17) := keep_main_part0_ops0_main_arg17 _
    _ = m ((c : Thread nD τ).loc main_arg17) := rfl

theorem W6_main_arg18 (c : Dev nD) : W6 m ρ c (Proc.devRef .tc main_arg18) = m ((c : Thread nD τ).loc main_arg18) :=
  calc W6 m ρ c (Proc.devRef .tc main_arg18)
    _ = W5 m ρ c (Proc.devRef .tc main_arg18) := W6_of_ne m ρ c main_arg18 (by decide)
    _ = W4 m ρ c (Proc.devRef .tc main_arg18) := W5_of_ne m ρ c main_arg18 (by decide)
    _ = W3 m ρ c (Proc.devRef .tc main_arg18) := keep_main_part1_ops0_main_arg18 _
    _ = W2 m ρ c (Proc.devRef .tc main_arg18) := keep_main_part0_ops2_main_arg18 _
    _ = W1 m ρ c (Proc.devRef .tc main_arg18) := keep_main_part0_ops1_main_arg18 _
    _ = W0 m ρ c (Proc.devRef .tc main_arg18) := keep_main_part0_ops0_main_arg18 _
    _ = m ((c : Thread nD τ).loc main_arg18) := rfl

theorem W6_main_arg19 (c : Dev nD) : W6 m ρ c (Proc.devRef .tc main_arg19) = m ((c : Thread nD τ).loc main_arg19) :=
  calc W6 m ρ c (Proc.devRef .tc main_arg19)
    _ = W5 m ρ c (Proc.devRef .tc main_arg19) := W6_of_ne m ρ c main_arg19 (by decide)
    _ = W4 m ρ c (Proc.devRef .tc main_arg19) := W5_of_ne m ρ c main_arg19 (by decide)
    _ = W3 m ρ c (Proc.devRef .tc main_arg19) := keep_main_part1_ops0_main_arg19 _
    _ = W2 m ρ c (Proc.devRef .tc main_arg19) := keep_main_part0_ops2_main_arg19 _
    _ = W1 m ρ c (Proc.devRef .tc main_arg19) := keep_main_part0_ops1_main_arg19 _
    _ = W0 m ρ c (Proc.devRef .tc main_arg19) := keep_main_part0_ops0_main_arg19 _
    _ = m ((c : Thread nD τ).loc main_arg19) := rfl

/-- The first call's output array after the second call: the forward mean. -/
theorem W6_v81 (c : Dev nD) :
    (W6 m ρ c (Proc.devRef .tc main_v81) : S32x1024.Idx → EReal) = val_main_v86 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10)) (m ((c.tc : Thread nD τ).loc main_arg13)) (m ((c.tc : Thread nD τ).loc main_arg15)) := by
  have e1 : W6 m ρ c (Proc.devRef .tc main_v81) = W5 m ρ c (Proc.devRef .tc main_v81) := W6_of_ne m ρ c main_v81 (by decide)
  have e2 : W5 m ρ c (Proc.devRef .tc main_v81) = (dat0 (V4 m ρ) c).arrAt 2 cfg0.N := W5_arr m ρ c 2
  refine (e1.trans (e2.trans (final0 (V4 m ρ) c))).trans ?_
  funext y
  obtain ⟨b, i, rfl⟩ : ∃ (b : Fin 32) (i : Fin 1024), y = ix2 b i := ⟨y 0, y 1, eq_ix2 y⟩
  rw [Cert.Btm.Gmean_apply, Cert.ReferenceIdeal.RefMean.fr_apply, cf_eq m ρ c, as_eq m ρ c]

/-- The second call's output array: the backward mean. -/
theorem W6_v82 (c : Dev nD) :
    (W6 m ρ c (Proc.devRef .tc main_v82) : S32x1024.Idx → EReal) = val_main_v98 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg11)) (m ((c.tc : Thread nD τ).loc main_arg12)) (m ((c.tc : Thread nD τ).loc main_arg14)) (m ((c.tc : Thread nD τ).loc main_arg15)) := by
  have e2 : W6 m ρ c (Proc.devRef .tc main_v82) = (dat1 (V5 m ρ) c).arrAt 2 cfg1.N := W6_arr m ρ c 2
  have h74 : (V5 m ρ c main_v74 : S32x1024.Idx → EReal) = V4 m ρ c main_v74 := W5_of_ne m ρ c main_v74 (by decide)
  have h80 : (V5 m ρ c main_v80 : S1024x1024.Idx → EReal) = V4 m ρ c main_v80 := W5_of_ne m ρ c main_v80 (by decide)
  refine (e2.trans (final1 (V5 m ρ) c)).trans ?_
  funext y
  obtain ⟨b, i, rfl⟩ : ∃ (b : Fin 32) (i : Fin 1024), y = ix2 b i := ⟨y 0, y 1, eq_ix2 y⟩
  rw [Cert.Btm.Gmean_apply, Cert.ReferenceIdeal.RefMean.br_apply, h74, h80, cb_eq m ρ c, bs_eq m ρ c]

/-- The result buffer at the return is the reference's result stage of the launch arguments. -/
theorem result_eq (c : Dev nD) :
    (W7 m ρ c (Proc.devRef .tc main_v93) : S32x512.Idx → EReal) = val_main_v109 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) :=
  tail_eq (W6 m ρ c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
    (W6_v81 m ρ c) (W6_v82 m ρ c) (W6_main_arg16 m ρ c) (W6_main_arg17 m ρ c) (W6_main_arg18 m ρ c) (W6_main_arg19 m ρ c)

end Cert.KernelIdeal.Hand
end
-- ==== Proof.lean ====
/-
  The certificate of a broadcast–tanh–mean kernel against its jnp reference.

  The program normalises its input, projects it twice, and for each projection c (a [32,1024] array) and scaled weight
  matrix w (a [1024,1024] array) computes out[b,i] = mean over j of tanh(c[b,i] + w[i,j]); two linear maps of the two
  means are added. The kernel tiles (i,j) into a 4×4 grid of 256×256 tiles: along a row of tiles it keeps a [32,256]
  accumulator in scratch memory, zeroed at the first column, increased at every column by the tile's lane sums
  Σ_j tanh(c[b,i] + w[i,j]), and at the last column it writes accumulator · 2⁻¹⁰ into the output block. The reference
  sums all 1024 terms at once and divides by 1024.

  Frames (both the word-level program and its reading over the extended reals): each pallas_call is run point by point
  with an invariant that carries the accumulator's contents from one grid point to the next; the host operations
  around the calls are folded over the launch memory; no piece writes an argument array.

  Value: over the extended reals addition is associative and commutative, so the four partial sums of a row add up to
  the whole row sum whatever the entries are, and multiplying by 2⁻¹⁰ is dividing by 1024 for every extended real; hence
  each output array is the reference's mean. The host operations before and after the calls are the reference's own,
  operation for operation, so the two results are one function of the arguments.
-/
import proofs.«146436_j3985729651483_1_alg».proof.Defs
import proofs.«146436_j3985729651483_1_alg».proof.Proof.Gen.Kernel
import proofs.«146436_j3985729651483_1_alg».proof.Proof.Gen.KernelIdeal
import proofs.«146436_j3985729651483_1_alg».proof.Proof.Gen.ReferenceIdeal
import proofs.«146436_j3985729651483_1_alg».proof.Proof.Gen.Pre_finite_inputs
import proofs.«146436_j3985729651483_1_alg».proof.Proof.Gen.ReferenceIdeal.Run
import proofs.«146436_j3985729651483_1_alg».proof.Proof.Gen.ReferenceIdeal.Read
import proofs.«146436_j3985729651483_1_alg».proof.Proof.KB.Frame
import proofs.«146436_j3985729651483_1_alg».proof.Proof.KI.Frame
import proofs.«146436_j3985729651483_1_alg».proof.Proof.KI.Value
import Idealize.ShloMosaic.Adequacy
import Idealize.ShloMosaic.Init

noncomputable section

namespace Cert.Proof

open Idealize.ShloMosaic Idealize.ShloMosaic.TcCoe Idealize.SL.Sem

/-- The word-level program runs to the end, faults nowhere and leaves its arguments as launched. -/
theorem frame_k : Cert.frame_Kernel := fun m ρ _ => Cert.Kernel.Hand.frame (F := Bits) m ρ

/-- The same program read over the extended reals. -/
theorem frame_ki : Cert.frame_KernelIdeal := fun m ρ _ => Cert.KernelIdeal.Hand.frame (F := Ideal) m ρ

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- Over the extended reals the program's result and the reference's are the same function of arguments that agree. -/
theorem algebraic : Cert.algebraic_KernelIdeal_ReferenceIdeal := by
  intro m ρ m' ρ' _ hagree
  refine ⟨fun c => Cert.KernelIdeal.Hand.W7 m ρ c (Proc.devRef .tc Cert.KernelIdeal.main_v93),
    Cert.KernelIdeal.Hand.run_named (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v109_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2]
  exact (Cert.KernelIdeal.Hand.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
